-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S256x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  main_v43

def fn_part1 {F : FTy → Type} [FloatOps F] (main_arg5 : FVec F S256 .f32) (main_arg6 : FVec F S256 .f32) (main_arg7 : FVec F S256x128 .f32) (main_arg8 : FVec F S128 .f32) (main_arg9 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256 .f32) (main_arg6 : FVec F S256 .f32) (main_arg7 : FVec F S256x128 .f32) (main_arg8 : FVec F S128 .f32) (main_arg9 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 90
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x1, .bf16⟩
  | .hbm, ⟨28, _⟩ => ⟨S50000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S128x256, .bf16⟩
  | .hbm, ⟨44, _⟩ => ⟨S128x256, .bf16⟩
  | .hbm, ⟨45, _⟩ => ⟨S1x256, .f32⟩
  | .hbm, ⟨46, _⟩ => ⟨S50000x256, .f32⟩
  | .hbm, ⟨47, _⟩ => ⟨S1x256, .f32⟩
  | .hbm, ⟨48, _⟩ => ⟨S1x256, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S1x256, .f32⟩
  | .hbm, ⟨70, _⟩ => ⟨S1x256, .f32⟩
  | .hbm, ⟨71, _⟩ => ⟨S50000x256, .bf16⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x256, .bf16⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S256x128, .bf16⟩
  | .hbm, ⟨87, _⟩ => ⟨S256x128, .bf16⟩
  | .hbm, ⟨88, _⟩ => ⟨S1x128, .f32⟩
  | .hbm, ⟨89, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .bf16⟩
  | .local _ .vmem, ⟨3, _⟩ => ⟨S2000x1, .bf16⟩
  | .local _ .vmem, ⟨4, _⟩ => ⟨S2000x128, .f32⟩
  | .local _ .vmem, ⟨5, _⟩ => ⟨S2000x128, .f32⟩
  | .local _ .vmem, ⟨6, _⟩ => ⟨S128x256, .bf16⟩
  | .local _ .vmem, ⟨7, _⟩ => ⟨S1x256, .f32⟩
  | .local _ .vmem, ⟨8, _⟩ => ⟨S128x256, .bf16⟩
  | .local _ .vmem, ⟨9, _⟩ => ⟨S2000x256, .f32⟩
  | .local _ .vmem, ⟨10, _⟩ => ⟨S2000x256, .f32⟩
  | .local _ .vmem, ⟨11, _⟩ => ⟨S1x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S1x256, .f32⟩
  | .local _ .vmem, ⟨17, _⟩ => ⟨S2000x256, .bf16⟩
  | .local _ .vmem, ⟨18, _⟩ => ⟨S2000x256, .bf16⟩
  | .local _ .vmem, ⟨19, _⟩ => ⟨S2000x256, .f32⟩
  | .local _ .vmem, ⟨20, _⟩ => ⟨S2000x256, .f32⟩
  | .local _ .vmem, ⟨21, _⟩ => ⟨S2000x1, .bf16⟩
  | .local _ .vmem, ⟨22, _⟩ => ⟨S2000x1, .bf16⟩
  | .local _ .vmem, ⟨23, _⟩ => ⟨S2000x256, .bf16⟩
  | .local _ .vmem, ⟨24, _⟩ => ⟨S2000x256, .bf16⟩
  | .local _ .vmem, ⟨25, _⟩ => ⟨S256x128, .bf16⟩
  | .local _ .vmem, ⟨26, _⟩ => ⟨S1x128, .f32⟩
  | .local _ .vmem, ⟨27, _⟩ => ⟨S256x128, .bf16⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v29_2 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  shapeCasts_S1x256_S256 : S1x256.ShapeCasts S256
  bcast_S_S256 : S_.BroadcastsInDim S256 (![] : Fin 0 → Fin S256.rank)
  shapeCasts_S2000x256_S2000x256 : S2000x256.ShapeCasts S2000x256
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S128_S1x128 : S128.ShapeCasts S1x128
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .bf16 = 32 ∨ (Rect.block (s := S50000x1) S2000x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .bf16 = 32 ∨ (Rect.block (s := S50000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .bf16 = 32 ∨ (Rect.block (s := S50000x1) S2000x1.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .bf16 = 32 ∨ (Rect.block (s := S50000x256) S2000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .bf16 = 32 ∨ (Rect.block (s := S256x128) S256x128.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S1x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29_2) S1x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v29_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x256, .f32⟩
  | .hbm, ⟨87, _⟩ => ⟨S_, .f32⟩
  | .hbm, ⟨88, _⟩ => ⟨S50000x256, .f32⟩
  | .hbm, ⟨89, _⟩ => ⟨S800000x1, .i32⟩
  | .hbm, ⟨90, _⟩ => ⟨S50000x256, .f32⟩
  | .hbm, ⟨91, _⟩ => ⟨S_, .f32⟩
  | .hbm, ⟨92, _⟩ => ⟨S800000, .f32⟩
  | .hbm, ⟨93, _⟩ => ⟨S_, .f32⟩
  | .hbm, ⟨94, _⟩ => ⟨S50000, .f32⟩
  | .hbm, ⟨95, _⟩ => ⟨S800000x1, .i32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x256, .f32⟩
  | .hbm, ⟨102, _⟩ => ⟨S50000x256, .f32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call0_cst : Ref sig .tc := ⟨.hbm, 75, rfl⟩
abbrev main_call0_v0 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Pieces0.lean ====
/-
  What each case of the first kernel's body leaves in its three output buffers, as values of the blocks it loaded.

  Every store covers its whole buffer, so a buffer holds the payload of the last store into it.  At the first grid point
  the two statistics rows are first set to zero and read back, so the running rows start from the zero row; at every
  later point they start from what the point before left.
-/
import proofs.«130728_j3418793967880_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

theorem out_B_6 (c : Dev nD) (i : grid0.Coords) (arg1 : Memref sig .tc .vmem S2000x128 .f32) (harg1 : arg1.IsWhole) (arg2 : Memref sig .tc .vmem S2000x1 .bf16) (harg2 : arg2.IsWhole) (arg3 : Memref sig .tc .vmem S2000x128 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S2000x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (x0 : Vec F S2000x128 .f32) (x1 : Vec F S2000x1 .bf16) (x2 : Vec F S2000x128 .f32) (x3 : Vec F S128x256 .bf16) (x4 : Vec F S1x256 .f32) (x5 : Vec F S128x256 .bf16) (xo7 xo8 : Vec F S1x256 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x1 x0 x2 x3 x5 x4 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x256) hz, View.ld_unit_zero (S := S1x256) hz, View.ld_unit_zero (S := S2000x256) hz]

theorem out_B_7 (c : Dev nD) (i : grid0.Coords) (arg1 : Memref sig .tc .vmem S2000x128 .f32) (harg1 : arg1.IsWhole) (arg2 : Memref sig .tc .vmem S2000x1 .bf16) (harg2 : arg2.IsWhole) (arg3 : Memref sig .tc .vmem S2000x128 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S2000x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (x0 : Vec F S2000x128 .f32) (x1 : Vec F S2000x1 .bf16) (x2 : Vec F S2000x128 .f32) (x3 : Vec F S128x256 .bf16) (x4 : Vec F S1x256 .f32) (x5 : Vec F S128x256 .bf16) (xo7 xo8 : Vec F S1x256 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x1 x0 x2 x3 x5 x4 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x256) hz, View.ld_unit_zero (S := S1x256) hz, View.ld_unit_zero (S := S2000x256) hz]

theorem out_B_8 (c : Dev nD) (i : grid0.Coords) (arg1 : Memref sig .tc .vmem S2000x128 .f32) (harg1 : arg1.IsWhole) (arg2 : Memref sig .tc .vmem S2000x1 .bf16) (harg2 : arg2.IsWhole) (arg3 : Memref sig .tc .vmem S2000x128 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S2000x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (x0 : Vec F S2000x128 .f32) (x1 : Vec F S2000x1 .bf16) (x2 : Vec F S2000x128 .f32) (x3 : Vec F S128x256 .bf16) (x4 : Vec F S1x256 .f32) (x5 : Vec F S128x256 .bf16) (xo7 xo8 : Vec F S1x256 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x1 x0 x2 x3 x5 x4) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x256) hz, View.ld_unit_zero (S := S1x256) hz, View.ld_unit_zero (S := S2000x256) hz]

theorem out_A_6 (c : Dev nD) (i : grid0.Coords) (arg1 : Memref sig .tc .vmem S2000x128 .f32) (harg1 : arg1.IsWhole) (arg2 : Memref sig .tc .vmem S2000x1 .bf16) (harg2 : arg2.IsWhole) (arg3 : Memref sig .tc .vmem S2000x128 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S2000x256 .f32) (harg7 : arg7.IsWhole) (arg8 : Memref sig .tc .vmem S1x256 .f32) (harg8 : arg8.IsWhole) (arg9 : Memref sig .tc .vmem S1x256 .f32) (harg9 : arg9.IsWhole) (hc0 : cond0_0 i) (x0 : Vec F S2000x128 .f32) (x1 : Vec F S2000x1 .bf16) (x2 : Vec F S2000x128 .f32) (x3 : Vec F S128x256 .bf16) (x4 : Vec F S1x256 .f32) (x5 : Vec F S128x256 .bf16) :
    out0_A_6 c i arg1 harg1 arg2 harg2 arg3 harg3 arg4 harg4 arg5 harg5 arg6 harg6 arg7 harg7 arg8 harg8 arg9 harg9 hc0 x0 x1 x2 x3 x4 x5 = k0_pay4 x1 x0 x2 x3 x5 x4 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x256) hz, View.ld_unit_zero (S := S1x256) hz, View.ld_unit_zero (S := S2000x256) hz]

theorem out_A_7 (c : Dev nD) (i : grid0.Coords) (arg1 : Memref sig .tc .vmem S2000x128 .f32) (harg1 : arg1.IsWhole) (arg2 : Memref sig .tc .vmem S2000x1 .bf16) (harg2 : arg2.IsWhole) (arg3 : Memref sig .tc .vmem S2000x128 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S2000x256 .f32) (harg7 : arg7.IsWhole) (arg8 : Memref sig .tc .vmem S1x256 .f32) (harg8 : arg8.IsWhole) (arg9 : Memref sig .tc .vmem S1x256 .f32) (harg9 : arg9.IsWhole) (hc0 : cond0_0 i) (x0 : Vec F S2000x128 .f32) (x1 : Vec F S2000x1 .bf16) (x2 : Vec F S2000x128 .f32) (x3 : Vec F S128x256 .bf16) (x4 : Vec F S1x256 .f32) (x5 : Vec F S128x256 .bf16) :
    out0_A_7 c i arg1 harg1 arg2 harg2 arg3 harg3 arg4 harg4 arg5 harg5 arg6 harg6 arg7 harg7 arg8 harg8 arg9 harg9 hc0 x0 x1 x2 x3 x4 x5 = k0_pay5 x1 x0 x2 x3 x5 x4 (k0_pay2 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x256) hz, View.ld_unit_zero (S := S1x256) hz, View.ld_unit_zero (S := S2000x256) hz]

theorem out_A_8 (c : Dev nD) (i : grid0.Coords) (arg1 : Memref sig .tc .vmem S2000x128 .f32) (harg1 : arg1.IsWhole) (arg2 : Memref sig .tc .vmem S2000x1 .bf16) (harg2 : arg2.IsWhole) (arg3 : Memref sig .tc .vmem S2000x128 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S2000x256 .f32) (harg7 : arg7.IsWhole) (arg8 : Memref sig .tc .vmem S1x256 .f32) (harg8 : arg8.IsWhole) (arg9 : Memref sig .tc .vmem S1x256 .f32) (harg9 : arg9.IsWhole) (hc0 : cond0_0 i) (x0 : Vec F S2000x128 .f32) (x1 : Vec F S2000x1 .bf16) (x2 : Vec F S2000x128 .f32) (x3 : Vec F S128x256 .bf16) (x4 : Vec F S1x256 .f32) (x5 : Vec F S128x256 .bf16) :
    out0_A_8 c i arg1 harg1 arg2 harg2 arg3 harg3 arg4 harg4 arg5 harg5 arg6 harg6 arg7 harg7 arg8 harg8 arg9 harg9 hc0 x0 x1 x2 x3 x4 x5 = k0_pay1 (k0_pay4 x1 x0 x2 x3 x5 x4) (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg6.read_unread, harg8.read_unread, harg9.read_unread, View.ld_unit_zero (S := S2000x128) hz, View.ld_unit_zero (S := S2000x1) hz, View.ld_unit_zero (S := S128x256) hz, View.ld_unit_zero (S := S1x256) hz, View.ld_unit_zero (S := S2000x256) hz]

end Cert.KernelIdeal.Pieces

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibSageLinear.lean ====
/-
  A linear mean-aggregation layer on a block of rows, entry by entry, at the ideal values (floats extended reals, every
  operation exact, a change of float format the identity).

  The vector unit takes a block a0 [B, K] of neighbour sums, a column d0 [B, 1] of per-row factors, a block xb [B, K] of
  the nodes' own features, two weight matrices [K, C] and a bias row [1, C].  It widens the column, spreads it over
  the lanes, multiplies the sums by it, narrows the product, multiplies it on the matrix unit into a zero
  accumulator, adds the bias row spread down the rows, and adds the second product.  Read at a block-local index
  (p, q) this is

      (Σ_k (a0 (p, k) · d0 (p, 0)) · wl (k, q) + b (0, q)) + Σ_k xb (p, k) · wr (k, q).

  Sums and products stay in the order written: nothing needs an entry to be finite.
-/
import proofs.«130728_j3418793967880_2_alg».proof.Proof.LibPlainDot
import proofs.«130728_j3418793967880_2_alg».proof.Proof.LibColumns
import proofs.«130728_j3418793967880_2_alg».proof.Proof.LibRows
import Idealize.ShloMosaic.Lib.Pipeline.Value
import Idealize.ShloMosaic.Lib.ValueIdx
import Idealize.ShloMosaic.PureOps.Ideal.Laws

noncomputable section

namespace Cert.Lib.SageLinear

open Idealize.ShloMosaic Idealize.ShloMosaic.ValueIdx
open scoped BigOperators

variable {B K C : Nat}

/-- The layer's body on a block of B rows, read at (p, q). -/
theorem lin_body {ψa ψl ψx ψr ψd : FTy} (a0 : FVec Ideal ⟨2, ![B, K]⟩ .f32) (d0 : FVec Ideal ⟨2, ![B, 1]⟩ ψd)
    (xb : FVec Ideal ⟨2, ![B, K]⟩ ψx) (wl0 : FVec Ideal ⟨2, ![K, C]⟩ ψl) (wr0 : FVec Ideal ⟨2, ![K, C]⟩ ψr)
    (b0 : FVec Ideal ⟨2, ![1, C]⟩ .f32) (gd : ψd.bits < FTy.f32.bits) (ga : ψa.bits < FTy.f32.bits)
    (h2 : (⟨2, ![B, 1]⟩ : Shape).Broadcasts ⟨2, ![B, K]⟩) (h4 : (⟨2, ![1, C]⟩ : Shape).Broadcasts ⟨2, ![B, C]⟩)
    (prec prec' : Option ContractPrecision) (p : Fin B) (q : Fin C) :
    addf (addf
          (matmul (DotDims.plain B K C) prec (truncf ψa (mulf a0 (broadcastTo ⟨2, ![B, K]⟩ (extf .f32 d0 gd) h2)) ga) wl0
            (constant (F := Ideal) ⟨2, ![B, C]⟩ .f32 0x00000000#32))
          (broadcastTo ⟨2, ![B, C]⟩ b0 h4))
        (matmul (DotDims.plain B K C) prec' xb wr0 (constant (F := Ideal) ⟨2, ![B, C]⟩ .f32 0x00000000#32)) (ix2 p q)
      = ((∑ k : Fin K, (a0 (ix2 p k) * d0 (ix2 p 0)) * wl0 (ix2 k q)) + b0 (ix2 0 q)) + ∑ k : Fin K, xb (ix2 p k) * wr0 (ix2 k q) := by
  rw [addf_apply, addf_apply, Cert.Lib.PlainDot.matmul_plain_zero_apply, Cert.Lib.PlainDot.matmul_plain_zero_apply,
    Cert.Lib.Rows.broadcastTo_row_apply]
  refine congrArg₂ (· + ·) (congrArg (· + b0 (ix2 0 q)) (Finset.sum_congr rfl fun k _ => ?_)) rfl
  rw [truncf_apply, mulf_apply, Cert.Columns.broadcastTo_a1_ab_apply _ h2 p k 0, extf_apply]

/-- A scale-and-shift by two rows, clamped below at a splat scalar and narrowed: at (p, q) it is
    max (h (p, q) · s (0, q) + t (0, q), z). -/
theorem affine_body {ψ : FTy} (h0 : FVec Ideal ⟨2, ![B, C]⟩ .f32) (s0 t0 : FVec Ideal ⟨2, ![1, C]⟩ .f32) (z : Ideal .f32)
    (g : ψ.bits < FTy.f32.bits) (h4 h4' : (⟨2, ![1, C]⟩ : Shape).Broadcasts ⟨2, ![B, C]⟩) (p : Fin B) (q : Fin C) :
    truncf ψ (maximumf (addf (mulf h0 (broadcastTo ⟨2, ![B, C]⟩ s0 h4)) (broadcastTo ⟨2, ![B, C]⟩ t0 h4'))
        (broadcast ⟨2, ![B, C]⟩ z)) g (ix2 p q)
      = max (h0 (ix2 p q) * s0 (ix2 0 q) + t0 (ix2 0 q)) z := by
  rw [truncf_apply, maximumf_apply, addf_apply, mulf_apply, broadcast_apply, Cert.Lib.Rows.broadcastTo_row_apply,
    Cert.Lib.Rows.broadcastTo_row_apply]

end Cert.Lib.SageLinear

end
-- ==== Proof.LibColumnReduce.lean ====
/-
  A sum down the columns, read at an index, at the ideal values.

  The vector unit's add-reduction of an [a, b] array over its rows (axis 0), from the zero accumulator, read at
  column c, is the plain sum over the a rows r of the entry (r, c): no order of addition is left in it.
-/
import Idealize.ShloMosaic.Lib.ValueIdx
import Idealize.ShloMosaic.PureOps.Ideal.Laws

noncomputable section

namespace Cert.Lib.ColumnReduce

open Idealize.ShloMosaic Idealize.ShloMosaic.ValueIdx
open scoped BigOperators

/-- The row-reduction of an [a, b] array into [b], from the zero word, read at column c: the sum down the column. -/
theorem multiReduction_rows_apply {a b : Nat} (x : FVec Ideal ⟨2, ![a, b]⟩ .f32)
    (h : (⟨2, ![a, b]⟩ : Shape).Reduces [0] ⟨1, ![b]⟩) (c : Fin b) :
    multiReduction .add [0] ⟨1, ![b]⟩ x 0x00000000#32 h (.inl rfl) rfl (ix1 c) = ∑ r : Fin a, x (ix2 r c) := by
  refine (Ideal.multiReduction_add_single x 0x00000000#32 h (.inl rfl) rfl (ix1 c)).trans ?_
  show ∑ k : Fin a, x (h.lift (ix1 c) k) = ∑ r : Fin a, x (ix2 r c)
  refine Finset.sum_congr rfl fun k _ => congrArg x (funext fun d => Fin.ext ?_)
  match d with
  | ⟨0, _⟩ => rfl
  | ⟨1, _⟩ => rfl

end Cert.Lib.ColumnReduce

end
-- ==== Proof.Bodies.lean ====
/-
  What each kernel body computes, entry by entry, at the ideal values.

  The first kernel's block of the hidden layer: at (p, q),
      (Σ_k (agg (p, k) · inv (p, 0)) · Wl (k, q) + b (0, q)) + Σ_k x (p, k) · Wr (k, q);
  its two running column statistics add to the running row the sum down each column of the block, respectively of the
  block's squares.  The second kernel rescales by a row, shifts by a row and clamps at zero; the third is the first
  kernel's layer again with other extents.
-/
import proofs.«130728_j3418793967880_2_alg».proof.Proof.Gen.KernelIdeal.Skeleton
import proofs.«130728_j3418793967880_2_alg».proof.Proof.LibSageLinear
import proofs.«130728_j3418793967880_2_alg».proof.Proof.LibColumnReduce
import proofs.«130728_j3418793967880_2_alg».proof.Proof.LibRows

noncomputable section

namespace Cert.KernelIdeal.Bodies

open Cert.KernelIdeal Cert.KernelIdeal.Gen Idealize.ShloMosaic Idealize.ShloMosaic.ValueIdx
open scoped BigOperators

/-- The plain dimension numbers the kernels' matmuls carry. -/
theorem dot1_plain : dot_S2000x128_S128x256_S2000x256_1_0_0_1_n_n = DotDims.plain 2000 128 256 := rfl
theorem dot2_plain : dot_S2000x256_S256x128_S2000x128_1_0_0_1_n_n = DotDims.plain 2000 256 128 := rfl

/-- The hidden layer's block at (p, q). -/
theorem pay4_apply (v3 : Vec Ideal S2000x1 .bf16) (v6 v11 : Vec Ideal S2000x128 .f32) (v13 v15 : Vec Ideal S128x256 .bf16)
    (v18 : Vec Ideal S1x256 .f32) (p : Fin 2000) (q : Fin 256) :
    k0_pay4 v3 v6 v11 v13 v15 v18 (ix2 p q)
      = ((∑ k : Fin 128, (v6 (ix2 p k) * v3 (ix2 p 0)) * v13 (ix2 k q)) + v18 (ix2 0 q)) + ∑ k : Fin 128, v11 (ix2 p k) * v15 (ix2 k q) := by
  unfold k0_pay4
  simp only [shapeCast_self, dot1_plain]
  exact Cert.Lib.SageLinear.lin_body (ψa := .bf16) v6 v3 (truncf .bf16 v11 bitsLt_bf16_f32) v13 v15 v18 _ _ _ _ none none p q

/-- The running column sums after a block: the row so far plus the sum down each column of the block. -/
theorem pay5_apply (v3 : Vec Ideal S2000x1 .bf16) (v6 v11 : Vec Ideal S2000x128 .f32) (v13 v15 : Vec Ideal S128x256 .bf16)
    (v18 v25 : Vec Ideal S1x256 .f32) (q : Fin 256) :
    k0_pay5 v3 v6 v11 v13 v15 v18 v25 (ix2 0 q) = v25 (ix2 0 q) + ∑ p : Fin 2000, k0_pay4 v3 v6 v11 v13 v15 v18 (ix2 p q) := by
  unfold k0_pay5
  simp only [shapeCast_self]
  rw [addf_apply, Cert.Lib.Rows.shapeCast_vec_row_apply]
  exact congrArg (v25 (ix2 0 q) + ·) (Cert.Lib.ColumnReduce.multiReduction_rows_apply _ _ q)

/-- The running column sums of squares after a block. -/
theorem pay1_apply (v23 : FVec Ideal S2000x256 .f32) (v31 : Vec Ideal S1x256 .f32) (q : Fin 256) :
    k0_pay1 v23 v31 (ix2 0 q) = v31 (ix2 0 q) + ∑ p : Fin 2000, v23 (ix2 p q) * v23 (ix2 p q) := by
  unfold k0_pay1
  simp only [shapeCast_self]
  rw [addf_apply, Cert.Lib.Rows.shapeCast_vec_row_apply]
  exact congrArg (v31 (ix2 0 q) + ·) (Cert.Lib.ColumnReduce.multiReduction_rows_apply _ _ q)

/-- The two rows the first grid point starts the statistics from: the zero word everywhere. -/
theorem pay2_apply (j : S1x256.Idx) : k0_pay2 (F := Ideal) j = Ideal.ofBits .f32 0x00000000#32 := rfl
theorem pay3_apply (j : S1x256.Idx) : k0_pay3 (F := Ideal) j = Ideal.ofBits .f32 0x00000000#32 := rfl

/-- The normalised, clamped hidden layer's block at (p, q). -/
theorem k1_pay1_apply (v0 : Vec Ideal S2000x256 .f32) (v2 v6 : Vec Ideal S1x256 .f32) (p : Fin 2000) (q : Fin 256) :
    k1_pay1 v0 v2 v6 (ix2 p q) = max (v0 (ix2 p q) * v2 (ix2 0 q) + v6 (ix2 0 q)) (Ideal.ofBits .f32 0x00000000#32) := by
  unfold k1_pay1
  simp only [shapeCast_self]
  exact Cert.Lib.SageLinear.affine_body v0 v2 v6 _ _ _ _ p q

/-- The output layer's block at (p, q). -/
theorem k2_pay1_apply (v0 : Vec Ideal S2000x1 .bf16) (v3 : Vec Ideal S2000x256 .f32) (v8 : Vec Ideal S2000x256 .bf16)
    (v10 v12 : Vec Ideal S256x128 .bf16) (v15 : Vec Ideal S1x128 .f32) (p : Fin 2000) (q : Fin 128) :
    k2_pay1 v0 v3 v8 v10 v12 v15 (ix2 p q)
      = ((∑ k : Fin 256, (v3 (ix2 p k) * v0 (ix2 p 0)) * v10 (ix2 k q)) + v15 (ix2 0 q)) + ∑ k : Fin 256, v8 (ix2 p k) * v12 (ix2 k q) := by
  unfold k2_pay1
  simp only [shapeCast_self, dot2_plain]
  exact Cert.Lib.SageLinear.lin_body (ψa := .bf16) v3 v0 v8 v10 v12 v15 _ _ _ _ none none p q

end Cert.KernelIdeal.Bodies

end
-- ==== Proof.Layers.lean ====
/-
  The three kernels' results as whole arrays, entry by entry, at the ideal values.

  `linRow a d x wl wr b` is a linear mean-aggregation layer whose bias is a row [1, C] and whose per-row factors are a
  column [N, 1]:  (Σ_k (a (r, k) · d (r, 0)) · wl (k, q) + b (0, q)) + Σ_k x (r, k) · wr (k, q).
  `affRow h s t` rescales column q of h by s (0, q), shifts it by t (0, q) and clamps at the zero word.
-/
import Idealize.ShloMosaic.PureOps.Ideal
import Idealize.ShloMosaic.Lib.ValueIdx

noncomputable section

namespace Cert.Layers

open Idealize.ShloMosaic Idealize.ShloMosaic.ValueIdx
open scoped BigOperators

variable {N K C : Nat}

/-- A linear layer over the whole array, the bias a row, the factors a column. -/
def linRow {ψd ψx ψl ψr : FTy} (a : FVec Ideal ⟨2, ![N, K]⟩ .f32) (d : FVec Ideal ⟨2, ![N, 1]⟩ ψd) (x : FVec Ideal ⟨2, ![N, K]⟩ ψx)
    (wl : FVec Ideal ⟨2, ![K, C]⟩ ψl) (wr : FVec Ideal ⟨2, ![K, C]⟩ ψr) (b : FVec Ideal ⟨2, ![1, C]⟩ .f32) : FVec Ideal ⟨2, ![N, C]⟩ .f32 :=
  fun i => ((∑ k : Fin K, (a (ix2 ⟨(i 0).val, idx2_lt0 i⟩ k) * d (ix2 ⟨(i 0).val, idx2_lt0 i⟩ 0)) * wl (ix2 k ⟨(i 1).val, idx2_lt1 i⟩))
      + b (ix2 0 ⟨(i 1).val, idx2_lt1 i⟩))
    + ∑ k : Fin K, x (ix2 ⟨(i 0).val, idx2_lt0 i⟩ k) * wr (ix2 k ⟨(i 1).val, idx2_lt1 i⟩)

theorem linRow_apply {ψd ψx ψl ψr : FTy} (a : FVec Ideal ⟨2, ![N, K]⟩ .f32) (d : FVec Ideal ⟨2, ![N, 1]⟩ ψd) (x : FVec Ideal ⟨2, ![N, K]⟩ ψx)
    (wl : FVec Ideal ⟨2, ![K, C]⟩ ψl) (wr : FVec Ideal ⟨2, ![K, C]⟩ ψr) (b : FVec Ideal ⟨2, ![1, C]⟩ .f32) (r : Fin N) (q : Fin C) :
    linRow a d x wl wr b (ix2 r q)
      = ((∑ k : Fin K, (a (ix2 r k) * d (ix2 r 0)) * wl (ix2 k q)) + b (ix2 0 q)) + ∑ k : Fin K, x (ix2 r k) * wr (ix2 k q) := rfl

/-- A scale-and-shift by two rows, clamped at the zero word. -/
def affRow {ψ : FTy} (h : FVec Ideal ⟨2, ![N, C]⟩ .f32) (s t : FVec Ideal ⟨2, ![1, C]⟩ .f32) : FVec Ideal ⟨2, ![N, C]⟩ ψ :=
  fun i => max (h (ix2 ⟨(i 0).val, idx2_lt0 i⟩ ⟨(i 1).val, idx2_lt1 i⟩) * s (ix2 0 ⟨(i 1).val, idx2_lt1 i⟩) + t (ix2 0 ⟨(i 1).val, idx2_lt1 i⟩))
    (Ideal.ofBits .f32 0x00000000#32)

theorem affRow_apply {ψ : FTy} (h : FVec Ideal ⟨2, ![N, C]⟩ .f32) (s t : FVec Ideal ⟨2, ![1, C]⟩ .f32) (r : Fin N) (q : Fin C) :
    affRow (ψ := ψ) h s t (ix2 r q) = max (h (ix2 r q) * s (ix2 0 q) + t (ix2 0 q)) (Ideal.ofBits .f32 0x00000000#32) := rfl

end Cert.Layers

end
-- ==== Proof.Region0Blocks.lean ====
/-
  The first pipeline, read as values.  Grid point t loads rows 2000 t … 2000 t + 1999 of the neighbour sums, of the
  column of reciprocal degrees and of the features, and the whole weights and bias row; it writes the same rows of the
  hidden layer and adds the column sums of those rows, and of their squares, to two running rows that start from the
  zero row at the first point.  After point n the running rows hold zero plus the column sums of blocks 0 … n.
-/
import proofs.«130728_j3418793967880_2_alg».proof.Proof.Gen.KernelIdeal.Frame
import proofs.«130728_j3418793967880_2_alg».proof.Proof.Pieces0
import proofs.«130728_j3418793967880_2_alg».proof.Proof.Bodies
import proofs.«130728_j3418793967880_2_alg».proof.Proof.Layers
import Idealize.ShloMosaic.Lib.Pipeline.Value
import Idealize.ShloMosaic.Lib.ValueIdx

set_option maxRecDepth 16384

noncomputable section

namespace Cert.KernelIdeal.R0

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The printed index maps over the grid: the row-blocked windows sit at block row t, the others at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem lt0 (t : Fin cfg0.N) (p : Fin 2000) : 2000 * t.val + p.val < 50000 := by
  have := t.isLt; have hN : cfg0.N = 25 := N_0; have := p.isLt; omega

/-! ## The blocks a point loads, as entries of the arrays -/

theorem blk0_0 (c : Dev nD) (t : Fin cfg0.N) (p : Fin 2000) (k : Fin 128) :
    (iblk0 V c 0 t : Vec Ideal S2000x128 .f32) (ix2 p k) = (V c (Pipeline.arrRef spec0 0) : Vec Ideal S50000x128 .f32) (ix2 ⟨2000 * t.val + p.val, lt0 t p⟩ k) := by
  unfold iblk0
  rw [View.read_apply]
  refine congrArg (V c (Pipeline.arrRef spec0 0)) (funext fun a => Fin.ext ?_)
  obtain ⟨e0, e1, -⟩ := idx_facts0 t
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

theorem blk0_1 (c : Dev nD) (t : Fin cfg0.N) (p : Fin 2000) (u : Fin 1) :
    (iblk0 V c 1 t : Vec Ideal S2000x1 .bf16) (ix2 p u) = (V c (Pipeline.arrRef spec0 1) : Vec Ideal S50000x1 .bf16) (ix2 ⟨2000 * t.val + p.val, lt0 t p⟩ u) := by
  unfold iblk0
  rw [View.read_apply]
  refine congrArg (V c (Pipeline.arrRef spec0 1)) (funext fun a => Fin.ext ?_)
  obtain ⟨-, -, e0, e1, -⟩ := idx_facts0 t
  match a with
  | ⟨0, _⟩ => show win0_1.index t (0 : Fin 2) * 2000 + 1 * p.val = 2000 * t.val + p.val; rw [e0]; omega
  | ⟨1, _⟩ => show win0_1.index t (1 : Fin 2) * 1 + 1 * u.val = u.val; rw [e1]; omega

theorem blk0_2 (c : Dev nD) (t : Fin cfg0.N) (p : Fin 2000) (k : Fin 128) :
    (iblk0 V c 2 t : Vec Ideal S2000x128 .f32) (ix2 p k) = (V c (Pipeline.arrRef spec0 2) : Vec Ideal S50000x128 .f32) (ix2 ⟨2000 * t.val + p.val, lt0 t p⟩ k) := by
  unfold iblk0
  rw [View.read_apply]
  refine congrArg (V c (Pipeline.arrRef spec0 2)) (funext fun a => Fin.ext ?_)
  obtain ⟨-, -, -, -, e0, e1, -⟩ := idx_facts0 t
  match a with
  | ⟨0, _⟩ => show win0_2.index t (0 : Fin 2) * 2000 + 1 * p.val = 2000 * t.val + p.val; rw [e0]; omega
  | ⟨1, _⟩ => show win0_2.index t (1 : Fin 2) * 128 + 1 * k.val = k.val; rw [e1]; omega

theorem blk0_3 (c : Dev nD) (t : Fin cfg0.N) (k : Fin 128) (q : Fin 256) :
    (iblk0 V c 3 t : Vec Ideal S128x256 .bf16) (ix2 k q) = (V c (Pipeline.arrRef spec0 3) : Vec Ideal S128x256 .bf16) (ix2 k q) := by
  unfold iblk0
  rw [View.read_apply]
  refine congrArg (V c (Pipeline.arrRef spec0 3)) (funext fun a => Fin.ext ?_)
  obtain ⟨-, -, -, -, -, -, e0, e1, -⟩ := idx_facts0 t
  match a with
  | ⟨0, _⟩ => show win0_3.index t (0 : Fin 2) * 128 + 1 * k.val = k.val; rw [e0]; omega
  | ⟨1, _⟩ => show win0_3.index t (1 : Fin 2) * 256 + 1 * q.val = q.val; rw [e1]; omega

theorem blk0_4 (c : Dev nD) (t : Fin cfg0.N) (z : Fin 1) (q : Fin 256) :
    (iblk0 V c 4 t : Vec Ideal S1x256 .f32) (ix2 z q) = (V c (Pipeline.arrRef spec0 4) : Vec Ideal S1x256 .f32) (ix2 z q) := by
  unfold iblk0
  rw [View.read_apply]
  refine congrArg (V c (Pipeline.arrRef spec0 4)) (funext fun a => Fin.ext ?_)
  obtain ⟨-, -, -, -, -, -, -, -, e0, e1, -⟩ := idx_facts0 t
  match a with
  | ⟨0, _⟩ => show win0_4.index t (0 : Fin 2) * 1 + 1 * z.val = z.val; rw [e0]; omega
  | ⟨1, _⟩ => show win0_4.index t (1 : Fin 2) * 256 + 1 * q.val = q.val; rw [e1]; omega

theorem blk0_5 (c : Dev nD) (t : Fin cfg0.N) (k : Fin 128) (q : Fin 256) :
    (iblk0 V c 5 t : Vec Ideal S128x256 .bf16) (ix2 k q) = (V c (Pipeline.arrRef spec0 5) : Vec Ideal S128x256 .bf16) (ix2 k q) := by
  unfold iblk0
  rw [View.read_apply]
  refine congrArg (V c (Pipeline.arrRef spec0 5)) (funext fun a => Fin.ext ?_)
  obtain ⟨-, -, -, -, -, -, -, -, -, -, e0, e1, -⟩ := idx_facts0 t
  match a with
  | ⟨0, _⟩ => show win0_5.index t (0 : Fin 2) * 128 + 1 * k.val = k.val; rw [e0]; omega
  | ⟨1, _⟩ => show win0_5.index t (1 : Fin 2) * 256 + 1 * q.val = q.val; rw [e1]; omega

/-! ## The hidden layer -/

/-- The hidden layer before normalisation, as one array of the arrays the pipeline finds. -/
def hid (c : Dev nD) : FVec Ideal S50000x256 .f32 :=
  Cert.Layers.linRow (ψd := .bf16) (ψx := .f32) (ψl := .bf16) (ψr := .bf16) (V c (Pipeline.arrRef spec0 0) : Vec Ideal S50000x128 .f32) (V c (Pipeline.arrRef spec0 1) : Vec Ideal S50000x1 .bf16)
    (V c (Pipeline.arrRef spec0 2) : Vec Ideal S50000x128 .f32) (V c (Pipeline.arrRef spec0 3) : Vec Ideal S128x256 .bf16)
    (V c (Pipeline.arrRef spec0 5) : Vec Ideal S128x256 .bf16) (V c (Pipeline.arrRef spec0 4) : Vec Ideal S1x256 .f32)

/-- The block of the hidden layer point t computes. -/
def hblk (c : Dev nD) (t : Fin cfg0.N) : FVec Ideal S2000x256 .f32 :=
  k0_pay4 (iblk0 V c 1 t) (iblk0 V c 0 t) (iblk0 V c 2 t) (iblk0 V c 3 t) (iblk0 V c 5 t) (iblk0 V c 4 t)

/-- Entry (p, q) of point t's block is entry (2000 t + p, q) of the hidden layer. -/
theorem hblk_apply (c : Dev nD) (t : Fin cfg0.N) (p : Fin 2000) (q : Fin 256) :
    hblk V c t (ix2 p q) = hid V c (ix2 ⟨2000 * t.val + p.val, lt0 t p⟩ q) := by
  unfold hblk hid
  refine (Cert.KernelIdeal.Bodies.pay4_apply (iblk0 V c 1 t) (iblk0 V c 0 t) (iblk0 V c 2 t) (iblk0 V c 3 t) (iblk0 V c 5 t) (iblk0 V c 4 t) p q).trans ?_
  rw [Cert.Layers.linRow_apply, blk0_1 V c t p 0, blk0_4 V c t 0 q]
  refine congrArg₂ (· + ·) (congrArg (· + _) (Finset.sum_congr rfl fun k _ => ?_)) (Finset.sum_congr rfl fun k _ => ?_)
  · rw [blk0_0 V c t p k, blk0_3 V c t k q]
  · rw [blk0_2 V c t p k, blk0_5 V c t k q]

end Cert.KernelIdeal.R0

end
-- ==== Proof.Region0Acc.lean ====
/-
  The first pipeline's three outputs after each grid point.  The hidden block is the point's own; the two running rows
  hold the zero word plus the column sums, respectively the column sums of squares, of the blocks of points 0 … n.
-/
import proofs.«130728_j3418793967880_2_alg».proof.Proof.Region0Blocks

set_option maxRecDepth 16384

noncomputable section

namespace Cert.KernelIdeal.R0

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- After point n the hidden layer's buffer holds point n's block. -/
theorem outs_fst (c : Dev nD) (n : ℕ) (h : n < cfg0.N) : (outsAt0 V c n h).1 = hblk V c ⟨n, h⟩ := by
  by_cases h0 : (⟨n, h⟩ : Fin cfg0.N).val % 25 = 0
  · rw [outsAt0_A V c ⟨n, h⟩ h0]
    dsimp only
    exact Pieces.out_A_6 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) _ (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩)
  · rw [outsAt0_B V c ⟨n, h⟩ h0]
    dsimp only
    exact Pieces.out_B_6 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) _ (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) _ _

/-- The sum down column q of block j, zero past the last block. -/
def colsum (c : Dev nD) (q : Fin 256) (j : ℕ) : EReal :=
  if hj : j < cfg0.N then ∑ p : Fin 2000, hblk V c ⟨j, hj⟩ (ix2 p q) else 0

/-- The sum of squares down column q of block j, zero past the last block. -/
def colsq (c : Dev nD) (q : Fin 256) (j : ℕ) : EReal :=
  if hj : j < cfg0.N then ∑ p : Fin 2000, hblk V c ⟨j, hj⟩ (ix2 p q) * hblk V c ⟨j, hj⟩ (ix2 p q) else 0

/-- The running sums after point n: zero plus the column sums of blocks 0 … n. -/
theorem outs_sum (c : Dev nD) (q : Fin 256) : ∀ (n : ℕ) (h : n < cfg0.N),
    (outsAt0 V c n h).2.1 (ix2 0 q) = Ideal.ofBits .f32 0x00000000#32 + ∑ j ∈ Finset.range (n + 1), colsum V c q j
  | 0, h => by
    rw [outsAt0_A V c ⟨0, h⟩ rfl]
    dsimp only
    refine (congrFun (Pieces.out_A_7 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) _ (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩)) (ix2 0 q)).trans ?_
    refine (Bodies.pay5_apply (iblk0 V c 1 ⟨0, h⟩) (iblk0 V c 0 ⟨0, h⟩) (iblk0 V c 2 ⟨0, h⟩) (iblk0 V c 3 ⟨0, h⟩) (iblk0 V c 5 ⟨0, h⟩) (iblk0 V c 4 ⟨0, h⟩) _ q).trans ?_
    rw [Bodies.pay2_apply, Finset.sum_range_one]
    unfold colsum
    rw [dif_pos h]
    rfl
  | n + 1, h => by
    have hN : cfg0.N = 25 := N_0
    have hB : ¬ (⟨n + 1, h⟩ : Fin cfg0.N).val % 25 = 0 := by dsimp only; omega
    rw [outsAt0_B V c ⟨n + 1, h⟩ hB]
    dsimp only
    refine (congrFun (Pieces.out_B_7 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) _ (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) _ _) (ix2 0 q)).trans ?_
    refine (Bodies.pay5_apply (iblk0 V c 1 ⟨n + 1, h⟩) (iblk0 V c 0 ⟨n + 1, h⟩) (iblk0 V c 2 ⟨n + 1, h⟩) (iblk0 V c 3 ⟨n + 1, h⟩) (iblk0 V c 5 ⟨n + 1, h⟩) (iblk0 V c 4 ⟨n + 1, h⟩) _ q).trans ?_
    show (outsAt0 V c n _).2.1 (ix2 0 q) + _ = _
    rw [outs_sum c q n (Nat.lt_of_succ_lt h), Finset.sum_range_succ _ (n + 1), add_assoc]
    refine congrArg _ (congrArg _ ?_)
    unfold colsum
    rw [dif_pos h]
    rfl

/-- The running sums of squares after point n: zero plus the column sums of squares of blocks 0 … n. -/
theorem outs_sq (c : Dev nD) (q : Fin 256) : ∀ (n : ℕ) (h : n < cfg0.N),
    (outsAt0 V c n h).2.2 (ix2 0 q) = Ideal.ofBits .f32 0x00000000#32 + ∑ j ∈ Finset.range (n + 1), colsq V c q j
  | 0, h => by
    rw [outsAt0_A V c ⟨0, h⟩ rfl]
    dsimp only
    refine (congrFun (Pieces.out_A_8 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) _ (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩)) (ix2 0 q)).trans ?_
    refine (Bodies.pay1_apply (hblk V c ⟨0, h⟩) _ q).trans ?_
    rw [Bodies.pay3_apply, Finset.sum_range_one]
    unfold colsq
    rw [dif_pos h]
  | n + 1, h => by
    have hN : cfg0.N = 25 := N_0
    have hB : ¬ (⟨n + 1, h⟩ : Fin cfg0.N).val % 25 = 0 := by dsimp only; omega
    rw [outsAt0_B V c ⟨n + 1, h⟩ hB]
    dsimp only
    refine (congrFun (Pieces.out_B_8 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) _ (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) _ _) (ix2 0 q)).trans ?_
    refine (Bodies.pay1_apply (hblk V c ⟨n + 1, h⟩) _ q).trans ?_
    show (outsAt0 V c n _).2.2 (ix2 0 q) + _ = _
    rw [outs_sq c q n (Nat.lt_of_succ_lt h), Finset.sum_range_succ _ (n + 1), add_assoc]
    refine congrArg _ (congrArg _ ?_)
    unfold colsq
    rw [dif_pos h]

end Cert.KernelIdeal.R0

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.LibBlockRuns.lean ====
/-
  Accumulating a blocked sum. A sum over n = K · B indices, cut into K consecutive blocks of B indices, can be
  accumulated block by block: `block K B h f j` is the sum of block j (zero past the last block), and the blocks
  `0, …, K − 1` accumulated in order reach the whole sum — in any commutative additive monoid, for any K and B.
  (A running total that adds one block's sum per step holds, after step j, the sum of blocks `0 … j`, and after the
  last step the whole sum.)
-/
import proofs.«130728_j3418793967880_2_alg».proof.Proof.LibBlockSumGen
import Mathlib.Algebra.BigOperators.Fin
import Mathlib.Algebra.BigOperators.Intervals

open scoped BigOperators

namespace Cert.LibBlockRuns

open Cert.LibBlockSumGen

/-- Block `j` of a sum over `n = K · B` indices: the sum of the `B` terms at the indices `B·j, …, B·j + B − 1`, and zero
    when `j` is past the last block. -/
def block {M : Type*} [AddCommMonoid M] {n : ℕ} (K B : ℕ) (h : n = K * B) (f : Fin n → M) (j : ℕ) : M :=
  if hj : j < K then ∑ l : Fin B, f ⟨B * j + l.val, h ▸ block_index_lt (⟨j, hj⟩ : Fin K) l⟩ else 0

/-- A block inside the range is its `B` terms. -/
theorem block_of_lt {M : Type*} [AddCommMonoid M] {n : ℕ} (K B : ℕ) (h : n = K * B) (f : Fin n → M) (j : ℕ) (hj : j < K) :
    block K B h f j = ∑ l : Fin B, f ⟨B * j + l.val, h ▸ block_index_lt (⟨j, hj⟩ : Fin K) l⟩ :=
  dif_pos hj

/-- The blocks `0, …, j` accumulated are the blocks `0, …, j − 1` accumulated, plus block `j`. -/
theorem sum_range_succ_block {M : Type*} [AddCommMonoid M] {n : ℕ} (K B : ℕ) (h : n = K * B) (f : Fin n → M) (j : ℕ) :
    ∑ i ∈ Finset.range (j + 1), block K B h f i = ∑ i ∈ Finset.range j, block K B h f i + block K B h f j :=
  Finset.sum_range_succ _ _

/-- All `K` blocks accumulated are the whole sum. -/
theorem sum_range_block {M : Type*} [AddCommMonoid M] {n K B : ℕ} (h : n = K * B) (f : Fin n → M) :
    ∑ j ∈ Finset.range K, block K B h f j = ∑ p : Fin n, f p := by
  rw [sum_blocks h f, Finset.sum_range]
  exact Finset.sum_congr rfl fun k _ => dif_pos k.isLt

end Cert.LibBlockRuns
-- ==== Proof.Region0Final.lean ====
/-
  What the first pipeline leaves in its three output arrays.  Every point writes its 2000 rows of the hidden layer
  back, and the points' row blocks tile the array: it ends holding the hidden layer.  The two statistics rows are
  written back once, after the last point: they end holding zero plus the sum down each column of the hidden layer,
  respectively of its squares — a sum over 50000 rows taken as 25 consecutive blocks of 2000.
-/
import proofs.«130728_j3418793967880_2_alg».proof.Proof.Region0Acc
import proofs.«130728_j3418793967880_2_alg».proof.Proof.LibBlockRuns

set_option maxRecDepth 16384

noncomputable section

namespace Cert.KernelIdeal.R0

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The hidden layer's array -/

/-- Point t writes back rows 2000 t … 2000 t + 1999 of the hidden layer. -/
theorem flushed6_eq (c : Dev nD) (t : Fin cfg0.N) :
    (dat0 V c).flushed 6 t = ((cfg0.win 6).blk t).view.read (Elt Ideal) (hid V c) := by
  show (cfg0.win 6).cut (grid0.coords t) ((dat0 V c).after 6 t) = _
  rw [after0_6, outs_fst]
  funext j
  obtain ⟨p, q, rfl⟩ : ∃ (p : Fin 2000) (q : Fin 256), j = ix2 p q := ⟨j 0, j 1, eq_ix2 j⟩
  show hblk V c t (ix2 p q) = hid V c (((cfg0.win 6).blk t).view.emb (ix2 p q))
  rw [hblk_apply]
  refine congrArg (hid V c) (funext fun a => Fin.ext ?_)
  obtain ⟨-, -, -, -, -, -, -, -, -, -, -, -, e0, e1, -⟩ := idx_facts0 t
  match a with
  | ⟨0, _⟩ => show 2000 * t.val + p.val = win0_6.index t (0 : Fin 2) * 2000 + 1 * p.val; rw [e0]; omega
  | ⟨1, _⟩ => show q.val = win0_6.index t (1 : Fin 2) * 256 + 1 * q.val; rw [e1]; omega

theorem mem_blk6 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v29_0).slice (win0_6.rect t)).set ↔ _
  rw [View.set_slice_whole, Rect.mem_set_unit]
  exact Iff.rfl

/-- The hidden layer's array after the pipeline. -/
theorem final6 (c : Dev nD) : (dat0 V c).arrAt 6 cfg0.N = hid V c :=
  (dat0 V c).arrAt_eq_of_cover 6 (hid V c) (fun t _ => flushed6_eq V c t) fun i => by
    have hi0 : (i 0).val < 50000 := (i 0).isLt
    have hi1 : (i 1).val < 256 := (i 1).isLt
    have hN : cfg0.N = 25 := N_0
    refine ⟨⟨(i 0).val / 2000, by omega⟩, flush0_6 _, ?_⟩
    rw [mem_blk6]
    obtain ⟨-, -, -, -, -, -, -, -, -, -, -, -, e0, e1, -⟩ := idx_facts0 ⟨(i 0).val / 2000, by omega⟩
    intro a
    match a with
    | ⟨0, _⟩ =>
      show win0_6.index ⟨(i 0).val / 2000, _⟩ (0 : Fin 2) * 2000 ≤ (i 0).val ∧ (i 0).val < win0_6.index ⟨(i 0).val / 2000, _⟩ (0 : Fin 2) * 2000 + 2000
      rw [e0]; dsimp only; omega
    | ⟨1, _⟩ =>
      show win0_6.index ⟨(i 0).val / 2000, _⟩ (1 : Fin 2) * 256 ≤ (i 1).val ∧ (i 1).val < win0_6.index ⟨(i 0).val / 2000, _⟩ (1 : Fin 2) * 256 + 256
      rw [e1]; omega

/-! ## The two statistics rows -/

/-- The last grid point. -/
abbrev tLast : Fin cfg0.N := ⟨24, by rw [show cfg0.N = 25 from N_0]; decide⟩

/-- The running sums after the last point. -/
def sumRow (c : Dev nD) : Vec Ideal S1x256 .f32 := (outsAt0 V c tLast.val tLast.isLt).2.1
/-- The running sums of squares after the last point. -/
def sqRow (c : Dev nD) : Vec Ideal S1x256 .f32 := (outsAt0 V c tLast.val tLast.isLt).2.2

theorem flush_last (t : Fin cfg0.N) (h : t.val % 25 = 24) : t = tLast := by
  have hN : cfg0.N = 25 := N_0
  have := t.isLt
  exact Fin.ext (by show t.val = 24; omega)

theorem flushed7_eq (c : Dev nD) (t : Fin cfg0.N) (hf : (cfg0.win 7).flush t = true) :
    (dat0 V c).flushed 7 t = ((cfg0.win 7).blk t).view.read (Elt Ideal) (sumRow V c) := by
  obtain rfl : t = tLast := flush_last t ((flush0_7 t).mp hf)
  show (cfg0.win 7).cut (grid0.coords tLast) ((dat0 V c).after 7 tLast) = _
  rw [after0_7]
  funext j
  obtain ⟨z, q, rfl⟩ : ∃ (z : Fin 1) (q : Fin 256), j = ix2 z q := ⟨j 0, j 1, eq_ix2 j⟩
  show sumRow V c (ix2 z q) = sumRow V c (((cfg0.win 7).blk tLast).view.emb (ix2 z q))
  refine congrArg (sumRow V c) (funext fun a => Fin.ext ?_)
  obtain ⟨-, -, -, -, -, -, -, -, -, -, -, -, -, -, e0, e1, -⟩ := idx_facts0 tLast
  match a with
  | ⟨0, _⟩ => show z.val = win0_7.index tLast (0 : Fin 2) * 1 + 1 * z.val; rw [e0]; omega
  | ⟨1, _⟩ => show q.val = win0_7.index tLast (1 : Fin 2) * 256 + 1 * q.val; rw [e1]; omega

theorem flushed8_eq (c : Dev nD) (t : Fin cfg0.N) (hf : (cfg0.win 8).flush t = true) :
    (dat0 V c).flushed 8 t = ((cfg0.win 8).blk t).view.read (Elt Ideal) (sqRow V c) := by
  obtain rfl : t = tLast := flush_last t ((flush0_8 t).mp hf)
  show (cfg0.win 8).cut (grid0.coords tLast) ((dat0 V c).after 8 tLast) = _
  rw [after0_8]
  funext j
  obtain ⟨z, q, rfl⟩ : ∃ (z : Fin 1) (q : Fin 256), j = ix2 z q := ⟨j 0, j 1, eq_ix2 j⟩
  show sqRow V c (ix2 z q) = sqRow V c (((cfg0.win 8).blk tLast).view.emb (ix2 z q))
  refine congrArg (sqRow V c) (funext fun a => Fin.ext ?_)
  obtain ⟨-, -, -, -, -, -, -, -, -, -, -, -, -, -, -, -, e0, e1⟩ := idx_facts0 tLast
  match a with
  | ⟨0, _⟩ => show z.val = win0_8.index tLast (0 : Fin 2) * 1 + 1 * z.val; rw [e0]; omega
  | ⟨1, _⟩ => show q.val = win0_8.index tLast (1 : Fin 2) * 256 + 1 * q.val; rw [e1]; omega

theorem mem_blk7 (t : Fin cfg0.N) (i : S1x256.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v29_1).slice (win0_7.rect t)).set ↔ _
  rw [View.set_slice_whole, Rect.mem_set_unit]
  exact Iff.rfl

theorem mem_blk8 (t : Fin cfg0.N) (i : S1x256.Idx) :
    i ∈ ((cfg0.win 8).blk t).view.set ↔ ∀ a : Fin 2, win0_8.index t a * S1x256.size a ≤ (i a).val ∧ (i a).val < win0_8.index t a * S1x256.size a + S1x256.size a := by
  show i ∈ ((View.whole main_v29_2).slice (win0_8.rect t)).set ↔ _
  rw [View.set_slice_whole, Rect.mem_set_unit]
  exact Iff.rfl

/-- The sums row's array after the pipeline. -/
theorem final7 (c : Dev nD) : (dat0 V c).arrAt 7 cfg0.N = sumRow V c :=
  (dat0 V c).arrAt_eq_of_cover 7 (sumRow V c) (flushed7_eq V c) fun i => by
    have hi0 : (i 0).val < 1 := (i 0).isLt
    have hi1 : (i 1).val < 256 := (i 1).isLt
    refine ⟨tLast, (flush0_7 tLast).mpr rfl, ?_⟩
    rw [mem_blk7]
    obtain ⟨-, -, -, -, -, -, -, -, -, -, -, -, -, -, e0, e1, -⟩ := idx_facts0 tLast
    intro a
    match a with
    | ⟨0, _⟩ => show win0_7.index tLast (0 : Fin 2) * 1 ≤ (i 0).val ∧ (i 0).val < win0_7.index tLast (0 : Fin 2) * 1 + 1; rw [e0]; omega
    | ⟨1, _⟩ => show win0_7.index tLast (1 : Fin 2) * 256 ≤ (i 1).val ∧ (i 1).val < win0_7.index tLast (1 : Fin 2) * 256 + 256; rw [e1]; omega

/-- The sums-of-squares row's array after the pipeline. -/
theorem final8 (c : Dev nD) : (dat0 V c).arrAt 8 cfg0.N = sqRow V c :=
  (dat0 V c).arrAt_eq_of_cover 8 (sqRow V c) (flushed8_eq V c) fun i => by
    have hi0 : (i 0).val < 1 := (i 0).isLt
    have hi1 : (i 1).val < 256 := (i 1).isLt
    refine ⟨tLast, (flush0_8 tLast).mpr rfl, ?_⟩
    rw [mem_blk8]
    obtain ⟨-, -, -, -, -, -, -, -, -, -, -, -, -, -, -, -, e0, e1⟩ := idx_facts0 tLast
    intro a
    match a with
    | ⟨0, _⟩ => show win0_8.index tLast (0 : Fin 2) * 1 ≤ (i 0).val ∧ (i 0).val < win0_8.index tLast (0 : Fin 2) * 1 + 1; rw [e0]; omega
    | ⟨1, _⟩ => show win0_8.index tLast (1 : Fin 2) * 256 ≤ (i 1).val ∧ (i 1).val < win0_8.index tLast (1 : Fin 2) * 256 + 256; rw [e1]; omega

/-! ## The rows as sums over all 50000 rows -/

theorem rows_eq : (50000 : ℕ) = 25 * 2000 := rfl

/-- Block j of the sum down column q of the hidden layer is the column sum of point j's block. -/
theorem colsum_eq_block (c : Dev nD) (q : Fin 256) (j : ℕ) (hj : j < 25) :
    colsum V c q j = Cert.LibBlockRuns.block 25 2000 rows_eq (fun r : Fin 50000 => hid V c (ix2 r q)) j := by
  have hN : cfg0.N = 25 := N_0
  unfold colsum
  rw [dif_pos (by omega : j < cfg0.N), Cert.LibBlockRuns.block_of_lt 25 2000 rows_eq _ j hj]
  exact Finset.sum_congr rfl fun p _ => hblk_apply V c ⟨j, by omega⟩ p q

theorem colsq_eq_block (c : Dev nD) (q : Fin 256) (j : ℕ) (hj : j < 25) :
    colsq V c q j = Cert.LibBlockRuns.block 25 2000 rows_eq (fun r : Fin 50000 => hid V c (ix2 r q) * hid V c (ix2 r q)) j := by
  have hN : cfg0.N = 25 := N_0
  unfold colsq
  rw [dif_pos (by omega : j < cfg0.N), Cert.LibBlockRuns.block_of_lt 25 2000 rows_eq _ j hj]
  exact Finset.sum_congr rfl fun p _ => by rw [hblk_apply V c ⟨j, by omega⟩ p q]

/-- The sums row holds zero plus the sum down each column of the hidden layer. -/
theorem sumRow_apply (c : Dev nD) (q : Fin 256) :
    sumRow V c (ix2 0 q) = Ideal.ofBits .f32 0x00000000#32 + ∑ r : Fin 50000, hid V c (ix2 r q) := by
  unfold sumRow
  rw [outs_sum V c q tLast.val tLast.isLt, ← Cert.LibBlockRuns.sum_range_block rows_eq (fun r : Fin 50000 => hid V c (ix2 r q))]
  exact congrArg _ (Finset.sum_congr rfl fun j hj => colsum_eq_block V c q j (Finset.mem_range.mp hj))

/-- The squares row holds zero plus the sum down each column of the squared hidden layer. -/
theorem sqRow_apply (c : Dev nD) (q : Fin 256) :
    sqRow V c (ix2 0 q) = Ideal.ofBits .f32 0x00000000#32 + ∑ r : Fin 50000, hid V c (ix2 r q) * hid V c (ix2 r q) := by
  unfold sqRow
  rw [outs_sq V c q tLast.val tLast.isLt, ← Cert.LibBlockRuns.sum_range_block rows_eq (fun r : Fin 50000 => hid V c (ix2 r q) * hid V c (ix2 r q))]
  exact congrArg _ (Finset.sum_congr rfl fun j hj => colsq_eq_block V c q j (Finset.mem_range.mp hj))

end Cert.KernelIdeal.R0

end
-- ==== Proof.RefAgg.lean ====
/-
  The edge aggregation the reference spells, as functions of the edge list e [2, E] of 32-bit words.

  Row 0 of e holds each edge's source node and row 1 its destination.  A negative source is counted from the end
  (n ↦ n + N), and the sources become a column of start indices for a row gather.  `agg T` gathers row src (j) of a
  table T for every edge j and adds it into row dst (j) of a zero array: the sum of T over each node's incoming edges.
  `deg` adds a one per edge into a zero vector at dst (j) — the in-degree — and clamps it below at one.
-/
import proofs.«130728_j3418793967880_2_alg».proof.Proof.Gen.ReferenceIdeal
import Idealize.ShloMosaic.PureOps.Ideal

noncomputable section

namespace Cert.RefAgg

open Idealize.ShloMosaic Cert.ReferenceIdeal Cert.ReferenceIdeal.Gen

/-- The edge list's type: [2, E] words. -/
abbrev EI : Type := (⟨S2x800000, .i32⟩ : BufTy).Contents (Elt Ideal)

/-- Row 0 of the edge list: the source nodes. -/
def src (ei : EI) : (⟨S800000, .i32⟩ : BufTy).Contents (Elt Ideal) :=
  shapeCast _ (extractStridedSlice S1x800000 ![0, 0] ei slices_S2x800000_S1x800000_0_0) shapeCasts_S1x800000_S800000

/-- The sources, a negative one counted from the end, as a column of start indices. -/
def srcCol (ei : EI) : (⟨S800000x1, .i32⟩ : BufTy).Contents (Elt Ideal) :=
  broadcastInDim S800000x1 ![0] bcast_S800000_S800000x1_0
    (select (cmpi .slt (src ei) (broadcastInDim S800000 ![] bcast_S_S800000 (constantI S_ 32 0#32)))
      (addi (src ei) (broadcastInDim S800000 ![] bcast_S_S800000 (constantI S_ 32 50000#32))) (src ei))

/-- Row 1 of the edge list, the destination nodes, as a column of scatter indices. -/
def dstCol (ei : EI) : (⟨S800000x1, .i32⟩ : BufTy).Contents (Elt Ideal) :=
  broadcastInDim S800000x1 ![0] bcast_S800000_S800000x1_0
    (shapeCast _ (extractStridedSlice S1x800000 ![1, 0] ei slices_S2x800000_S1x800000_1_0) shapeCasts_S1x800000_S800000)

/-- The sum of a [N, 128] table over each node's incoming edges. -/
def agg1 (ei : EI) (T : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (dstCol ei)
    (Host.gather gather_S50000x128_S800000x1_S800000x128_1_0_n_n_0_1_1128 T (srcCol ei))

/-- The sum of a [N, 256] table over each node's incoming edges. -/
def agg2 (ei : EI) (T : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32)) (dstCol ei)
    (Host.gather gather_S50000x256_S800000x1_S800000x256_1_0_n_n_0_1_1256 T (srcCol ei))

/-- The in-degree of every node, clamped below at one. -/
def deg (ei : EI) : FVec Ideal S50000 .f32 :=
  maximumf
    (Host.scatterAdd scatter_S50000_S800000x1_S800000_n_0_0_1
      (broadcastInDim S50000 ![] bcast_S_S50000 (constant (F := Ideal) S_ .f32 0x00000000#32)) (dstCol ei)
      (broadcastInDim S800000 ![] bcast_S_S800000 (constant (F := Ideal) S_ .f32 0x3F800000#32)))
    (broadcastInDim S50000 ![] bcast_S_S50000 (constant (F := Ideal) S_ .f32 0x3F800000#32))

end Cert.RefAgg

end
-- ==== Proof.Spec.lean ====
/-
  A two-layer mean-aggregation graph encoder with batch normalisation between the layers, entry by entry, on the
  extended reals (floats exact, every operation the textbook one).

  A layer takes node features x [N, K], the sum a [N, K] of the features over each node's incoming edges, the clamped
  in-degree D [N] and two weight matrices and a bias:

    lin a x D wl wr b (r, c) = (Σ_k (a (r, k) / D r) · wl (k, c) + b c) + Σ_k x (r, k) · wr (k, c).

  The same layer with the row rescaled by a column d [N, 1] of factors instead of divided by D is `linK`; at the column
  of reciprocals d (r, 0) = 1 / D r the two agree as soon as no D r is zero (a quotient is the product with the inverse).

  Between the layers every column c of h [N, C] is normalised with its own mean μ c and variance and clamped at zero.
  The two-pass form takes the variance as the mean of the squared deviations (h − μ)²; the one-pass form takes the
  mean of the squares minus μ², clamped at zero, and folds the normalisation into one multiply-add
  h · scale + shift with scale = γ · rsqrt (var + ε), shift = β − μ · scale.  On real columns the two are equal.

  The edge aggregation (a gather followed by a scatter-add) is a parameter here: both programs apply the same one.
-/
import Idealize.ShloMosaic.PureOps.Ideal
import Idealize.ShloMosaic.Lib.ValueIdx

noncomputable section

namespace Cert.Spec

open Idealize.ShloMosaic Idealize.ShloMosaic.ValueIdx
open scoped BigOperators

variable {N K C K2 : Nat}

/-- The float words the programs spell: zero, one, and the stabiliser ε added to the variance. -/
abbrev zeroW : EReal := Ideal.ofBits .f32 0x00000000#32
abbrev oneW : EReal := Ideal.ofBits .f32 0x3F800000#32
abbrev epsW : EReal := Ideal.ofBits .f32 0x3727C5AC#32

/-- One layer, the neighbour sum divided row by row by the degree. -/
def lin (a x : FVec Ideal ⟨2, ![N, K]⟩ .f32) (D : FVec Ideal ⟨1, ![N]⟩ .f32) (wl wr : FVec Ideal ⟨2, ![K, C]⟩ .f32)
    (b : FVec Ideal ⟨1, ![C]⟩ .f32) : FVec Ideal ⟨2, ![N, C]⟩ .f32 :=
  fun i => ((∑ k : Fin K, Ideal.div (a (ix2 ⟨(i 0).val, idx2_lt0 i⟩ k)) (D (ix1 ⟨(i 0).val, idx2_lt0 i⟩)) * wl (ix2 k ⟨(i 1).val, idx2_lt1 i⟩))
      + b (ix1 ⟨(i 1).val, idx2_lt1 i⟩))
    + ∑ k : Fin K, x (ix2 ⟨(i 0).val, idx2_lt0 i⟩ k) * wr (ix2 k ⟨(i 1).val, idx2_lt1 i⟩)

theorem lin_apply (a x : FVec Ideal ⟨2, ![N, K]⟩ .f32) (D : FVec Ideal ⟨1, ![N]⟩ .f32) (wl wr : FVec Ideal ⟨2, ![K, C]⟩ .f32)
    (b : FVec Ideal ⟨1, ![C]⟩ .f32) (r : Fin N) (c : Fin C) :
    lin a x D wl wr b (ix2 r c)
      = ((∑ k : Fin K, Ideal.div (a (ix2 r k)) (D (ix1 r)) * wl (ix2 k c)) + b (ix1 c)) + ∑ k : Fin K, x (ix2 r k) * wr (ix2 k c) := rfl

/-- One layer, the neighbour sum multiplied row by row by a column of factors. -/
def linK (a x : FVec Ideal ⟨2, ![N, K]⟩ .f32) (d : FVec Ideal ⟨2, ![N, 1]⟩ .f32) (wl wr : FVec Ideal ⟨2, ![K, C]⟩ .f32)
    (b : FVec Ideal ⟨1, ![C]⟩ .f32) : FVec Ideal ⟨2, ![N, C]⟩ .f32 :=
  fun i => ((∑ k : Fin K, (a (ix2 ⟨(i 0).val, idx2_lt0 i⟩ k) * d (ix2 ⟨(i 0).val, idx2_lt0 i⟩ 0)) * wl (ix2 k ⟨(i 1).val, idx2_lt1 i⟩))
      + b (ix1 ⟨(i 1).val, idx2_lt1 i⟩))
    + ∑ k : Fin K, x (ix2 ⟨(i 0).val, idx2_lt0 i⟩ k) * wr (ix2 k ⟨(i 1).val, idx2_lt1 i⟩)

theorem linK_apply (a x : FVec Ideal ⟨2, ![N, K]⟩ .f32) (d : FVec Ideal ⟨2, ![N, 1]⟩ .f32) (wl wr : FVec Ideal ⟨2, ![K, C]⟩ .f32)
    (b : FVec Ideal ⟨1, ![C]⟩ .f32) (r : Fin N) (c : Fin C) :
    linK a x d wl wr b (ix2 r c)
      = ((∑ k : Fin K, (a (ix2 r k) * d (ix2 r 0)) * wl (ix2 k c)) + b (ix1 c)) + ∑ k : Fin K, x (ix2 r k) * wr (ix2 k c) := rfl

/-- The column of reciprocals of the degrees. -/
def colInv (D : FVec Ideal ⟨1, ![N]⟩ .f32) : FVec Ideal ⟨2, ![N, 1]⟩ .f32 :=
  fun i => Ideal.div oneW (D (ix1 ⟨(i 0).val, idx2_lt0 i⟩))

theorem colInv_apply (D : FVec Ideal ⟨1, ![N]⟩ .f32) (r : Fin N) : colInv D (ix2 r 0) = Ideal.div oneW (D (ix1 r)) := rfl

/-- The mean of column c: the sum down the column from the zero word, over the count. -/
def colMean (cnt : EReal) (h : FVec Ideal ⟨2, ![N, C]⟩ .f32) (c : Fin C) : EReal :=
  Ideal.div (zeroW + ∑ r : Fin N, h (ix2 r c)) cnt

/-- Two-pass batch normalisation, scaled by γ, shifted by β, clamped at zero. -/
def bnRef (cnt : EReal) (h : FVec Ideal ⟨2, ![N, C]⟩ .f32) (γ β : FVec Ideal ⟨1, ![C]⟩ .f32) : FVec Ideal ⟨2, ![N, C]⟩ .f32 :=
  fun i =>
    max ((h (ix2 ⟨(i 0).val, idx2_lt0 i⟩ ⟨(i 1).val, idx2_lt1 i⟩) - colMean cnt h ⟨(i 1).val, idx2_lt1 i⟩)
          * Ideal.rsqrt (Ideal.div (zeroW + ∑ r : Fin N, (h (ix2 r ⟨(i 1).val, idx2_lt1 i⟩) - colMean cnt h ⟨(i 1).val, idx2_lt1 i⟩)
                * (h (ix2 r ⟨(i 1).val, idx2_lt1 i⟩) - colMean cnt h ⟨(i 1).val, idx2_lt1 i⟩)) cnt + epsW)
          * γ (ix1 ⟨(i 1).val, idx2_lt1 i⟩) + β (ix1 ⟨(i 1).val, idx2_lt1 i⟩)) zeroW

theorem bnRef_apply (cnt : EReal) (h : FVec Ideal ⟨2, ![N, C]⟩ .f32) (γ β : FVec Ideal ⟨1, ![C]⟩ .f32) (r0 : Fin N) (c : Fin C) :
    bnRef cnt h γ β (ix2 r0 c)
      = max ((h (ix2 r0 c) - colMean cnt h c)
          * Ideal.rsqrt (Ideal.div (zeroW + ∑ r : Fin N, (h (ix2 r c) - colMean cnt h c) * (h (ix2 r c) - colMean cnt h c)) cnt + epsW)
          * γ (ix1 c) + β (ix1 c)) zeroW := rfl

/-- The scale of column c in the one-pass form: γ · rsqrt (max (mean of squares − μ², 0) + ε). -/
def scaleK (cnt : EReal) (h : FVec Ideal ⟨2, ![N, C]⟩ .f32) (γ : FVec Ideal ⟨1, ![C]⟩ .f32) (c : Fin C) : EReal :=
  γ (ix1 c) * Ideal.rsqrt (max (Ideal.div (zeroW + ∑ r : Fin N, h (ix2 r c) * h (ix2 r c)) cnt - colMean cnt h c * colMean cnt h c) zeroW + epsW)

/-- The shift of column c in the one-pass form: β − μ · scale. -/
def shiftK (cnt : EReal) (h : FVec Ideal ⟨2, ![N, C]⟩ .f32) (γ β : FVec Ideal ⟨1, ![C]⟩ .f32) (c : Fin C) : EReal :=
  β (ix1 c) - colMean cnt h c * scaleK cnt h γ c

/-- One-pass batch normalisation as one multiply-add, clamped at zero. -/
def bnKer (cnt : EReal) (h : FVec Ideal ⟨2, ![N, C]⟩ .f32) (γ β : FVec Ideal ⟨1, ![C]⟩ .f32) : FVec Ideal ⟨2, ![N, C]⟩ .f32 :=
  fun i => max (h (ix2 ⟨(i 0).val, idx2_lt0 i⟩ ⟨(i 1).val, idx2_lt1 i⟩) * scaleK cnt h γ ⟨(i 1).val, idx2_lt1 i⟩
      + shiftK cnt h γ β ⟨(i 1).val, idx2_lt1 i⟩) zeroW

theorem bnKer_apply (cnt : EReal) (h : FVec Ideal ⟨2, ![N, C]⟩ .f32) (γ β : FVec Ideal ⟨1, ![C]⟩ .f32) (r0 : Fin N) (c : Fin C) :
    bnKer cnt h γ β (ix2 r0 c) = max (h (ix2 r0 c) * scaleK cnt h γ c + shiftK cnt h γ β c) zeroW := rfl

/-- The encoder, two-pass form: layer, normalisation, layer; `agg1` and `agg2` aggregate over the edges. -/
def G (cnt : EReal) (agg1 : FVec Ideal ⟨2, ![N, K]⟩ .f32 → FVec Ideal ⟨2, ![N, K]⟩ .f32)
    (agg2 : FVec Ideal ⟨2, ![N, C]⟩ .f32 → FVec Ideal ⟨2, ![N, C]⟩ .f32) (D : FVec Ideal ⟨1, ![N]⟩ .f32)
    (x : FVec Ideal ⟨2, ![N, K]⟩ .f32) (w1l : FVec Ideal ⟨2, ![K, C]⟩ .f32) (b1 : FVec Ideal ⟨1, ![C]⟩ .f32)
    (w1r : FVec Ideal ⟨2, ![K, C]⟩ .f32) (γ β : FVec Ideal ⟨1, ![C]⟩ .f32) (w2l : FVec Ideal ⟨2, ![C, K2]⟩ .f32)
    (b2 : FVec Ideal ⟨1, ![K2]⟩ .f32) (w2r : FVec Ideal ⟨2, ![C, K2]⟩ .f32) : FVec Ideal ⟨2, ![N, K2]⟩ .f32 :=
  lin (agg2 (bnRef cnt (lin (agg1 x) x D w1l w1r b1) γ β)) (bnRef cnt (lin (agg1 x) x D w1l w1r b1) γ β) D w2l w2r b2

/-- The encoder, one-pass form with the degrees as a column of factors. -/
def Gk (cnt : EReal) (agg1 : FVec Ideal ⟨2, ![N, K]⟩ .f32 → FVec Ideal ⟨2, ![N, K]⟩ .f32)
    (agg2 : FVec Ideal ⟨2, ![N, C]⟩ .f32 → FVec Ideal ⟨2, ![N, C]⟩ .f32) (d : FVec Ideal ⟨2, ![N, 1]⟩ .f32)
    (x : FVec Ideal ⟨2, ![N, K]⟩ .f32) (w1l : FVec Ideal ⟨2, ![K, C]⟩ .f32) (b1 : FVec Ideal ⟨1, ![C]⟩ .f32)
    (w1r : FVec Ideal ⟨2, ![K, C]⟩ .f32) (γ β : FVec Ideal ⟨1, ![C]⟩ .f32) (w2l : FVec Ideal ⟨2, ![C, K2]⟩ .f32)
    (b2 : FVec Ideal ⟨1, ![K2]⟩ .f32) (w2r : FVec Ideal ⟨2, ![C, K2]⟩ .f32) : FVec Ideal ⟨2, ![N, K2]⟩ .f32 :=
  linK (agg2 (bnKer cnt (linK (agg1 x) x d w1l w1r b1) γ β)) (bnKer cnt (linK (agg1 x) x d w1l w1r b1) γ β) d w2l w2r b2

end Cert.Spec

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibScatterReal.lean ====
/-
  An accumulating scatter of real numbers is real.

  At the ideal values the host's accumulating scatter, read at an entry, is the operand's entry plus a finite
  sum of updates (those whose index names the entry). So if every entry of the operand and every update is a
  real number, so is every entry of the result — whatever the indices and the dimension numbers.
-/
import proofs.«130728_j3418793967880_2_alg».proof.Proof.LibReals
import Idealize.ShloMosaic.PureOps.Ideal

noncomputable section

namespace Cert.Lib.ScatterReal

open Idealize.ShloMosaic Cert.Reals
open scoped BigOperators

/-- The accumulating scatter of real updates into a real operand has real entries. -/
theorem scatterAdd_real {s si su : Shape} {φ : FTy} {w : Nat} (d : ScatterDims s si su) (x : FVec Ideal s φ)
    (idx : IVec si w) (upd : FVec Ideal su φ) (hx : ∀ i, IsRealS (x i)) (hu : ∀ j, IsRealS (upd j)) (i : s.Idx) :
    IsRealS (Host.scatterAdd d x idx upd i) := by
  show IsRealS (Ideal.hostScatterAdd d x idx upd i)
  unfold Ideal.hostScatterAdd
  exact IsRealS.add (hx i) (isRealS_sum _ _ fun j _ => hu j)

end Cert.Lib.ScatterReal

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.FiniteWords.lean ====
/-
  The float words the finiteness facts read, as the extended reals they denote.

  The single-precision word 0x47435000 has sign 0, biased exponent 142 and fraction 0x435000, so it denotes
  (1 + 0x435000 / 2^23) * 2^15 = 50000, the number of rows.  The word 0x7F800000 (all exponent bits set, zero
  fraction) denotes the upper infinity, and the word 0x3F800000 denotes one.
-/
import Idealize.ShloMosaic.PureOps.Ideal

noncomputable section

namespace Cert.Finite

open Idealize.ShloMosaic

/-- The single-precision word 0x47435000 denotes the number 50000. -/
theorem count_word : Ideal.ofBits .f32 0x47435000#32 = (((50000 : ℕ) : ℝ) : EReal) := by
  simp [Ideal.ofBits, Ideal.ieee, -EReal.coe_mul]; norm_num

/-- The single-precision word 0x7F800000 denotes the upper infinity. -/
theorem inf_word : Ideal.ofBits .f32 0x7F800000#32 = ⊤ := by
  simp [Ideal.ofBits, Ideal.ieee]

/-- The single-precision word 0x3F800000 denotes the number one. -/
theorem one_word : Ideal.ofBits .f32 0x3F800000#32 = 1 := by
  simp [Ideal.ofBits, Ideal.ieee, -EReal.coe_mul]; norm_num

/-- The single-precision word 0x00000000 denotes zero. -/
theorem zero_word : Ideal.ofBits .f32 0x00000000#32 = 0 := by
  simp [Ideal.ofBits, Ideal.ieee]

end Cert.Finite

end
-- ==== Proof.FiniteAgg.lean ====
/-
  The edge aggregation of real tables is real, and the clamped in-degree is a real that is at least one.

  An accumulating scatter read at an entry is the operand's entry plus a finite sum of updates, so a scatter of
  real updates into a real operand is real.  The operand here is the zero splat; the updates are either rows of
  a real table (a gather reads the table at some index, so a gather of a real table is real) or the splat of
  one.  The in-degree is the maximum of such a sum and one, so it is a real, at least one, and not zero.
-/
import proofs.«130728_j3418793967880_2_alg».proof.Proof.RefAgg
import proofs.«130728_j3418793967880_2_alg».proof.Proof.LibReals
import proofs.«130728_j3418793967880_2_alg».proof.Proof.LibScatterReal
import proofs.«130728_j3418793967880_2_alg».proof.Proof.LibRowBroadcast
import proofs.«130728_j3418793967880_2_alg».proof.Proof.FiniteWords
import Idealize.ShloMosaic.Lib.ValueIdx

noncomputable section

namespace Cert.Finite

open Idealize.ShloMosaic Idealize.ShloMosaic.ValueIdx Cert.Reals Cert.RefAgg
open Cert.ReferenceIdeal Cert.ReferenceIdeal.Gen

/-- A scalar constant splat to any shape reads, at every index, the extended real its word denotes. -/
theorem splat_apply {t : Shape} (h : (⟨0, ![]⟩ : Shape).BroadcastsInDim t (![] : Fin 0 → Fin t.rank))
    (b : BitVec 32) (j : t.Idx) :
    broadcastInDim t (![] : Fin 0 → Fin t.rank) h (constant (F := Ideal) ⟨0, ![]⟩ .f32 b) j = Ideal.ofBits .f32 b :=
  Cert.Lib.RowBroadcast.broadcastInDim_scalar_apply _ h j (fun d => d.elim0)

/-- The zero splat is real at every index. -/
theorem splat_zero_real {t : Shape} (h : (⟨0, ![]⟩ : Shape).BroadcastsInDim t (![] : Fin 0 → Fin t.rank)) (j : t.Idx) :
    IsRealS (broadcastInDim t (![] : Fin 0 → Fin t.rank) h (constant (F := Ideal) ⟨0, ![]⟩ .f32 0x00000000#32) j) := by
  rw [splat_apply, zero_word]; exact isRealS_zero

/-- The splat of one reads one at every index. -/
theorem splat_one_apply {t : Shape} (h : (⟨0, ![]⟩ : Shape).BroadcastsInDim t (![] : Fin 0 → Fin t.rank)) (j : t.Idx) :
    broadcastInDim t (![] : Fin 0 → Fin t.rank) h (constant (F := Ideal) ⟨0, ![]⟩ .f32 0x3F800000#32) j = 1 := by
  rw [splat_apply, one_word]

/-- A gather of a real table is real: it reads the table at some index. -/
theorem gather_real {s si t : Shape} {w : Nat} (d : GatherDims s si t) (x : s.Idx → EReal) (idx : IVec si w)
    (hx : IsReal x) : IsReal (Host.gather d x idx) :=
  fun j => hx (d.operandIdx j idx)

/-- The clamped in-degree read at an index: the maximum of the scattered count and one. -/
theorem deg_apply (ei : EI) (i : S50000.Idx) :
    deg ei i = max (Host.scatterAdd scatter_S50000_S800000x1_S800000_n_0_0_1
      (broadcastInDim S50000 ![] bcast_S_S50000 (constant (F := Ideal) S_ .f32 0x00000000#32)) (dstCol ei)
      (broadcastInDim S800000 ![] bcast_S_S800000 (constant (F := Ideal) S_ .f32 0x3F800000#32)) i) 1 := by
  unfold deg
  rw [maximumf_apply, splat_one_apply]

/-- The clamped in-degree of every node is a real. -/
theorem deg_real (ei : EI) : IsReal (deg ei) := fun i => by
  rw [deg_apply]
  exact IsRealS.max (Cert.Lib.ScatterReal.scatterAdd_real _ _ _ _ (fun k => splat_zero_real _ k)
    (fun k => by rw [splat_one_apply]; exact isRealS_one) i) isRealS_one

/-- The clamped in-degree of every node is at least one. -/
theorem one_le_deg (ei : EI) (i : S50000.Idx) : 1 ≤ deg ei i := by
  rw [deg_apply]; exact le_max_right _ _

/-- The clamped in-degree of every node is positive. -/
theorem deg_pos (ei : EI) (i : S50000.Idx) : 0 < deg ei i := pos_of_one_le (one_le_deg ei i)

/-- The clamped in-degree of a node is not zero. -/
theorem deg_ne_zero (ei : EI) (r : Fin 50000) : deg ei (ix1 r) ≠ 0 := (deg_pos ei (ix1 r)).ne'

/-- The sum of a real [N, 128] table over each node's incoming edges is real. -/
theorem agg1_real (ei : EI) (T : FVec Ideal S50000x128 .f32) (hT : IsReal T) : IsReal (agg1 ei T) := fun i => by
  unfold agg1
  exact Cert.Lib.ScatterReal.scatterAdd_real _ _ _ _ (fun k => splat_zero_real _ k)
    (fun k => gather_real _ T (srcCol ei) hT k) i

/-- The sum of a real [N, 256] table over each node's incoming edges is real. -/
theorem agg2_real (ei : EI) (T : FVec Ideal S50000x256 .f32) (hT : IsReal T) : IsReal (agg2 ei T) := fun i => by
  unfold agg2
  exact Cert.Lib.ScatterReal.scatterAdd_real _ _ _ _ (fun k => splat_zero_real _ k)
    (fun k => gather_real _ T (srcCol ei) hT k) i

end Cert.Finite

end
-- ==== Proof.Host0.lean ====
/-
  The idealized kernel program's first stretch of host operations, read back at the ideal values.

  Before the first pipeline the host computes, from the arguments: the two rows of the edge list as vectors; the
  in-degree of every node (a one per edge added into zeros at the edge's destination), clamped below at one, and the
  column of its reciprocals; the features narrowed to the short float format; the rows of the narrowed features at the
  edges' sources (a negative source counted from the end), widened again and added into zeros at the destinations; the
  two first-layer weight matrices narrowed; and the first bias as a one-row matrix.

  At the ideal values a change of float format is the identity, so each of these arrays is the corresponding array of
  the reference's own spelling: the neighbour sum is the edge aggregation of the features, the column is the column of
  reciprocals of the clamped in-degree, the narrowed weights are the weights, and the one-row bias reads the bias.
  Every statement is an equality of operation trees over the launch contents of the argument buffers.
-/
import proofs.«130728_j3418793967880_2_alg».proof.Proof.Gen.KernelIdeal.Frame
import proofs.«130728_j3418793967880_2_alg».proof.Proof.RefAgg
import proofs.«130728_j3418793967880_2_alg».proof.Proof.Spec
import proofs.«130728_j3418793967880_2_alg».proof.Proof.LibColumns
import proofs.«130728_j3418793967880_2_alg».proof.Proof.FiniteAgg
import Idealize.ShloMosaic.Lib.StableHlo.Run
import Idealize.ShloMosaic.Lib.ValueIdx

noncomputable section

namespace Cert.KernelIdeal.Host0

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- A vector [C] reshaped to the row [1, C], read at (0, c), is the vector at c. -/
theorem shapeCast_vec_row_apply {α : Type} {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- The host's quotient of two arrays, read at an index, is the quotient of the entries. -/
theorem hostDivf_apply {s : Shape} {φ : FTy} (a b : FVec Ideal s φ) (i : s.Idx) :
    Host.divf a b i = Ideal.div (a i) (b i) := rfl

/-- Row 0 of the edge list as a vector: the sources. -/
theorem W1_v1 (c : Dev nD) :
    W1 m ρ c (Proc.devRef .tc main_v1) = Cert.RefAgg.src (m ((c : Thread nD τ).loc main_arg1)) := by
  show StableHlo.after hostOps0 (W0 m ρ c) (Proc.devRef .tc main_v1) = _
  after_results_simp
  rfl

/-- Row 1 of the edge list as a vector: the destinations, the vector the destination column is made of. -/
theorem W1_v3 (c : Dev nD) :
    W1 m ρ c (Proc.devRef .tc main_v3)
      = shapeCast Cert.ReferenceIdeal.S800000
          (extractStridedSlice Cert.ReferenceIdeal.S1x800000 ![1, 0] (m ((c : Thread nD τ).loc main_arg1))
            Cert.ReferenceIdeal.Gen.slices_S2x800000_S1x800000_1_0)
          Cert.ReferenceIdeal.Gen.shapeCasts_S1x800000_S800000 := by
  show StableHlo.after hostOps0 (W0 m ρ c) (Proc.devRef .tc main_v3) = _
  after_results_simp
  rfl

/-- The neighbour sum the first pipeline reads is the edge aggregation of the features. -/
theorem V1_v25 (c : Dev nD) :
    (V1 m ρ c main_v25 : FVec Ideal S50000x128 .f32)
      = Cert.RefAgg.agg1 (m ((c : Thread nD τ).loc main_arg1)) (m ((c : Thread nD τ).loc main_arg0)) := by
  show StableHlo.after hostOps0 (W0 m ρ c) (Proc.devRef .tc main_v25) = _
  after_results_simp
  rfl

/-- The column the first pipeline reads is the column of reciprocals of the clamped in-degree. -/
theorem V1_v13 (c : Dev nD) :
    (V1 m ρ c main_v13 : FVec Ideal S50000x1 .bf16) = Cert.Spec.colInv (Cert.RefAgg.deg (m ((c : Thread nD τ).loc main_arg1))) := by
  have e : (V1 m ρ c main_v13 : FVec Ideal S50000x1 .bf16)
      = truncf .bf16 (shapeCast S50000x1
          (Host.divf (broadcastInDim S50000 ![] bcast_S_S50000 (constant (F := Ideal) S_ .f32 0x3F800000#32))
            (Cert.RefAgg.deg (m ((c : Thread nD τ).loc main_arg1)))) shapeCasts_S50000_S50000x1) bitsLt_bf16_f32 := by
    show StableHlo.after hostOps0 (W0 m ρ c) (Proc.devRef .tc main_v13) = _
    after_results_simp
    rfl
  rw [e]
  funext i
  obtain ⟨r, u, rfl⟩ : ∃ (r : Fin 50000) (u : Fin 1), i = ix2 r u := ⟨i 0, i 1, eq_ix2 i⟩
  obtain rfl : u = 0 := Subsingleton.elim _ _
  rw [truncf_apply, Cert.Columns.shapeCast_a_a1_apply _ _ r 0, Cert.Spec.colInv_apply, hostDivf_apply,
    Cert.Finite.splat_apply]

/-- No host operation writes the features. -/
theorem V1_arg0 (c : Dev nD) : V1 m ρ c main_arg0 = m ((c : Thread nD τ).loc main_arg0) := by
  show StableHlo.after hostOps0 (W0 m ρ c) (Proc.devRef .tc main_arg0) = _
  after_results_simp

/-- The narrowed first weight matrix is the matrix. -/
theorem V1_v26 (c : Dev nD) : (V1 m ρ c main_v26 : FVec Ideal S128x256 .bf16) = m ((c : Thread nD τ).loc main_arg2) := by
  show StableHlo.after hostOps0 (W0 m ρ c) (Proc.devRef .tc main_v26) = _
  after_results_simp
  rfl

/-- The narrowed second weight matrix is the matrix. -/
theorem V1_v27 (c : Dev nD) : (V1 m ρ c main_v27 : FVec Ideal S128x256 .bf16) = m ((c : Thread nD τ).loc main_arg4) := by
  show StableHlo.after hostOps0 (W0 m ρ c) (Proc.devRef .tc main_v27) = _
  after_results_simp
  rfl

/-- The first bias as a one-row matrix reads the bias. -/
theorem V1_v28 (c : Dev nD) (q : Fin 256) :
    (V1 m ρ c main_v28 : FVec Ideal S1x256 .f32) (ix2 0 q) = m ((c : Thread nD τ).loc main_arg3) (ix1 q) := by
  have e : (V1 m ρ c main_v28 : FVec Ideal S1x256 .f32)
      = shapeCast S1x256 (m ((c : Thread nD τ).loc main_arg3) : FVec Ideal S256 .f32) shapeCasts_S256_S1x256 := by
    show StableHlo.after hostOps0 (W0 m ρ c) (Proc.devRef .tc main_v28) = _
    after_results_simp
    rfl
  rw [e]
  exact shapeCast_vec_row_apply _ _ q

end Cert.KernelIdeal.Host0

end
-- ==== Proof.KernelLayer1.lean ====
/-
  The first layer of the idealized kernel as a function of the arguments.  The arrays the first pipeline finds are the
  edge aggregation of the features, the column of reciprocal clamped in-degrees, the features, the two weight
  matrices and the bias as a row; so the hidden layer it leaves is the layer `linK` of the specification, and its two
  statistics rows are zero plus the sums down the columns of that layer and of its squares.
-/
import proofs.«130728_j3418793967880_2_alg».proof.Proof.Region0Final
import proofs.«130728_j3418793967880_2_alg».proof.Proof.Host0
import proofs.«130728_j3418793967880_2_alg».proof.Proof.Spec
import proofs.«130728_j3418793967880_2_alg».proof.Proof.RefAgg

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The hidden layer before normalisation, as the specification spells it. -/
def H1 (c : Dev nD) : FVec Ideal S50000x256 .f32 :=
  Cert.Spec.linK (Cert.RefAgg.agg1 (m ((c : Thread nD τ).loc main_arg1)) (m ((c : Thread nD τ).loc main_arg0))) (m ((c : Thread nD τ).loc main_arg0)) (Cert.Spec.colInv (Cert.RefAgg.deg (m ((c : Thread nD τ).loc main_arg1)))) (m ((c : Thread nD τ).loc main_arg2)) (m ((c : Thread nD τ).loc main_arg4)) (m ((c : Thread nD τ).loc main_arg3))

/-- The hidden layer the first pipeline computes from the arrays it finds is that layer. -/
theorem hid_eq (c : Dev nD) : R0.hid (V1 m ρ) c = H1 m c := by
  funext i
  obtain ⟨r, q, rfl⟩ : ∃ (r : Fin 50000) (q : Fin 256), i = ix2 r q := ⟨i 0, i 1, eq_ix2 i⟩
  have e0 : (V1 m ρ c (Pipeline.arrRef spec0 0) : Vec Ideal S50000x128 .f32) = Cert.RefAgg.agg1 (m ((c : Thread nD τ).loc main_arg1)) (m ((c : Thread nD τ).loc main_arg0)) := Host0.V1_v25 m ρ c
  have e1 : (V1 m ρ c (Pipeline.arrRef spec0 1) : Vec Ideal S50000x1 .bf16) = Cert.Spec.colInv (Cert.RefAgg.deg (m ((c : Thread nD τ).loc main_arg1))) := Host0.V1_v13 m ρ c
  have e2 : (V1 m ρ c (Pipeline.arrRef spec0 2) : Vec Ideal S50000x128 .f32) = (m ((c : Thread nD τ).loc main_arg0)) := Host0.V1_arg0 m ρ c
  have e3 : (V1 m ρ c (Pipeline.arrRef spec0 3) : Vec Ideal S128x256 .bf16) = (m ((c : Thread nD τ).loc main_arg2)) := Host0.V1_v26 m ρ c
  have e5 : (V1 m ρ c (Pipeline.arrRef spec0 5) : Vec Ideal S128x256 .bf16) = (m ((c : Thread nD τ).loc main_arg4)) := Host0.V1_v27 m ρ c
  have e4 : (V1 m ρ c (Pipeline.arrRef spec0 4) : Vec Ideal S1x256 .f32) (ix2 0 q) = (m ((c : Thread nD τ).loc main_arg3)) (ix1 q) := Host0.V1_v28 m ρ c q
  unfold R0.hid H1
  rw [Cert.Layers.linRow_apply, Cert.Spec.linK_apply, e0, e1, e2, e3, e5, e4]

/-- After the first pipeline the hidden layer's array holds that layer. -/
theorem W2_hid (c : Dev nD) : (W2 m ρ c (Proc.devRef .tc main_v29_0) : FVec Ideal S50000x256 .f32) = H1 m c :=
  ((W2_arr m ρ c 6).trans (R0.final6 (V1 m ρ) c)).trans (hid_eq m ρ c)

/-- After the first pipeline the sums row holds zero plus the sum down each column of the hidden layer. -/
theorem W2_sum (c : Dev nD) (q : Fin 256) :
    (W2 m ρ c (Proc.devRef .tc main_v29_1) : FVec Ideal S1x256 .f32) (ix2 0 q)
      = Ideal.ofBits .f32 0x00000000#32 + ∑ r : Fin 50000, H1 m c (ix2 r q) := by
  rw [show (W2 m ρ c (Proc.devRef .tc main_v29_1) : FVec Ideal S1x256 .f32) = R0.sumRow (V1 m ρ) c from
    (W2_arr m ρ c 7).trans (R0.final7 (V1 m ρ) c), R0.sumRow_apply, hid_eq]

/-- After the first pipeline the squares row holds zero plus the sum down each column of the squared hidden layer. -/
theorem W2_sq (c : Dev nD) (q : Fin 256) :
    (W2 m ρ c (Proc.devRef .tc main_v29_2) : FVec Ideal S1x256 .f32) (ix2 0 q)
      = Ideal.ofBits .f32 0x00000000#32 + ∑ r : Fin 50000, H1 m c (ix2 r q) * H1 m c (ix2 r q) := by
  rw [show (W2 m ρ c (Proc.devRef .tc main_v29_2) : FVec Ideal S1x256 .f32) = R0.sqRow (V1 m ρ) c from
    (W2_arr m ρ c 8).trans (R0.final8 (V1 m ρ) c), R0.sqRow_apply, hid_eq]

end Cert.KernelIdeal.Value

end
-- ==== Proof.Region1.lean ====
/-
  The second kernel's output as one array: the hidden layer rescaled, shifted and clamped, entry by entry.

  The grid has 25 points.  Point t reads rows 2000 t … 2000 t + 1999 of the hidden layer [50000, 256] and the whole
  scale and shift rows [1, 256], and writes the same rows of the output: at row p of the block and column q,
  max (h (2000 t + p, q) · s (0, q) + u (0, q)) 0.  A block's coordinate on an axis is the block index times the block
  extent plus the coordinate inside the block; the block indices are (t, 0) for the row-blocked arrays and (0, 0) for
  the rows.  Row r of the output lies in the block of point r / 2000, so the blocks cover the array and the array ends
  holding that one function of the three inputs.
-/
import proofs.«130728_j3418793967880_2_alg».proof.Proof.Gen.KernelIdeal.Frame
import proofs.«130728_j3418793967880_2_alg».proof.Proof.Layers
import proofs.«130728_j3418793967880_2_alg».proof.Proof.Bodies
import Idealize.ShloMosaic.Lib.Pipeline.Value
import Idealize.ShloMosaic.Lib.ValueIdx

set_option maxRecDepth 16384

noncomputable section

namespace Cert.KernelIdeal.R1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The block indices at every grid point: (t, 0) for the hidden layer and the output, (0, 0) for the two rows. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is a row of the array: 2000 t + p < 50000, there being 25 blocks of 2000 rows. -/
theorem row_lt (t : Fin cfg1.N) (p : Fin 2000) : 2000 * t.val + p.val < 50000 := by
  have := t.isLt; have hN : cfg1.N = 25 := N_1; have := p.isLt; omega

/-- Block t of the hidden layer at (p, k) is the hidden layer at (2000 t + p, k). -/
theorem block_hidden (c : Dev nD) (t : Fin cfg1.N) (p : Fin 2000) (k : Fin 256) :
    (iblk1 V c 0 t : Vec Ideal S2000x256 .f32) (ix2 p k)
      = (V c (Pipeline.arrRef spec1 0) : Vec Ideal S50000x256 .f32) (ix2 ⟨2000 * t.val + p.val, row_lt t p⟩ k) := by
  unfold iblk1
  rw [View.read_apply]
  refine congrArg (V c (Pipeline.arrRef spec1 0)) (funext fun a => Fin.ext ?_)
  obtain ⟨e0, e1, -⟩ := block_indices t
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

/-- The scale row's block at every point is the scale row. -/
theorem block_scale (c : Dev nD) (t : Fin cfg1.N) (k : Fin 256) :
    (iblk1 V c 1 t : Vec Ideal S1x256 .f32) (ix2 0 k) = (V c (Pipeline.arrRef spec1 1) : Vec Ideal S1x256 .f32) (ix2 0 k) := by
  unfold iblk1
  rw [View.read_apply]
  refine congrArg (V c (Pipeline.arrRef spec1 1)) (funext fun a => Fin.ext ?_)
  obtain ⟨-, -, e0, e1, -⟩ := block_indices t
  match a with
  | ⟨0, _⟩ => show win1_1.index t (0 : Fin 2) * 1 + 1 * 0 = 0; rw [e0]
  | ⟨1, _⟩ => show win1_1.index t (1 : Fin 2) * 256 + 1 * k.val = k.val; rw [e1]; omega

/-- The shift row's block at every point is the shift row. -/
theorem block_shift (c : Dev nD) (t : Fin cfg1.N) (k : Fin 256) :
    (iblk1 V c 2 t : Vec Ideal S1x256 .f32) (ix2 0 k) = (V c (Pipeline.arrRef spec1 2) : Vec Ideal S1x256 .f32) (ix2 0 k) := by
  unfold iblk1
  rw [View.read_apply]
  refine congrArg (V c (Pipeline.arrRef spec1 2)) (funext fun a => Fin.ext ?_)
  obtain ⟨-, -, -, -, e0, e1, -⟩ := block_indices t
  match a with
  | ⟨0, _⟩ => show win1_2.index t (0 : Fin 2) * 1 + 1 * 0 = 0; rw [e0]
  | ⟨1, _⟩ => show win1_2.index t (1 : Fin 2) * 256 + 1 * k.val = k.val; rw [e1]; omega

/-- The offset (0, 0) is the zero offset. -/
theorem origin_zero : (![0, 0] : Fin 2 → Nat) = fun _ => 0 := funext fun a => by fin_cases a <;> rfl

/-- Two functions of a two-axis index that agree at every pair of coordinates are equal. -/
theorem funext_ix2 {n0 n1 : Nat} {α : Type} (f g : (⟨2, ![n0, n1]⟩ : Shape).Idx → α)
    (h : ∀ (p : Fin n0) (q : Fin n1), f (ix2 p q) = g (ix2 p q)) : f = g :=
  funext fun j => by rw [eq_ix2 j]; exact h _ _

/-- Entry (p, q) of the output's block t is entry (2000 t + p, q) of the output. -/
theorem out_index (t : Fin cfg1.N) (p : Fin 2000) (q : Fin 256) :
    (((cfg1.win 3).blk t).view.emb (ix2 p q) : S50000x256.Idx) = ix2 ⟨2000 * t.val + p.val, row_lt t p⟩ q := by
  funext a
  refine Fin.ext ?_
  obtain ⟨-, -, -, -, -, -, e0, e1⟩ := block_indices t
  match a with
  | ⟨0, _⟩ => show win1_3.index t (0 : Fin 2) * 2000 + 1 * p.val = 2000 * t.val + p.val; rw [e0]; omega
  | ⟨1, _⟩ => show win1_3.index t (1 : Fin 2) * 256 + 1 * q.val = q.val; rw [e1]; omega

/-- What point t computes at (p, q) is the whole-array function at (2000 t + p, q). -/
theorem point_value (c : Dev nD) (t : Fin cfg1.N) (p : Fin 2000) (q : Fin 256) :
    k1_pay1 (iblk1 V c 0 t) (iblk1 V c 1 t) (iblk1 V c 2 t) (ix2 p q)
      = (Cert.Layers.affRow (ψ := .bf16) (V c (Pipeline.arrRef spec1 0)) (V c (Pipeline.arrRef spec1 1))
          (V c (Pipeline.arrRef spec1 2)) : Vec Ideal S50000x256 .bf16) (ix2 ⟨2000 * t.val + p.val, row_lt t p⟩ q) := by
  refine (Cert.KernelIdeal.Bodies.k1_pay1_apply (iblk1 V c 0 t) (iblk1 V c 1 t) (iblk1 V c 2 t) p q).trans ?_
  rw [block_hidden V c t p q, block_scale V c t q, block_shift V c t q]
  rfl

/-- WHAT POINT t WRITES BACK is block t of the whole-array function of the three inputs. -/
theorem flushed_eq (c : Dev nD) (t : Fin cfg1.N) :
    (dat1 V c).flushed 3 t = ((cfg1.win 3).blk t).view.read (Elt Ideal)
      (Cert.Layers.affRow (ψ := .bf16) (V c (Pipeline.arrRef spec1 0)) (V c (Pipeline.arrRef spec1 1))
        (V c (Pipeline.arrRef spec1 2)) : Vec Ideal S50000x256 .bf16) := by
  show (cfg1.win 3).cut (grid1.coords t) ((dat1 V c).after 3 t) = _
  rw [after1_3]
  unfold out1_3
  rw [View.canon_unit_zero origin_zero]
  simp only [View.ld_unit_zero (S := S2000x256) origin_zero, View.ld_unit_zero (S := S1x256) origin_zero]
  refine funext_ix2 (n0 := 2000) (n1 := 256) _ _ (fun p q => ?_)
  exact (point_value V c t p q).trans (congrArg
    (Cert.Layers.affRow (ψ := .bf16) (V c (Pipeline.arrRef spec1 0)) (V c (Pipeline.arrRef spec1 1))
      (V c (Pipeline.arrRef spec1 2)) : Vec Ideal S50000x256 .bf16)
    (out_index t p q).symm)

/-- An index of the output is in point t's block iff each coordinate is in the block's range on its axis. -/
theorem mem_block (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v48).slice (win1_3.rect t)).set ↔ _
  rw [View.set_slice_whole, Rect.mem_set_unit]
  exact Iff.rfl

/-- The blocks cover the output: row r lies in the block of point r / 2000. -/
theorem rows_covered (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  have ht : (i 0).val / 2000 < cfg1.N := by rw [hN]; omega
  refine ⟨⟨(i 0).val / 2000, ht⟩, flush1_3 _, ?_⟩
  rw [mem_block]
  obtain ⟨-, -, -, -, -, -, e0, e1⟩ := block_indices ⟨(i 0).val / 2000, ht⟩
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    rw [e1]; omega

/-- THE OUTPUT after the run: the hidden layer rescaled by the scale row, shifted by the shift row and clamped at zero. -/
theorem final1 (c : Dev nD) : (dat1 V c).arrAt 3 cfg1.N
    = (Cert.Layers.affRow (ψ := .bf16) (V c (Pipeline.arrRef spec1 0)) (V c (Pipeline.arrRef spec1 1))
        (V c (Pipeline.arrRef spec1 2)) : Vec Ideal S50000x256 .bf16) :=
  (dat1 V c).arrAt_eq_of_cover 3 _ (fun t _ => flushed_eq V c t) rows_covered

end Cert.KernelIdeal.R1

end
-- ==== Proof.Region2.lean ====
/-
  The third kernel's output as one array: the output layer, entry by entry.

  The grid has 25 points.  Point t reads rows 2000 t … 2000 t + 1999 of the neighbour sums a [50000, 256], of the column
  of per-row factors d [50000, 1] and of the features x [50000, 256], and the whole of the left and right weights
  [256, 128] and of the bias row [1, 128]; it writes the same rows of the output [50000, 128]: at row p of the block and
  column q,  (Σ_k (a (2000 t + p, k) · d (2000 t + p, 0)) · Wl (k, q) + b (0, q)) + Σ_k x (2000 t + p, k) · Wr (k, q).
  A block's coordinate on an axis is the block index times the block extent plus the coordinate inside the block; the
  block indices are (t, 0) for the row-blocked arrays and (0, 0) for the weights and the bias.  Row r of the output lies
  in the block of point r / 2000, so the blocks cover the array and the array ends holding that one function of the six
  inputs.
-/
import proofs.«130728_j3418793967880_2_alg».proof.Proof.Gen.KernelIdeal.Frame
import proofs.«130728_j3418793967880_2_alg».proof.Proof.Layers
import proofs.«130728_j3418793967880_2_alg».proof.Proof.Bodies
import Idealize.ShloMosaic.Lib.Pipeline.Value
import Idealize.ShloMosaic.Lib.ValueIdx

set_option maxRecDepth 16384

noncomputable section

namespace Cert.KernelIdeal.R2

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The block indices at every grid point: (t, 0) for the three row-blocked inputs and the output, (0, 0) for the two
    weight matrices and the bias row. -/
theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of block t is a row of the array: 2000 t + p < 50000, there being 25 blocks of 2000 rows. -/
theorem row_lt (t : Fin cfg2.N) (p : Fin 2000) : 2000 * t.val + p.val < 50000 := by
  have := t.isLt; have hN : cfg2.N = 25 := N_2; have := p.isLt; omega

/-- Block t of the neighbour sums at (p, k) is the neighbour sums at (2000 t + p, k). -/
theorem block_sum (c : Dev nD) (t : Fin cfg2.N) (p : Fin 2000) (k : Fin 256) :
    (iblk2 V c 0 t : Vec Ideal S2000x256 .f32) (ix2 p k)
      = (V c (Pipeline.arrRef spec2 0) : Vec Ideal S50000x256 .f32) (ix2 ⟨2000 * t.val + p.val, row_lt t p⟩ k) := by
  unfold iblk2
  rw [View.read_apply]
  refine congrArg (V c (Pipeline.arrRef spec2 0)) (funext fun a => Fin.ext ?_)
  obtain ⟨e0, e1, -⟩ := block_indices t
  match a with
  | ⟨0, _⟩ => show win2_0.index t (0 : Fin 2) * 2000 + 1 * p.val = 2000 * t.val + p.val; rw [e0]; omega
  | ⟨1, _⟩ => show win2_0.index t (1 : Fin 2) * 256 + 1 * k.val = k.val; rw [e1]; omega

/-- Block t of the column of per-row factors at (p, 0) is the column at (2000 t + p, 0). -/
theorem block_factor (c : Dev nD) (t : Fin cfg2.N) (p : Fin 2000) :
    (iblk2 V c 1 t : Vec Ideal S2000x1 .bf16) (ix2 p 0)
      = (V c (Pipeline.arrRef spec2 1) : Vec Ideal S50000x1 .bf16) (ix2 ⟨2000 * t.val + p.val, row_lt t p⟩ 0) := by
  unfold iblk2
  rw [View.read_apply]
  refine congrArg (V c (Pipeline.arrRef spec2 1)) (funext fun a => Fin.ext ?_)
  obtain ⟨-, -, e0, e1, -⟩ := block_indices t
  match a with
  | ⟨0, _⟩ => show win2_1.index t (0 : Fin 2) * 2000 + 1 * p.val = 2000 * t.val + p.val; rw [e0]; omega
  | ⟨1, _⟩ => show win2_1.index t (1 : Fin 2) * 1 + 1 * 0 = 0; rw [e1]

/-- Block t of the features at (p, k) is the features at (2000 t + p, k). -/
theorem block_features (c : Dev nD) (t : Fin cfg2.N) (p : Fin 2000) (k : Fin 256) :
    (iblk2 V c 2 t : Vec Ideal S2000x256 .bf16) (ix2 p k)
      = (V c (Pipeline.arrRef spec2 2) : Vec Ideal S50000x256 .bf16) (ix2 ⟨2000 * t.val + p.val, row_lt t p⟩ k) := by
  unfold iblk2
  rw [View.read_apply]
  refine congrArg (V c (Pipeline.arrRef spec2 2)) (funext fun a => Fin.ext ?_)
  obtain ⟨-, -, -, -, e0, e1, -⟩ := block_indices t
  match a with
  | ⟨0, _⟩ => show win2_2.index t (0 : Fin 2) * 2000 + 1 * p.val = 2000 * t.val + p.val; rw [e0]; omega
  | ⟨1, _⟩ => show win2_2.index t (1 : Fin 2) * 256 + 1 * k.val = k.val; rw [e1]; omega

/-- The left weights' block at every point is the left weights. -/
theorem block_left (c : Dev nD) (t : Fin cfg2.N) (k : Fin 256) (q : Fin 128) :
    (iblk2 V c 3 t : Vec Ideal S256x128 .bf16) (ix2 k q) = (V c (Pipeline.arrRef spec2 3) : Vec Ideal S256x128 .bf16) (ix2 k q) := by
  unfold iblk2
  rw [View.read_apply]
  refine congrArg (V c (Pipeline.arrRef spec2 3)) (funext fun a => Fin.ext ?_)
  obtain ⟨-, -, -, -, -, -, e0, e1, -⟩ := block_indices t
  match a with
  | ⟨0, _⟩ => show win2_3.index t (0 : Fin 2) * 256 + 1 * k.val = k.val; rw [e0]; omega
  | ⟨1, _⟩ => show win2_3.index t (1 : Fin 2) * 128 + 1 * q.val = q.val; rw [e1]; omega

/-- The bias row's block at every point is the bias row. -/
theorem block_bias (c : Dev nD) (t : Fin cfg2.N) (q : Fin 128) :
    (iblk2 V c 4 t : Vec Ideal S1x128 .f32) (ix2 0 q) = (V c (Pipeline.arrRef spec2 4) : Vec Ideal S1x128 .f32) (ix2 0 q) := by
  unfold iblk2
  rw [View.read_apply]
  refine congrArg (V c (Pipeline.arrRef spec2 4)) (funext fun a => Fin.ext ?_)
  obtain ⟨-, -, -, -, -, -, -, -, e0, e1, -⟩ := block_indices t
  match a with
  | ⟨0, _⟩ => show win2_4.index t (0 : Fin 2) * 1 + 1 * 0 = 0; rw [e0]
  | ⟨1, _⟩ => show win2_4.index t (1 : Fin 2) * 128 + 1 * q.val = q.val; rw [e1]; omega

/-- The right weights' block at every point is the right weights. -/
theorem block_right (c : Dev nD) (t : Fin cfg2.N) (k : Fin 256) (q : Fin 128) :
    (iblk2 V c 5 t : Vec Ideal S256x128 .bf16) (ix2 k q) = (V c (Pipeline.arrRef spec2 5) : Vec Ideal S256x128 .bf16) (ix2 k q) := by
  unfold iblk2
  rw [View.read_apply]
  refine congrArg (V c (Pipeline.arrRef spec2 5)) (funext fun a => Fin.ext ?_)
  obtain ⟨-, -, -, -, -, -, -, -, -, -, e0, e1, -⟩ := block_indices t
  match a with
  | ⟨0, _⟩ => show win2_5.index t (0 : Fin 2) * 256 + 1 * k.val = k.val; rw [e0]; omega
  | ⟨1, _⟩ => show win2_5.index t (1 : Fin 2) * 128 + 1 * q.val = q.val; rw [e1]; omega

/-- The offset (0, 0) is the zero offset. -/
theorem origin_zero : (![0, 0] : Fin 2 → Nat) = fun _ => 0 := funext fun a => by fin_cases a <;> rfl

/-- Two functions of a two-axis index that agree at every pair of coordinates are equal. -/
theorem funext_ix2 {n0 n1 : Nat} {α : Type} (f g : (⟨2, ![n0, n1]⟩ : Shape).Idx → α)
    (h : ∀ (p : Fin n0) (q : Fin n1), f (ix2 p q) = g (ix2 p q)) : f = g :=
  funext fun j => by rw [eq_ix2 j]; exact h _ _

/-- Entry (p, q) of the output's block t is entry (2000 t + p, q) of the output. -/
theorem out_index (t : Fin cfg2.N) (p : Fin 2000) (q : Fin 128) :
    (((cfg2.win 6).blk t).view.emb (ix2 p q) : S50000x128.Idx) = ix2 ⟨2000 * t.val + p.val, row_lt t p⟩ q := by
  funext a
  refine Fin.ext ?_
  obtain ⟨-, -, -, -, -, -, -, -, -, -, -, -, e0, e1⟩ := block_indices t
  match a with
  | ⟨0, _⟩ => show win2_6.index t (0 : Fin 2) * 2000 + 1 * p.val = 2000 * t.val + p.val; rw [e0]; omega
  | ⟨1, _⟩ => show win2_6.index t (1 : Fin 2) * 128 + 1 * q.val = q.val; rw [e1]; omega

/-- What point t computes at (p, q) is the whole-array layer at (2000 t + p, q): the two sums over k are taken term
    by term, each term a product of block entries that are the arrays' entries at the embedded indices. -/
theorem point_value (c : Dev nD) (t : Fin cfg2.N) (p : Fin 2000) (q : Fin 128) :
    k2_pay1 (iblk2 V c 1 t) (iblk2 V c 0 t) (iblk2 V c 2 t) (iblk2 V c 3 t) (iblk2 V c 5 t) (iblk2 V c 4 t) (ix2 p q)
      = (Cert.Layers.linRow (ψd := .bf16) (ψx := .bf16) (ψl := .bf16) (ψr := .bf16) (V c (Pipeline.arrRef spec2 0)) (V c (Pipeline.arrRef spec2 1)) (V c (Pipeline.arrRef spec2 2))
        (V c (Pipeline.arrRef spec2 3)) (V c (Pipeline.arrRef spec2 5)) (V c (Pipeline.arrRef spec2 4)) : Vec Ideal S50000x128 .f32) (ix2 ⟨2000 * t.val + p.val, row_lt t p⟩ q) := by
  refine (Cert.KernelIdeal.Bodies.k2_pay1_apply (iblk2 V c 1 t) (iblk2 V c 0 t) (iblk2 V c 2 t) (iblk2 V c 3 t)
    (iblk2 V c 5 t) (iblk2 V c 4 t) p q).trans ?_
  refine Eq.trans ?_ (Cert.Layers.linRow_apply (ψd := .bf16) (ψx := .bf16) (ψl := .bf16) (ψr := .bf16)
    (V c (Pipeline.arrRef spec2 0)) (V c (Pipeline.arrRef spec2 1)) (V c (Pipeline.arrRef spec2 2))
    (V c (Pipeline.arrRef spec2 3)) (V c (Pipeline.arrRef spec2 5)) (V c (Pipeline.arrRef spec2 4))
    ⟨2000 * t.val + p.val, row_lt t p⟩ q).symm
  refine congrArg₂ (· + ·) (congrArg₂ (· + ·) (Finset.sum_congr rfl fun k _ => ?_) ?_) (Finset.sum_congr rfl fun k _ => ?_)
  · rw [block_sum V c t p k, block_factor V c t p, block_left V c t k q]
  · exact block_bias V c t q
  · rw [block_features V c t p k, block_right V c t k q]

/-- WHAT POINT t WRITES BACK is block t of the whole-array layer of the six inputs. -/
theorem flushed_eq (c : Dev nD) (t : Fin cfg2.N) :
    (dat2 V c).flushed 6 t = ((cfg2.win 6).blk t).view.read (Elt Ideal)
      (Cert.Layers.linRow (ψd := .bf16) (ψx := .bf16) (ψl := .bf16) (ψr := .bf16) (V c (Pipeline.arrRef spec2 0)) (V c (Pipeline.arrRef spec2 1)) (V c (Pipeline.arrRef spec2 2))
        (V c (Pipeline.arrRef spec2 3)) (V c (Pipeline.arrRef spec2 5)) (V c (Pipeline.arrRef spec2 4)) : Vec Ideal S50000x128 .f32) := by
  show (cfg2.win 6).cut (grid2.coords t) ((dat2 V c).after 6 t) = _
  rw [after2_6]
  unfold out2_6
  rw [View.canon_unit_zero origin_zero]
  simp only [View.ld_unit_zero (S := S2000x256) origin_zero, View.ld_unit_zero (S := S2000x1) origin_zero,
    View.ld_unit_zero (S := S256x128) origin_zero, View.ld_unit_zero (S := S1x128) origin_zero]
  refine funext_ix2 (n0 := 2000) (n1 := 128) _ _ (fun p q => ?_)
  exact (point_value V c t p q).trans (congrArg
    (Cert.Layers.linRow (ψd := .bf16) (ψx := .bf16) (ψl := .bf16) (ψr := .bf16) (V c (Pipeline.arrRef spec2 0)) (V c (Pipeline.arrRef spec2 1)) (V c (Pipeline.arrRef spec2 2))
        (V c (Pipeline.arrRef spec2 3)) (V c (Pipeline.arrRef spec2 5)) (V c (Pipeline.arrRef spec2 4)) : Vec Ideal S50000x128 .f32)
    (out_index t p q).symm)

/-- An index of the output is in point t's block iff each coordinate is in the block's range on its axis. -/
theorem mem_block (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v63).slice (win2_6.rect t)).set ↔ _
  rw [View.set_slice_whole, Rect.mem_set_unit]
  exact Iff.rfl

/-- The blocks cover the output: row r lies in the block of point r / 2000. -/
theorem rows_covered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  have ht : (i 0).val / 2000 < cfg2.N := by rw [hN]; omega
  refine ⟨⟨(i 0).val / 2000, ht⟩, flush2_6 _, ?_⟩
  rw [mem_block]
  obtain ⟨-, -, -, -, -, -, -, -, -, -, -, -, e0, e1⟩ := block_indices ⟨(i 0).val / 2000, ht⟩
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e1]; omega

/-- THE OUTPUT after the run: the linear mean-aggregation layer of the neighbour sums, the per-row factors, the features,
    the two weight matrices and the bias row. -/
theorem final2 (c : Dev nD) : (dat2 V c).arrAt 6 cfg2.N
    = (Cert.Layers.linRow (ψd := .bf16) (ψx := .bf16) (ψl := .bf16) (ψr := .bf16) (V c (Pipeline.arrRef spec2 0)) (V c (Pipeline.arrRef spec2 1)) (V c (Pipeline.arrRef spec2 2))
        (V c (Pipeline.arrRef spec2 3)) (V c (Pipeline.arrRef spec2 5)) (V c (Pipeline.arrRef spec2 4)) : Vec Ideal S50000x128 .f32) :=
  (dat2 V c).arrAt_eq_of_cover 6 _ (fun t _ => flushed_eq V c t) rows_covered

end Cert.KernelIdeal.R2

end
-- ==== Proof.Kept.lean ====
/-
  Buffers that a stretch of host operations or a pipeline leaves alone keep their contents: the contents at a later
  boundary of the program read back to those at an earlier one.
-/
import proofs.«130728_j3418793967880_2_alg».proof.Proof.Gen.KernelIdeal.Frame

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The scale and shift parameters reach the second stretch of host operations as launched. -/
theorem W2_arg5 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_arg6 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The hidden layer's array is not touched by the second stretch. -/
theorem W3_v29_0 (c : Dev nD) : W3 m ρ c (Proc.devRef .tc main_v29_0) = W2 m ρ c (Proc.devRef .tc main_v29_0) :=
  calc W3 m ρ c (Proc.devRef .tc main_v29_0)
    _ = W2 m ρ c (Proc.devRef .tc main_v29_0) := StableHlo.after_of_forall_not_mem (b := Proc.devRef .tc main_v29_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The edge list's two rows, computed by the first stretch, reach the third stretch unchanged. -/
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- The second layer's parameters reach the third stretch as launched. -/
theorem W4_arg7 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_arg8 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_arg9 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The column of reciprocal degrees, an input of the first pipeline, reaches the last pipeline unchanged. -/
theorem W5_v13 (c : Dev nD) : W5 m ρ c (Proc.devRef .tc main_v13) = W1 m ρ c (Proc.devRef .tc main_v13) :=
  calc W5 m ρ c (Proc.devRef .tc main_v13)
    _ = W4 m ρ c (Proc.devRef .tc main_v13) := StableHlo.after_of_forall_not_mem (b := Proc.devRef .tc main_v13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v13) := W4_of_ne m ρ c main_v13 (by decide)
    _ = W2 m ρ c (Proc.devRef .tc main_v13) := StableHlo.after_of_forall_not_mem (b := Proc.devRef .tc main_v13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v13) := (W2_arr m ρ c 1).trans (((dat0 (V1 m ρ) c).arrAt_in 1 rfl _).trans (A_eq0 (V1 m ρ) c 1))

/-- The normalised hidden layer is not touched by the third stretch. -/
theorem W5_v48 (c : Dev nD) : W5 m ρ c (Proc.devRef .tc main_v48) = W4 m ρ c (Proc.devRef .tc main_v48) :=
  calc W5 m ρ c (Proc.devRef .tc main_v48)
    _ = W4 m ρ c (Proc.devRef .tc main_v48) := StableHlo.after_of_forall_not_mem (b := Proc.devRef .tc main_v48) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.LibRowVec.lean ====
/-
  A one-row matrix flattened to a vector, read at an index, generic in the extent and the entries' type.

  A row [1, C] reshaped to the vector [C] reads, at c, the row at (0, c).
-/
import Idealize.ShloMosaic.Lib.ValueIdx
import Idealize.ShloMosaic.Lib.Pipeline.Value

noncomputable section

namespace Cert.Lib.RowVec

open Idealize.ShloMosaic Idealize.ShloMosaic.ValueIdx

variable {α : Type}

/-- A row [1, C] reshaped to the vector [C], read at c, is the row at (0, c). -/
theorem shapeCast_row_vec_apply {C : Nat} (x : (⟨2, ![1, C]⟩ : Shape).Idx → α)
    (h : (⟨2, ![1, C]⟩ : Shape).ShapeCasts ⟨1, ![C]⟩) (c : Fin C) :
    shapeCast ⟨1, ![C]⟩ x h (ix1 c) = x (ix2 0 c) :=
  shapeCast_apply x h (ix1 c) (ix2 0 c) (by
    rw [Shape.rowMajor_val_one, Shape.rowMajor_val_two]
    show (0 : Nat) * C + c.val = c.val
    omega)

end Cert.Lib.RowVec

end
-- ==== Proof.Host1.lean ====
/-
  The idealized kernel program's second stretch of host operations, read back at the ideal values.

  The first pipeline leaves, besides the hidden layer's array, two one-row matrices: the column sums S and the column
  sums of squares Q of the hidden layer.  From them the host computes, column by column, the mean  S / n, the mean of
  squares  Q / n, the variance  Q / n − (S / n)²  clamped at zero, the scale  γ · rsqrt (variance + ε)  and the shift
  β − mean · scale, and hands scale and shift to the second pipeline as one-row matrices.  Read at a column, each is
  the scalar expression in the entries of S and Q and of the launched parameters γ and β; the count n and ε are the
  words the program spells.
-/
import proofs.«130728_j3418793967880_2_alg».proof.Proof.Gen.KernelIdeal.Frame
import proofs.«130728_j3418793967880_2_alg».proof.Proof.Kept
import proofs.«130728_j3418793967880_2_alg».proof.Proof.Host0
import proofs.«130728_j3418793967880_2_alg».proof.Proof.LibRowVec
import proofs.«130728_j3418793967880_2_alg».proof.Proof.FiniteAgg
import Idealize.ShloMosaic.Lib.StableHlo.Run
import Idealize.ShloMosaic.Lib.ValueIdx

noncomputable section

namespace Cert.KernelIdeal.Host1

open Cert.KernelIdeal Cert.KernelIdeal.Gen
open Idealize.ShloMosaic Idealize.ShloMosaic.TcCoe Idealize.ShloMosaic.ValueIdx

/-- The host's reciprocal square root of an array, read at an index, is that of the entry. -/
theorem hostRsqrt_apply {s : Shape} {φ : FTy} (a : FVec Ideal s φ) (i : s.Idx) : Host.rsqrt a i = Ideal.rsqrt (a i) := rfl

/-- A one-row matrix of column sums divided by the count: the vector of column means. -/
def meanV (S : FVec Ideal S1x256 .f32) : FVec Ideal S256 .f32 :=
  Host.divf (shapeCast S256 S shapeCasts_S1x256_S256)
    (broadcastInDim S256 ![] bcast_S_S256 (constant (F := Ideal) S_ .f32 0x47435000#32))

/-- The vector of scales: γ · rsqrt (max (mean of squares − mean², 0) + ε). -/
def scaleV (g : FVec Ideal S256 .f32) (S Q : FVec Ideal S1x256 .f32) : FVec Ideal S256 .f32 :=
  mulf g (Host.rsqrt (addf (maximumf (subf (meanV Q) (mulf (meanV S) (meanV S)))
      (broadcastInDim S256 ![] bcast_S_S256 (constant (F := Ideal) S_ .f32 0x00000000#32)))
    (broadcastInDim S256 ![] bcast_S_S256 (constant (F := Ideal) S_ .f32 0x3727C5AC#32))))

/-- The vector of shifts: β − mean · scale. -/
def shiftV (g b : FVec Ideal S256 .f32) (S Q : FVec Ideal S1x256 .f32) : FVec Ideal S256 .f32 :=
  subf b (mulf (meanV S) (scaleV g S Q))

theorem meanV_apply (S : FVec Ideal S1x256 .f32) (q : Fin 256) :
    meanV S (ix1 q) = Ideal.div (S (ix2 0 q)) (Ideal.ofBits .f32 0x47435000#32) := by
  unfold meanV
  rw [Cert.KernelIdeal.Host0.hostDivf_apply, Cert.Lib.RowVec.shapeCast_row_vec_apply, Cert.Finite.splat_apply]

theorem scaleV_apply (g : FVec Ideal S256 .f32) (S Q : FVec Ideal S1x256 .f32) (q : Fin 256) :
    scaleV g S Q (ix1 q)
      = g (ix1 q) * Ideal.rsqrt (max (Ideal.div (Q (ix2 0 q)) (Ideal.ofBits .f32 0x47435000#32)
            - Ideal.div (S (ix2 0 q)) (Ideal.ofBits .f32 0x47435000#32) * Ideal.div (S (ix2 0 q)) (Ideal.ofBits .f32 0x47435000#32))
          (Ideal.ofBits .f32 0x00000000#32) + Ideal.ofBits .f32 0x3727C5AC#32) := by
  unfold scaleV
  rw [mulf_apply, hostRsqrt_apply, addf_apply, maximumf_apply, subf_apply, mulf_apply, meanV_apply, meanV_apply,
    Cert.Finite.splat_apply, Cert.Finite.splat_apply]

theorem shiftV_apply (g b : FVec Ideal S256 .f32) (S Q : FVec Ideal S1x256 .f32) (q : Fin 256) :
    shiftV g b S Q (ix1 q)
      = b (ix1 q) - Ideal.div (S (ix2 0 q)) (Ideal.ofBits .f32 0x47435000#32) * scaleV g S Q (ix1 q) := by
  unfold shiftV
  rw [subf_apply, mulf_apply, meanV_apply]

variable (m : (ℓ : Loc nD τ sig) → Buf (Elt Ideal) ℓ) (ρ : Dev nD → PrngReg)

/-- The scale row handed to the second pipeline, as an array. -/
theorem V3_v46_eq (c : Dev nD) :
    (V3 m ρ c main_v46 : FVec Ideal S1x256 .f32)
      = shapeCast S1x256 (scaleV (W2 m ρ c (Proc.devRef .tc main_arg5)) (W2 m ρ c (Proc.devRef .tc main_v29_1))
          (W2 m ρ c (Proc.devRef .tc main_v29_2))) shapeCasts_S256_S1x256 := by
  show StableHlo.after hostOps1 (W2 m ρ c) (Proc.devRef .tc main_v46) = _
  after_results_simp
  rfl

/-- The shift row handed to the second pipeline, as an array. -/
theorem V3_v47_eq (c : Dev nD) :
    (V3 m ρ c main_v47 : FVec Ideal S1x256 .f32)
      = shapeCast S1x256 (shiftV (W2 m ρ c (Proc.devRef .tc main_arg5)) (W2 m ρ c (Proc.devRef .tc main_arg6))
          (W2 m ρ c (Proc.devRef .tc main_v29_1)) (W2 m ρ c (Proc.devRef .tc main_v29_2))) shapeCasts_S256_S1x256 := by
  show StableHlo.after hostOps1 (W2 m ρ c) (Proc.devRef .tc main_v47) = _
  after_results_simp
  rfl

/-- The scale of column q: γ q · rsqrt (max (Q q / n − (S q / n)², 0) + ε). -/
theorem V3_v46 (c : Dev nD) (q : Fin 256) :
    (V3 m ρ c main_v46 : FVec Ideal S1x256 .f32) (ix2 0 q)
      = HMul.hMul (α := EReal) (m ((c : Thread nD τ).loc main_arg5) (ix1 q))
          (Ideal.rsqrt (max (Ideal.div ((W2 m ρ c (Proc.devRef .tc main_v29_2) : FVec Ideal S1x256 .f32) (ix2 0 q)) (Ideal.ofBits .f32 0x47435000#32)
            - Ideal.div ((W2 m ρ c (Proc.devRef .tc main_v29_1) : FVec Ideal S1x256 .f32) (ix2 0 q)) (Ideal.ofBits .f32 0x47435000#32)
              * Ideal.div ((W2 m ρ c (Proc.devRef .tc main_v29_1) : FVec Ideal S1x256 .f32) (ix2 0 q)) (Ideal.ofBits .f32 0x47435000#32))
          (Ideal.ofBits .f32 0x00000000#32) + Ideal.ofBits .f32 0x3727C5AC#32)) := by
  rw [V3_v46_eq, Cert.KernelIdeal.Host0.shapeCast_vec_row_apply, scaleV_apply, Cert.KernelIdeal.Kept.W2_arg5]

/-- The shift of column q: β q − (S q / n) · scale q. -/
theorem V3_v47 (c : Dev nD) (q : Fin 256) :
    (V3 m ρ c main_v47 : FVec Ideal S1x256 .f32) (ix2 0 q)
      = HSub.hSub (α := EReal) (m ((c : Thread nD τ).loc main_arg6) (ix1 q))
          (Ideal.div ((W2 m ρ c (Proc.devRef .tc main_v29_1) : FVec Ideal S1x256 .f32) (ix2 0 q)) (Ideal.ofBits .f32 0x47435000#32)
          * HMul.hMul (α := EReal) (m ((c : Thread nD τ).loc main_arg5) (ix1 q))
            (Ideal.rsqrt (max (Ideal.div ((W2 m ρ c (Proc.devRef .tc main_v29_2) : FVec Ideal S1x256 .f32) (ix2 0 q)) (Ideal.ofBits .f32 0x47435000#32)
                - Ideal.div ((W2 m ρ c (Proc.devRef .tc main_v29_1) : FVec Ideal S1x256 .f32) (ix2 0 q)) (Ideal.ofBits .f32 0x47435000#32)
                  * Ideal.div ((W2 m ρ c (Proc.devRef .tc main_v29_1) : FVec Ideal S1x256 .f32) (ix2 0 q)) (Ideal.ofBits .f32 0x47435000#32))
              (Ideal.ofBits .f32 0x00000000#32) + Ideal.ofBits .f32 0x3727C5AC#32))) := by
  rw [V3_v47_eq, Cert.KernelIdeal.Host0.shapeCast_vec_row_apply, shiftV_apply, scaleV_apply, Cert.KernelIdeal.Kept.W2_arg5,
    Cert.KernelIdeal.Kept.W2_arg6]

/-- The hidden layer's array reaches the second pipeline as the first pipeline left it. -/
theorem V3_v29_0 (c : Dev nD) : V3 m ρ c main_v29_0 = W2 m ρ c (Proc.devRef .tc main_v29_0) :=
  Cert.KernelIdeal.Kept.W3_v29_0 m ρ c

end Cert.KernelIdeal.Host1

end
-- ==== Proof.Host2.lean ====
/-
  The idealized kernel program's third stretch of host operations, read back at the ideal values.

  Between the second and the last pipeline the host wraps the negative sources of the edge list again, gathers the rows
  of the normalised hidden layer at the sources, widens them (the identity at the ideal values) and adds them into
  zeros at the destinations: the edge aggregation of the normalised hidden layer.  It also narrows the two second-layer
  weight matrices (the identity again) and makes the second bias a one-row matrix.  The two rows of the edge list were
  computed by the first stretch and nothing has written them since; the column of reciprocal degrees and the normalised
  hidden layer pass through untouched.
-/
import proofs.«130728_j3418793967880_2_alg».proof.Proof.Gen.KernelIdeal.Frame
import proofs.«130728_j3418793967880_2_alg».proof.Proof.Kept
import proofs.«130728_j3418793967880_2_alg».proof.Proof.Host0
import proofs.«130728_j3418793967880_2_alg».proof.Proof.RefAgg
import proofs.«130728_j3418793967880_2_alg».proof.Proof.Spec
import Idealize.ShloMosaic.Lib.StableHlo.Run
import Idealize.ShloMosaic.Lib.ValueIdx

noncomputable section

namespace Cert.KernelIdeal.Host2

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- The neighbour sum the last pipeline reads is the edge aggregation of the normalised hidden layer. -/
theorem V5_v59 (c : Dev nD) :
    (V5 m ρ c main_v59 : FVec Ideal S50000x256 .f32)
      = Cert.RefAgg.agg2 (m ((c : Thread nD τ).loc main_arg1)) (W4 m ρ c (Proc.devRef .tc main_v48) : FVec Ideal S50000x256 .f32) := by
  show StableHlo.after hostOps2 (W4 m ρ c) (Proc.devRef .tc main_v59) = _
  after_results_simp
  rw [Cert.KernelIdeal.Kept.W4_v1, Cert.KernelIdeal.Kept.W4_v3, Cert.KernelIdeal.Host0.W1_v1, Cert.KernelIdeal.Host0.W1_v3]
  generalize W4 m ρ c (Proc.devRef .tc main_v48) = T
  rfl

/-- The column the last pipeline reads is the column of reciprocals of the clamped in-degree. -/
theorem V5_v13 (c : Dev nD) :
    (V5 m ρ c main_v13 : FVec Ideal S50000x1 .bf16) = Cert.Spec.colInv (Cert.RefAgg.deg (m ((c : Thread nD τ).loc main_arg1))) :=
  (Cert.KernelIdeal.Kept.W5_v13 m ρ c).trans (Cert.KernelIdeal.Host0.V1_v13 m ρ c)

/-- The normalised hidden layer reaches the last pipeline as the second pipeline left it. -/
theorem V5_v48 (c : Dev nD) : V5 m ρ c main_v48 = W4 m ρ c (Proc.devRef .tc main_v48) :=
  Cert.KernelIdeal.Kept.W5_v48 m ρ c

/-- The narrowed second-layer neighbour weights are the weights. -/
theorem V5_v60 (c : Dev nD) : (V5 m ρ c main_v60 : FVec Ideal S256x128 .bf16) = m ((c : Thread nD τ).loc main_arg7) := by
  show StableHlo.after hostOps2 (W4 m ρ c) (Proc.devRef .tc main_v60) = _
  after_results_simp
  rw [Cert.KernelIdeal.Kept.W4_arg7]
  rfl

/-- The narrowed second-layer self weights are the weights. -/
theorem V5_v61 (c : Dev nD) : (V5 m ρ c main_v61 : FVec Ideal S256x128 .bf16) = m ((c : Thread nD τ).loc main_arg9) := by
  show StableHlo.after hostOps2 (W4 m ρ c) (Proc.devRef .tc main_v61) = _
  after_results_simp
  rw [Cert.KernelIdeal.Kept.W4_arg9]
  rfl

/-- The second bias as a one-row matrix reads the bias. -/
theorem V5_v62 (c : Dev nD) (q : Fin 128) :
    (V5 m ρ c main_v62 : FVec Ideal S1x128 .f32) (ix2 0 q) = m ((c : Thread nD τ).loc main_arg8) (ix1 q) := by
  have e : (V5 m ρ c main_v62 : FVec Ideal S1x128 .f32)
      = shapeCast S1x128 (W4 m ρ c (Proc.devRef .tc main_arg8) : FVec Ideal S128 .f32) shapeCasts_S128_S1x128 := by
    show StableHlo.after hostOps2 (W4 m ρ c) (Proc.devRef .tc main_v62) = _
    after_results_simp
    rfl
  rw [e, Cert.KernelIdeal.Host0.shapeCast_vec_row_apply, Cert.KernelIdeal.Kept.W4_arg8]

end Cert.KernelIdeal.Host2

end
-- ==== Proof.KernelLayer2.lean ====
/-
  The normalisation and the second layer of the idealized kernel as functions of the arguments.  The host turns the
  two statistics rows into a scale and a shift per column — the one-pass form of the specification —, the second
  pipeline applies them and clamps at zero, the host aggregates the result over the edges again, and the third
  pipeline is the layer `linK` once more: the result array is the specification's one-pass encoder `Gk`.
-/
import proofs.«130728_j3418793967880_2_alg».proof.Proof.KernelLayer1
import proofs.«130728_j3418793967880_2_alg».proof.Proof.Region1
import proofs.«130728_j3418793967880_2_alg».proof.Proof.Region2
import proofs.«130728_j3418793967880_2_alg».proof.Proof.Host1
import proofs.«130728_j3418793967880_2_alg».proof.Proof.Host2

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The row count as the programs spell it. -/
abbrev cntW : EReal := Ideal.ofBits .f32 0x47435000#32

/-- The normalised, clamped hidden layer in the one-pass form. -/
def H2 (c : Dev nD) : FVec Ideal S50000x256 .f32 := Cert.Spec.bnKer cntW (H1 m c) (m ((c : Thread nD τ).loc main_arg5)) (m ((c : Thread nD τ).loc main_arg6))

/-- The scale row the host computes is the specification's. -/
theorem scale_eq (c : Dev nD) (q : Fin 256) :
    (V3 m ρ c main_v46 : FVec Ideal S1x256 .f32) (ix2 0 q) = Cert.Spec.scaleK cntW (H1 m c) (m ((c : Thread nD τ).loc main_arg5)) q := by
  rw [Host1.V3_v46, W2_sum, W2_sq]
  rfl

/-- The shift row the host computes is the specification's. -/
theorem shift_eq (c : Dev nD) (q : Fin 256) :
    (V3 m ρ c main_v47 : FVec Ideal S1x256 .f32) (ix2 0 q) = Cert.Spec.shiftK cntW (H1 m c) (m ((c : Thread nD τ).loc main_arg5)) (m ((c : Thread nD τ).loc main_arg6)) q := by
  rw [Host1.V3_v47, W2_sum, W2_sq]
  rfl

/-- After the second pipeline its output array holds the normalised hidden layer. -/
theorem W4_h (c : Dev nD) : (W4 m ρ c (Proc.devRef .tc main_v48) : FVec Ideal S50000x256 .f32) = H2 m c := by
  refine ((W4_arr m ρ c 3).trans (R1.final1 (V3 m ρ) c)).trans ?_
  funext i
  obtain ⟨r, q, rfl⟩ : ∃ (r : Fin 50000) (q : Fin 256), i = ix2 r q := ⟨i 0, i 1, eq_ix2 i⟩
  have e0 : (V3 m ρ c (Pipeline.arrRef spec1 0) : FVec Ideal S50000x256 .f32) = H1 m c := (Host1.V3_v29_0 m ρ c).trans (W2_hid m ρ c)
  have e1 : (V3 m ρ c (Pipeline.arrRef spec1 1) : FVec Ideal S1x256 .f32) (ix2 0 q) = Cert.Spec.scaleK cntW (H1 m c) (m ((c : Thread nD τ).loc main_arg5)) q := scale_eq m ρ c q
  have e2 : (V3 m ρ c (Pipeline.arrRef spec1 2) : FVec Ideal S1x256 .f32) (ix2 0 q) = Cert.Spec.shiftK cntW (H1 m c) (m ((c : Thread nD τ).loc main_arg5)) (m ((c : Thread nD τ).loc main_arg6)) q := shift_eq m ρ c q
  unfold H2
  rw [Cert.Layers.affRow_apply, Cert.Spec.bnKer_apply, e0, e1, e2]

/-- The arrays the third pipeline finds. -/
theorem V5_sum (c : Dev nD) : (V5 m ρ c (Pipeline.arrRef spec2 0) : FVec Ideal S50000x256 .f32) = Cert.RefAgg.agg2 (m ((c : Thread nD τ).loc main_arg1)) (H2 m c) :=
  (Host2.V5_v59 m ρ c).trans (congrArg (Cert.RefAgg.agg2 (m ((c : Thread nD τ).loc main_arg1))) (W4_h m ρ c))

theorem V5_col (c : Dev nD) : (V5 m ρ c (Pipeline.arrRef spec2 1) : FVec Ideal S50000x1 .bf16) = Cert.Spec.colInv (Cert.RefAgg.deg (m ((c : Thread nD τ).loc main_arg1))) :=
  Host2.V5_v13 m ρ c

theorem V5_h (c : Dev nD) : (V5 m ρ c (Pipeline.arrRef spec2 2) : FVec Ideal S50000x256 .f32) = H2 m c :=
  (Host2.V5_v48 m ρ c).trans (W4_h m ρ c)

theorem V5_wl (c : Dev nD) : (V5 m ρ c (Pipeline.arrRef spec2 3) : FVec Ideal S256x128 .bf16) = (m ((c : Thread nD τ).loc main_arg7)) := Host2.V5_v60 m ρ c

theorem V5_wr (c : Dev nD) : (V5 m ρ c (Pipeline.arrRef spec2 5) : FVec Ideal S256x128 .bf16) = (m ((c : Thread nD τ).loc main_arg9)) := Host2.V5_v61 m ρ c

theorem V5_b (c : Dev nD) (q : Fin 128) : (V5 m ρ c (Pipeline.arrRef spec2 4) : FVec Ideal S1x128 .f32) (ix2 0 q) = (m ((c : Thread nD τ).loc main_arg8)) (ix1 q) :=
  Host2.V5_v62 m ρ c q

/-- The result array of the idealized kernel is the second layer of the normalised hidden layer. -/
theorem W6_lin (c : Dev nD) :
    (W6 m ρ c (Proc.devRef .tc main_v63) : FVec Ideal S50000x128 .f32)
      = Cert.Spec.linK (Cert.RefAgg.agg2 (m ((c : Thread nD τ).loc main_arg1)) (H2 m c)) (H2 m c) (Cert.Spec.colInv (Cert.RefAgg.deg (m ((c : Thread nD τ).loc main_arg1)))) (m ((c : Thread nD τ).loc main_arg7)) (m ((c : Thread nD τ).loc main_arg9)) (m ((c : Thread nD τ).loc main_arg8)) := by
  refine ((W6_arr m ρ c 6).trans (R2.final2 (V5 m ρ) c)).trans ?_
  funext i
  obtain ⟨r, q, rfl⟩ : ∃ (r : Fin 50000) (q : Fin 128), i = ix2 r q := ⟨i 0, i 1, eq_ix2 i⟩
  rw [Cert.Layers.linRow_apply, Cert.Spec.linK_apply, V5_sum m ρ c, V5_col m ρ c, V5_h m ρ c, V5_wl m ρ c, V5_wr m ρ c, V5_b m ρ c q]

/-- The result array of the idealized kernel is the one-pass encoder of the arguments. -/
theorem W6_out (c : Dev nD) :
    (W6 m ρ c (Proc.devRef .tc main_v63) : FVec Ideal S50000x128 .f32)
      = Cert.Spec.Gk cntW (Cert.RefAgg.agg1 (m ((c : Thread nD τ).loc main_arg1))) (Cert.RefAgg.agg2 (m ((c : Thread nD τ).loc main_arg1))) (Cert.Spec.colInv (Cert.RefAgg.deg (m ((c : Thread nD τ).loc main_arg1))))
          (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_lin m ρ c).trans (by unfold H2 H1 Cert.Spec.Gk; rfl)

end Cert.KernelIdeal.Value

end
-- ==== Proof.KernelRun.lean ====
/-
  The idealized kernel's whole run with its result named: every weakly fair execution of the program ends with the
  result array holding what the last pipeline's write-backs leave in it, and the arguments as launched.  The contents of
  every buffer at the end are a fold through the program: host operations applied to the contents before them, each
  pipeline's arrays replaced by what its grid points wrote back.
-/
import proofs.«130728_j3418793967880_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«130728_j3418793967880_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibSigmoid.lean ====
/-
  The logistic function spelt with a division, on the extended reals.

  The single-precision word 0x3F800000 denotes the number one, so the quotient of that constant by
  the constant plus the exponential of the negated argument is the logistic function of the argument:
  1 / (1 + exp (-x)).
-/
import Idealize.ShloMosaic.PureOps.Ideal

namespace Cert.GruLib

open Idealize.ShloMosaic

/-- The single-precision word 0x3F800000 denotes the number one. -/
theorem ofBits_one : Ideal.ofBits .f32 0x3F800000#32 = 1 := by
  simp [Ideal.ofBits, Ideal.ieee, -EReal.coe_mul]; norm_num

/-- One over (one plus the exponential of minus x), with the ones given by their words, is the logistic function of x. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.GruLib
-- ==== Proof.LibSageLayer.lean ====
/-
  One mean-aggregation graph layer, entry by entry, at the ideal values (floats extended reals, every operation exact).

  A layer takes node features x [N, K] and the sum a [N, K] of the features over each node's incoming edges (a gather
  followed by a scatter-add: not opened here).  Row r of the sum is divided by the node's clamped in-degree D r, each
  of the two arrays is multiplied by its own weights [K, C], the two products and the bias b [C] are added and the
  result is clamped at zero.  With the column d [N, 1] of reciprocals d (r, 0) = 1 / D r, one function states it:

    sageRelu x a d ws wn b (r, c) = max (Σ_k x (r, k) · ws (k, c) + Σ_k (a (r, k) · d (r, 0)) · wn (k, c) + b c, 0)

  Both spellings met in programs are this function.  The vector unit multiplies a block of rows of the sum by the
  block's column of reciprocals broadcast over the lanes, multiplies both blocks into zero accumulators on the matrix
  unit (a change of float format is the identity at these values), adds the bias cast to a row and broadcast down the
  rows, and takes the maximum with the splat zero: read at a block-local index (p, q).  The host divides the whole sum
  by the degree vector spread over the lanes; on the extended reals  a / D = a · (1 / D)  as soon as D ≠ 0 (the
  quotient is the product with the inverse, infinite a included), so the host's whole array is the function at the
  column of reciprocals the host itself computes, 1 / D reshaped to a column.  Sums and products appear in the same
  order on all sides: nothing here needs an entry to be finite.
-/
import proofs.«130728_j3418793967880_2_alg».proof.Proof.LibPlainDot
import proofs.«130728_j3418793967880_2_alg».proof.Proof.LibRowBlocks
import proofs.«130728_j3418793967880_2_alg».proof.Proof.LibColumns
import proofs.«130728_j3418793967880_2_alg».proof.Proof.LibHostColumns
import proofs.«130728_j3418793967880_2_alg».proof.Proof.LibRowBroadcast
import proofs.«130728_j3418793967880_2_alg».proof.Proof.LibRows
import proofs.«130728_j3418793967880_2_alg».proof.Proof.LibSigmoid
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx
open scoped BigOperators

variable {N K C : Nat}

/-- The layer: own features times the self weights, plus the neighbour sum rescaled row by row times the neighbour
    weights, plus the bias, clamped at zero. -/
def sageRelu (x a : FVec Ideal ⟨2, ![N, K]⟩ .f32) (d : FVec Ideal ⟨2, ![N, 1]⟩ .f32) (ws wn : FVec Ideal ⟨2, ![K, C]⟩ .f32)
    (b : FVec Ideal ⟨1, ![C]⟩ .f32) : FVec Ideal ⟨2, ![N, C]⟩ .f32 :=
  fun i => max (((∑ k : Fin K, x (ix2 ⟨(i 0).val, idx2_lt0 i⟩ k) * ws (ix2 k ⟨(i 1).val, idx2_lt1 i⟩))
      + ∑ k : Fin K, (a (ix2 ⟨(i 0).val, idx2_lt0 i⟩ k) * d (ix2 ⟨(i 0).val, idx2_lt0 i⟩ 0)) * wn (ix2 k ⟨(i 1).val, idx2_lt1 i⟩))
    + b (ix1 ⟨(i 1).val, idx2_lt1 i⟩)) (Ideal.ofBits .f32 0x00000000#32)

theorem sageRelu_apply (x a : FVec Ideal ⟨2, ![N, K]⟩ .f32) (d : FVec Ideal ⟨2, ![N, 1]⟩ .f32) (ws wn : FVec Ideal ⟨2, ![K, C]⟩ .f32)
    (b : FVec Ideal ⟨1, ![C]⟩ .f32) (r : Fin N) (c : Fin C) :
    sageRelu x a d ws wn b (ix2 r c)
      = max (((∑ k : Fin K, x (ix2 r k) * ws (ix2 k c)) + ∑ k : Fin K, (a (ix2 r k) * d (ix2 r 0)) * wn (ix2 k c)) + b (ix1 c))
          (Ideal.ofBits .f32 0x00000000#32) := rfl

/-! ## The vector unit's spelling, read at a block-local index -/

/-- The layer's body on a block of B rows: both blocks and both weights narrowed to a smaller float format (the
    identity at these values), the sum's block first multiplied by its column of factors broadcast over the lanes; two
    products into zero accumulators, added; the bias cast to a row and broadcast down the rows added; the maximum with
    the splat zero: at (p, q) the clamped sum of the two contractions and the bias. -/
theorem sage_body {B : Nat} {ψ₁ ψ₂ ψ₃ ψ₄ : FTy} (x0 a0 : FVec Ideal ⟨2, ![B, K]⟩ .f32) (d0 : FVec Ideal ⟨2, ![B, 1]⟩ .f32)
    (ws0 wn0 : FVec Ideal ⟨2, ![K, C]⟩ .f32) (b0 : FVec Ideal ⟨1, ![C]⟩ .f32)
    (g₁ : ψ₁.bits < FTy.f32.bits) (g₂ : ψ₂.bits < FTy.f32.bits) (g₃ : ψ₃.bits < FTy.f32.bits) (g₄ : ψ₄.bits < FTy.f32.bits)
    (h2 : (⟨2, ![B, 1]⟩ : Shape).Broadcasts ⟨2, ![B, K]⟩) (h3 : (⟨1, ![C]⟩ : Shape).ShapeCasts ⟨2, ![1, C]⟩)
    (h4 : (⟨2, ![1, C]⟩ : Shape).Broadcasts ⟨2, ![B, C]⟩) (prec prec' : Option ContractPrecision) (p : Fin B) (q : Fin C) :
    maximumf (addf (addf
          (matmul (DotDims.plain B K C) prec (truncf ψ₁ x0 g₁) (truncf ψ₂ ws0 g₂) (constant (F := Ideal) ⟨2, ![B, C]⟩ .f32 0x00000000#32))
          (matmul (DotDims.plain B K C) prec' (truncf ψ₃ (mulf a0 (broadcastTo ⟨2, ![B, K]⟩ d0 h2)) g₃) (truncf ψ₄ wn0 g₄)
            (constant (F := Ideal) ⟨2, ![B, C]⟩ .f32 0x00000000#32)))
        (broadcastTo ⟨2, ![B, C]⟩ (shapeCast ⟨2, ![1, C]⟩ b0 h3) h4))
      (broadcast ⟨2, ![B, C]⟩ (Scalar.ofBits (F := Ideal) .f32 0x00000000#32)) (ix2 p q)
      = max (((∑ k : Fin K, x0 (ix2 p k) * ws0 (ix2 k q)) + ∑ k : Fin K, (a0 (ix2 p k) * d0 (ix2 p 0)) * wn0 (ix2 k q)) + b0 (ix1 q))
          (Ideal.ofBits .f32 0x00000000#32) := by
  rw [maximumf_apply, addf_apply, addf_apply, broadcast_apply, Cert.Lib.PlainDot.matmul_plain_zero_apply,
    Cert.Lib.PlainDot.matmul_plain_zero_apply, Cert.Lib.Rows.broadcastTo_row_apply, Cert.Lib.Rows.shapeCast_vec_row_apply]
  refine congrArg₂ max (congrArg (· + b0 (ix1 q)) (congrArg₂ (· + ·) rfl (Finset.sum_congr rfl fun k _ => ?_))) rfl
  rw [truncf_apply, truncf_apply, mulf_apply, Cert.Columns.broadcastTo_a1_ab_apply d0 h2 p k 0]

/-! ## The host's spelling, as whole arrays -/

/-- On the extended reals a quotient by a nonzero divisor is the product with the quotient of one by it. -/
theorem div_eq_mul_one_div (a D : EReal) (hD : D ≠ 0) : Ideal.div a D = a * Ideal.div 1 D := by
  unfold Ideal.div
  rw [if_neg hD, if_neg hD, one_mul]

/-- The host's layer: the sum divided by the degree vector (made a column, then spread over the lanes), two
    dot_generals, the bias broadcast to a row and then down the rows, the maximum with the broadcast scalar zero — is the
    layer at the column of reciprocals  one / D  reshaped to [N, 1], when no degree is zero. -/
theorem sage_host (x a : FVec Ideal ⟨2, ![N, K]⟩ .f32) (D : FVec Ideal ⟨1, ![N]⟩ .f32) (ws wn : FVec Ideal ⟨2, ![K, C]⟩ .f32)
    (b : FVec Ideal ⟨1, ![C]⟩ .f32) (hD : ∀ r : Fin N, D (ix1 r) ≠ 0)
    (h0 : (⟨1, ![N]⟩ : Shape).BroadcastsInDim ⟨2, ![N, 1]⟩ (![0] : Fin 1 → Fin 2))
    (h1 : (⟨2, ![N, 1]⟩ : Shape).BroadcastsInDim ⟨2, ![N, K]⟩ (![0, 1] : Fin 2 → Fin 2))
    (h2 : (⟨1, ![C]⟩ : Shape).BroadcastsInDim ⟨2, ![1, C]⟩ (![1] : Fin 1 → Fin 2))
    (h3 : (⟨2, ![1, C]⟩ : Shape).BroadcastsInDim ⟨2, ![N, C]⟩ (![0, 1] : Fin 2 → Fin 2))
    (h4 : (⟨0, ![]⟩ : Shape).BroadcastsInDim ⟨2, ![N, C]⟩ (![] : Fin 0 → Fin 2))
    (h5 : (⟨0, ![]⟩ : Shape).BroadcastsInDim ⟨1, ![N]⟩ (![] : Fin 0 → Fin 1))
    (h6 : (⟨1, ![N]⟩ : Shape).ShapeCasts ⟨2, ![N, 1]⟩) (prec prec' : Option ContractPrecision) :
    maximumf (addf (addf (Host.dotGeneral (DotDims.plain N K C) prec x ws)
          (Host.dotGeneral (DotDims.plain N K C) prec'
            (Host.divf a (broadcastInDim ⟨2, ![N, K]⟩ (![0, 1] : Fin 2 → Fin 2) h1 (broadcastInDim ⟨2, ![N, 1]⟩ (![0] : Fin 1 → Fin 2) h0 D))) wn))
        (broadcastInDim ⟨2, ![N, C]⟩ (![0, 1] : Fin 2 → Fin 2) h3 (broadcastInDim ⟨2, ![1, C]⟩ (![1] : Fin 1 → Fin 2) h2 b)))
      (broadcastInDim ⟨2, ![N, C]⟩ (![] : Fin 0 → Fin 2) h4 (constant (F := Ideal) ⟨0, ![]⟩ .f32 0x00000000#32))
      = sageRelu x a (shapeCast ⟨2, ![N, 1]⟩
          (Host.divf (broadcastInDim ⟨1, ![N]⟩ (![] : Fin 0 → Fin 1) h5 (constant (F := Ideal) ⟨0, ![]⟩ .f32 0x3F800000#32)) D) h6) ws wn b := by
  funext i
  obtain ⟨r, c, rfl⟩ : ∃ (r : Fin N) (c : Fin C), i = ix2 r c := ⟨i 0, i 1, eq_ix2 i⟩
  rw [maximumf_apply, addf_apply, addf_apply, Cert.Lib.RowBlocks.dotGeneral_plain_apply, Cert.Lib.RowBlocks.dotGeneral_plain_apply,
    Cert.Lib.RowBroadcast.broadcastInDim_row_apply, Cert.Lib.RowBroadcast.broadcastInDim_scalar_apply _ h4 (ix2 r c) ix0,
    sageRelu_apply]
  refine congrArg₂ max (congrArg₂ (· + ·) (congrArg₂ (· + ·) rfl (Finset.sum_congr rfl fun k _ => ?_)) ?_) rfl
  · refine congrArg (· * wn (ix2 k c)) ?_
    show Ideal.div (a (ix2 r k)) _ = a (ix2 r k) * _
    rw [Cert.Lib.HostColumns.bcast_col_lanes_apply _ h1 r k 0, Cert.Lib.HostColumns.bcast_vec_col_apply D h0 r 0,
      Cert.Columns.shapeCast_a_a1_apply _ h6 r 0]
    show _ = a (ix2 r k) * Ideal.div (broadcastInDim ⟨1, ![N]⟩ (![] : Fin 0 → Fin 1) h5 (constant (F := Ideal) ⟨0, ![]⟩ .f32 0x3F800000#32) (ix1 r)) (D (ix1 r))
    rw [Cert.Lib.RowBroadcast.broadcastInDim_scalar_apply _ h5 (ix1 r) ix0, constant_apply, Cert.GruLib.ofBits_one]
    exact div_eq_mul_one_div _ _ (hD r)
  · exact broadcastInDim_apply (![1] : Fin 1 → Fin 2) h2 b (ix2 0 c) (ix1 c) (fun ax => by
      match ax with
      | ⟨0, _⟩ =>
        show c.val = if C = 1 then 0 else c.val
        by_cases hC : C = 1
        · rw [if_pos hC]; have := c.isLt; omega
        · rw [if_neg hC])

end Cert.Sage

end
-- ==== Proof.BridgeLin.lean ====
/-
  One layer of the encoder in its two spellings, on the extended reals.

  The neighbour sum of a row is either divided by the row's degree D r or multiplied by the reciprocal 1 / D r taken
  from a column of factors.  On the extended reals a quotient by a divisor that is not zero is the product with the
  quotient of one by it, for every dividend, the infinities included; so the two layers agree entry by entry as soon as
  no degree is zero, with no finiteness asked of any operand.

  When moreover the neighbour sum, the features, the degrees, the weights and the bias are real numbers, every entry of
  the layer is a real number: a quotient of reals by a nonzero real, products, finite sums and sums of reals are real.
-/
import proofs.«130728_j3418793967880_2_alg».proof.Proof.Spec
import proofs.«130728_j3418793967880_2_alg».proof.Proof.LibReals
import proofs.«130728_j3418793967880_2_alg».proof.Proof.LibSageLayer

noncomputable section

namespace Cert.Bridge

open Cert.Spec Cert.Reals Idealize.ShloMosaic Idealize.ShloMosaic.ValueIdx
open scoped BigOperators

variable {N K C : Nat}

/-- The layer at the column of reciprocals of the degrees is the layer that divides by the degrees, when no degree is
    zero. -/
theorem linK_colInv (a x : FVec Ideal ⟨2, ![N, K]⟩ .f32) (D : FVec Ideal ⟨1, ![N]⟩ .f32) (wl wr : FVec Ideal ⟨2, ![K, C]⟩ .f32)
    (b : FVec Ideal ⟨1, ![C]⟩ .f32) (hD0 : ∀ r : Fin N, D (ix1 r) ≠ 0) :
    linK a x (colInv D) wl wr b = lin a x D wl wr b := by
  funext i
  obtain ⟨r, c, rfl⟩ : ∃ (r : Fin N) (c : Fin C), i = ix2 r c := ⟨i 0, i 1, eq_ix2 i⟩
  rw [linK_apply, lin_apply, colInv_apply]
  unfold oneW
  rw [Cert.GruLib.ofBits_one]
  congr 2
  refine Finset.sum_congr rfl fun k _ => ?_
  rw [Cert.Sage.div_eq_mul_one_div (a (ix2 r k)) _ (hD0 r)]

/-- The layer of real operands, no degree zero, is real entry by entry. -/
theorem lin_isReal (a x : FVec Ideal ⟨2, ![N, K]⟩ .f32) (D : FVec Ideal ⟨1, ![N]⟩ .f32) (wl wr : FVec Ideal ⟨2, ![K, C]⟩ .f32)
    (b : FVec Ideal ⟨1, ![C]⟩ .f32) (hD0 : ∀ r : Fin N, D (ix1 r) ≠ 0) (hD : IsReal D) (ha : IsReal a) (hx : IsReal x)
    (hwl : IsReal wl) (hwr : IsReal wr) (hb : IsReal b) : IsReal (lin a x D wl wr b) := by
  intro i
  obtain ⟨r, c, rfl⟩ : ∃ (r : Fin N) (c : Fin C), i = ix2 r c := ⟨i 0, i 1, eq_ix2 i⟩
  rw [lin_apply]
  exact ((isRealS_sum _ _ fun k _ => (((ha.apply _).div (hD.apply _) (hD0 r)).mul (hwl.apply _))).add (hb.apply _)).add
    (isRealS_sum _ _ fun k _ => (hx.apply _).mul (hwr.apply _))

end Cert.Bridge

end
-- ==== Proof.BridgeBn.lean ====
/-
  Batch normalisation of real columns in its two spellings, on the extended reals.

  The two-pass form subtracts the column mean μ, multiplies by the reciprocal square root of the variance plus ε, the
  variance taken as the mean of the squared deviations, then scales by γ and shifts by β.  The one-pass form takes the
  variance as the mean of the squares minus μ², clamps it at zero, and folds everything into one multiply-add
  h · s + (β − μ · s) with s = γ · rsqrt (variance + ε).

  On a column of real numbers the two variances are the same real v (the variance identity), v is not negative, so the
  clamp is the identity; ε is a positive real, so v + ε is positive and its reciprocal square root is a real ρ; and
  h · (γ · ρ) + (β − μ · (γ · ρ)) = ((h − μ) · ρ) · γ + β is an identity of real numbers.
-/
import proofs.«130728_j3418793967880_2_alg».proof.Proof.Spec
import proofs.«130728_j3418793967880_2_alg».proof.Proof.LibReals
import Idealize.ShloMosaic.PureOps.Ideal.Laws

noncomputable section

namespace Cert.Bridge

open Cert.Spec Cert.Reals Idealize.ShloMosaic Idealize.ShloMosaic.ValueIdx
open scoped BigOperators

variable {N C : Nat}

/-- The stabiliser word denotes a positive real number (10995116 · 2⁻⁴⁰, about 10⁻⁵). -/
theorem epsW_pos : ∃ e : ℝ, 0 < e ∧ epsW = (e : EReal) := by
  refine ⟨(10995116 : ℝ) * (2 : ℝ) ^ (-40 : Int), by positivity, ?_⟩
  unfold epsW
  simp [Ideal.ofBits, Ideal.ieee, -EReal.coe_mul]

/-- The two normalisations of one entry agree once every quantity is a real: h the entry, m the mean, v ≥ 0 the
    variance, e > 0 the stabiliser, g the scale and b the shift. -/
theorem bn_scalar (a m v e g b : ℝ) (hv : 0 ≤ v) (he : 0 < e) :
    max ((a : EReal) * ((g : EReal) * Ideal.rsqrt (max (v : EReal) 0 + (e : EReal)))
        + ((b : EReal) - (m : EReal) * ((g : EReal) * Ideal.rsqrt (max (v : EReal) 0 + (e : EReal))))) 0
      = max (((a : EReal) - (m : EReal)) * Ideal.rsqrt ((v : EReal) + (e : EReal)) * (g : EReal) + (b : EReal)) 0 := by
  have hmax : max (v : EReal) 0 = (v : EReal) := max_eq_left (EReal.coe_nonneg.mpr hv)
  rw [hmax, ← EReal.coe_add, rsqrt_coe_pos (add_pos_of_nonneg_of_pos hv he)]
  simp only [← EReal.coe_mul, ← EReal.coe_add, ← EReal.coe_sub]
  congr 2
  ring

/-- One-pass and two-pass batch normalisation agree on a real array with real scale and shift, the count being the
    number of rows and not zero. -/
theorem bnKer_eq_bnRef (cnt : EReal) (hcnt : cnt = (((N : ℕ) : ℝ) : EReal)) (hN : 0 < N)
    (h : FVec Ideal ⟨2, ![N, C]⟩ .f32) (γ β : FVec Ideal ⟨1, ![C]⟩ .f32) (hh : IsReal h) (hγ : IsReal γ) (hβ : IsReal β) :
    bnKer cnt h γ β = bnRef cnt h γ β := by
  subst hcnt
  funext i
  obtain ⟨r0, c, rfl⟩ : ∃ (r : Fin N) (c : Fin C), i = ix2 r c := ⟨i 0, i 1, eq_ix2 i⟩
  rw [bnKer_apply, bnRef_apply]
  unfold shiftK scaleK colMean zeroW
  rw [Ideal.ofBits_zero_f32]
  have hNr : (0 : ℝ) < ((N : ℕ) : ℝ) := Nat.cast_pos.mpr hN
  have hcard : ((N : ℕ) : ℝ) = Fintype.card (Fin N) := by simp
  have hcol : IsReal (fun r : Fin N => h (ix2 r c)) := fun r => hh _
  obtain ⟨a, ha⟩ := hh (ix2 r0 c)
  obtain ⟨g, hg⟩ := hγ (ix1 c)
  obtain ⟨b, hb⟩ := hβ (ix1 c)
  obtain ⟨e, he, heps⟩ := epsW_pos
  obtain ⟨m, hm⟩ : IsRealS (Ideal.div (0 + ∑ r : Fin N, h (ix2 r c)) (((N : ℕ) : ℝ) : EReal)) :=
    (isRealS_zero.add hcol.sum_univ).div_coe hNr.ne'
  obtain ⟨v, hv, hV⟩ := variance_dev_real_nonneg (fun r : Fin N => h (ix2 r c)) hcol hNr
  have hdev : Ideal.div (0 + ∑ r : Fin N, (h (ix2 r c) - Ideal.div (0 + ∑ j : Fin N, h (ix2 j c)) (((N : ℕ) : ℝ) : EReal))
        * (h (ix2 r c) - Ideal.div (0 + ∑ j : Fin N, h (ix2 j c)) (((N : ℕ) : ℝ) : EReal))) (((N : ℕ) : ℝ) : EReal) = (v : EReal) := by
    simpa only [zero_add] using hV
  have hmom : Ideal.div (0 + ∑ r : Fin N, h (ix2 r c) * h (ix2 r c)) (((N : ℕ) : ℝ) : EReal)
        - Ideal.div (0 + ∑ j : Fin N, h (ix2 j c)) (((N : ℕ) : ℝ) : EReal) * Ideal.div (0 + ∑ j : Fin N, h (ix2 j c)) (((N : ℕ) : ℝ) : EReal)
      = (v : EReal) := by
    rw [← variance_ereal_zero_add (fun r : Fin N => h (ix2 r c)) hcol hcard hNr.ne']
    exact hdev
  rw [hdev, hmom, hm, ha, hg, hb, heps]
  exact bn_scalar a m v e g b hv he

end Cert.Bridge

end
-- ==== Proof.Bridge.lean ====
/-
  The two forms of the encoder agree.

  The one-pass form multiplies each neighbour sum by the column of reciprocals of the degrees and normalises with the
  moment form of the variance folded into one multiply-add; the two-pass form divides by the degrees and normalises with
  the deviation form.  No degree being zero, the first layers are the same array (a quotient is the product with the
  reciprocal).  That array is real when the neighbour sum, the features, the degrees, the first layer's weights and
  bias are real, so the two normalisations of it agree.  The second layers are then applied to the same array and to the
  same aggregation of it, and agree again because no degree is zero; nothing is asked of the second layer's operands.
-/
import proofs.«130728_j3418793967880_2_alg».proof.Proof.Spec
import proofs.«130728_j3418793967880_2_alg».proof.Proof.LibReals
import proofs.«130728_j3418793967880_2_alg».proof.Proof.BridgeLin
import proofs.«130728_j3418793967880_2_alg».proof.Proof.BridgeBn

noncomputable section

namespace Cert.Bridge

open Cert.Spec Cert.Reals Idealize.ShloMosaic Idealize.ShloMosaic.ValueIdx

/-- The encoder with the degrees as a column of reciprocals and one-pass normalisation is the encoder that divides by
    the degrees and normalises in two passes: the count is the number of rows, no degree is zero, and the degrees, the
    first neighbour sum, the features, the first layer's weights and bias, the scale and the shift are real. -/
theorem Gk_eq_G {N K C K2 : Nat} (cnt : EReal) (hcnt : cnt = (((N : ℕ) : ℝ) : EReal)) (hN : 0 < N)
    (agg1 : FVec Ideal ⟨2, ![N, K]⟩ .f32 → FVec Ideal ⟨2, ![N, K]⟩ .f32) (agg2 : FVec Ideal ⟨2, ![N, C]⟩ .f32 → FVec Ideal ⟨2, ![N, C]⟩ .f32)
    (D : FVec Ideal ⟨1, ![N]⟩ .f32) (x : FVec Ideal ⟨2, ![N, K]⟩ .f32) (w1l : FVec Ideal ⟨2, ![K, C]⟩ .f32) (b1 : FVec Ideal ⟨1, ![C]⟩ .f32)
    (w1r : FVec Ideal ⟨2, ![K, C]⟩ .f32) (γ β : FVec Ideal ⟨1, ![C]⟩ .f32) (w2l : FVec Ideal ⟨2, ![C, K2]⟩ .f32) (b2 : FVec Ideal ⟨1, ![K2]⟩ .f32)
    (w2r : FVec Ideal ⟨2, ![C, K2]⟩ .f32)
    (hD0 : ∀ r : Fin N, D (ix1 r) ≠ 0) (hD : IsReal D) (hA : IsReal (agg1 x)) (hx : IsReal x) (hw1l : IsReal w1l) (hb1 : IsReal b1)
    (hw1r : IsReal w1r) (hγ : IsReal γ) (hβ : IsReal β) :
    Gk cnt agg1 agg2 (colInv D) x w1l b1 w1r γ β w2l b2 w2r = G cnt agg1 agg2 D x w1l b1 w1r γ β w2l b2 w2r := by
  unfold Gk G
  rw [linK_colInv (agg1 x) x D w1l w1r b1 hD0,
    bnKer_eq_bnRef cnt hcnt hN (lin (agg1 x) x D w1l w1r b1) γ β
      (lin_isReal (agg1 x) x D w1l w1r b1 hD0 hD hA hx hw1l hw1r hb1) hγ hβ,
    linK_colInv _ _ D w2l w2r b2 hD0]

end Cert.Bridge

end
-- ==== Proof.FinitePre.lean ====
/-
  From the precondition to real inputs.

  The precondition is the conjunction, over the nine float arguments, of "every entry has absolute value below
  the upper infinity": each conjunct is a reduction by "and", over all axes, of the entrywise comparison
  |x| < +inf, and the claim states that the whole conjunction is the bit 1.  A conjunction that is 1 has both
  conjuncts 1; a reduction by "and" over all axes that is 1 met a 1 at every entry; the comparison bit being 1
  says max x (-x) < +inf, which rules out both infinities, and an extended real that is neither infinity is a real.
-/
import proofs.«130728_j3418793967880_2_alg».proof.Defs
import proofs.«130728_j3418793967880_2_alg».proof.Proof.Gen.Pre_finite_inputs
import proofs.«130728_j3418793967880_2_alg».proof.Proof.Gen.KernelIdeal
import proofs.«130728_j3418793967880_2_alg».proof.Proof.LibReals
import proofs.«130728_j3418793967880_2_alg».proof.Proof.FiniteWords
import proofs.«130728_j3418793967880_2_alg».proof.Proof.FiniteAgg
import Idealize.ShloMosaic.Lib.ReduceAll
import Idealize.ShloMosaic.Lib.ValueIdx

noncomputable section

namespace Cert.Finite

open Idealize.ShloMosaic Idealize.ShloMosaic.ValueIdx Idealize.SL.Sem Cert.Reals

/-- The scalar shape has one index. -/
instance subsingleton_scalar_idx : Subsingleton (⟨0, ![]⟩ : Shape).Idx := ⟨fun a b => funext fun d => d.elim0⟩

/-- An extended real whose absolute value max x (-x) is below the upper infinity is a real. -/
theorem isRealS_of_abs_lt_top {x : EReal} (h : max x (-x) < ⊤) : IsRealS x := by
  induction x using EReal.rec with
  | bot => simp at h
  | top => simp at h
  | coe r => exact ⟨r, rfl⟩

/-- The ordered less-than comparison bit being 1 says the left side is below the right. -/
theorem lt_of_cmp_olt {x y : EReal} (h : Ideal.cmp .olt x y = 1#1) : x < y := by
  have e : Ideal.cmp .olt x y = BitVec.ofBool (decide (x < y)) := rfl
  rw [e] at h
  by_contra hn
  rw [decide_eq_false hn] at h
  exact absurd h (by decide)

/-- ONE ARRAY: if the reduction by "and" over all axes of the entrywise comparison |x| < +inf is the bit 1,
    every entry of x is a real. -/
theorem real_of_all_abs_lt_inf {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
      (cmpf .olt (Host.absf x)
        (broadcastInDim s (![] : Fin 0 → Fin s.rank) hb (constant (F := Ideal) ⟨0, ![]⟩ .f32 0x7F800000#32)))
      init hr hu ix0 = 1#1) :
    IsReal x := fun i => by
  have h := Host.reduce_andi_all _ init hr hu ix0 e i
  have h2 : Ideal.cmp .olt (max (x i) (-(x i)))
      (broadcastInDim s (![] : Fin 0 → Fin s.rank) hb (constant (F := Ideal) ⟨0, ![]⟩ .f32 0x7F800000#32) i) = 1#1 := h
  rw [splat_apply, inf_word] at h2
  exact isRealS_of_abs_lt_top (lt_of_cmp_olt h2)

/-- THE PRECONDITION DECODED: under it, every float argument of the kernel holds only real numbers. -/
theorem inputs_real (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
      ∧ IsReal (m ((c.tc : Thread Cert.KernelIdeal.nD Cert.KernelIdeal.τ).loc Cert.KernelIdeal.main_arg2))
      ∧ IsReal (m ((c.tc : Thread Cert.KernelIdeal.nD Cert.KernelIdeal.τ).loc Cert.KernelIdeal.main_arg3))
      ∧ IsReal (m ((c.tc : Thread Cert.KernelIdeal.nD Cert.KernelIdeal.τ).loc Cert.KernelIdeal.main_arg4))
      ∧ IsReal (m ((c.tc : Thread Cert.KernelIdeal.nD Cert.KernelIdeal.τ).loc Cert.KernelIdeal.main_arg5))
      ∧ IsReal (m ((c.tc : Thread Cert.KernelIdeal.nD Cert.KernelIdeal.τ).loc Cert.KernelIdeal.main_arg6))
      ∧ IsReal (m ((c.tc : Thread Cert.KernelIdeal.nD Cert.KernelIdeal.τ).loc Cert.KernelIdeal.main_arg7))
      ∧ IsReal (m ((c.tc : Thread Cert.KernelIdeal.nD Cert.KernelIdeal.τ).loc Cert.KernelIdeal.main_arg8))
      ∧ IsReal (m ((c.tc : Thread Cert.KernelIdeal.nD Cert.KernelIdeal.τ).loc Cert.KernelIdeal.main_arg9)) := by
  have e := congrFun (hpre c) ix0
  dsimp only [Cert.Pre_finite_inputs.fn, Cert.Pre_finite_inputs.fn_part1, Cert.Pre_finite_inputs.fn_part2] at e
  obtain ⟨e8, h9⟩ := IntOp.andi_eq_one.1 e
  obtain ⟨e7, h8⟩ := IntOp.andi_eq_one.1 e8
  obtain ⟨e6, h7⟩ := IntOp.andi_eq_one.1 e7
  obtain ⟨e5, h6⟩ := IntOp.andi_eq_one.1 e6
  obtain ⟨e4, h5⟩ := IntOp.andi_eq_one.1 e5
  obtain ⟨e3, h4⟩ := IntOp.andi_eq_one.1 e4
  obtain ⟨e2, h3⟩ := IntOp.andi_eq_one.1 e3
  obtain ⟨h0, h2⟩ := IntOp.andi_eq_one.1 e2
  exact ⟨real_of_all_abs_lt_inf _ _ _ _ _ h0, real_of_all_abs_lt_inf _ _ _ _ _ h2, real_of_all_abs_lt_inf _ _ _ _ _ h3,
    real_of_all_abs_lt_inf _ _ _ _ _ h4, real_of_all_abs_lt_inf _ _ _ _ _ h5, real_of_all_abs_lt_inf _ _ _ _ _ h6,
    real_of_all_abs_lt_inf _ _ _ _ _ h7, real_of_all_abs_lt_inf _ _ _ _ _ h8, real_of_all_abs_lt_inf _ _ _ _ _ h9⟩

end Cert.Finite

end
-- ==== Proof.RefValueAgg.lean ====
/-
  The reference program's gathers and scatter-adds are the edge aggregation of RefAgg, stage by stage.

  The program builds the column of source indices twice (once per layer) and the column of destination indices four
  times, each time by the same operations on the edge list; the degree vector is built twice.  Each copy is the same
  term as RefAgg's, so the stages that gather rows and add them into a zero array are agg1, agg2 and deg by unfolding.
-/
import proofs.«130728_j3418793967880_2_alg».proof.Proof.Gen.ReferenceIdeal.Read
import proofs.«130728_j3418793967880_2_alg».proof.Proof.RefAgg

noncomputable section

namespace Cert.RefValue

open Idealize.ShloMosaic Idealize.ShloMosaic.ValueIdx Cert.ReferenceIdeal Cert.ReferenceIdeal.Gen Cert.ReferenceIdeal.Read
open scoped BigOperators

/-- The first layer's neighbour sum: gather the rows of x at the sources, add them into zeros at the destinations. -/
theorem v13_eq (x0 : FVec Ideal S50000x128 .f32) (x1 : Cert.RefAgg.EI) :
    val_main_v13 (F := Ideal) x0 x1 = Cert.RefAgg.agg1 x1 x0 := rfl

/-- The clamped in-degree, first copy. -/
theorem v19_eq (x1 : Cert.RefAgg.EI) : val_main_v19 (F := Ideal) x1 = Cert.RefAgg.deg x1 := rfl

/-- The clamped in-degree, second copy. -/
theorem v70_eq (x1 : Cert.RefAgg.EI) : val_main_v70 (F := Ideal) x1 = Cert.RefAgg.deg x1 := rfl

/-- The second layer's neighbour sum of the normalised features. -/
theorem v64_eq (x0 : FVec Ideal S50000x128 .f32) (x1 : Cert.RefAgg.EI) (x2 : FVec Ideal S128x256 .f32) (x3 : FVec Ideal S256 .f32)
    (x4 : FVec Ideal S128x256 .f32) (x5 x6 : FVec Ideal S256 .f32) :
    val_main_v64 (F := Ideal) x0 x1 x2 x3 x4 x5 x6 = Cert.RefAgg.agg2 x1 (val_main_v54 (F := Ideal) x0 x1 x2 x3 x4 x5 x6) := rfl

end Cert.RefValue

end
-- ==== Proof.RefValueRows.lean ====
/-
  The neighbour sum divided row by row by the degree, as the host spells it, read at an entry.

  The host makes the degree vector D [N] a column [N, 1], spreads the column over the K lanes, and divides the
  array a [N, K] by the spread array entry by entry.  At (r, k) the spread array is D r, so the quotient's entry
  is a (r, k) / D r.  A general fact, for any extents.
-/
import proofs.«130728_j3418793967880_2_alg».proof.Proof.LibHostColumns
import Idealize.ShloMosaic.PureOps.Ideal
import Idealize.ShloMosaic.Lib.ValueIdx

noncomputable section

namespace Cert.RefValue

open Idealize.ShloMosaic Idealize.ShloMosaic.ValueIdx

/-- An array divided by a vector spread over its lanes: entry (r, k) is a (r, k) / D r. -/
theorem divRow_apply {N K : Nat} (a : FVec Ideal ⟨2, ![N, K]⟩ .f32) (D : FVec Ideal ⟨1, ![N]⟩ .f32)
    (h0 : (⟨1, ![N]⟩ : Shape).BroadcastsInDim ⟨2, ![N, 1]⟩ (![0] : Fin 1 → Fin 2))
    (h1 : (⟨2, ![N, 1]⟩ : Shape).BroadcastsInDim ⟨2, ![N, K]⟩ (![0, 1] : Fin 2 → Fin 2)) (r : Fin N) (k : Fin K) :
    Host.divf a (broadcastInDim ⟨2, ![N, K]⟩ (![0, 1] : Fin 2 → Fin 2) h1 (broadcastInDim ⟨2, ![N, 1]⟩ (![0] : Fin 1 → Fin 2) h0 D))
        (ix2 r k)
      = Ideal.div (a (ix2 r k)) (D (ix1 r)) := by
  show Ideal.div (a (ix2 r k)) _ = _
  rw [Cert.Lib.HostColumns.bcast_col_lanes_apply _ h1 r k 0, Cert.Lib.HostColumns.bcast_vec_col_apply D h0 r 0]

end Cert.RefValue

end
-- ==== Proof.RefValueLin1.lean ====
/-
  The first layer of the reference program is the specification's layer.

  Entry (r, c) of the stage is  (Σ_k (a (r, k) / D r) · W1l (k, c) + b1 c) + Σ_k x (r, k) · W1r (k, c),  where a is the
  neighbour sum of x and D the clamped in-degree: the quotient is taken entry by entry against the degree spread over
  the lanes, the bias is spread over the rows, and both products are contractions over the 128 input features.
-/
import proofs.«130728_j3418793967880_2_alg».proof.Proof.Gen.ReferenceIdeal.Read
import proofs.«130728_j3418793967880_2_alg».proof.Proof.RefAgg
import proofs.«130728_j3418793967880_2_alg».proof.Proof.Spec
import proofs.«130728_j3418793967880_2_alg».proof.Proof.RefValueAgg
import proofs.«130728_j3418793967880_2_alg».proof.Proof.RefValueRows

noncomputable section

namespace Cert.RefValue

open Idealize.ShloMosaic Idealize.ShloMosaic.ValueIdx Cert.ReferenceIdeal Cert.ReferenceIdeal.Gen Cert.ReferenceIdeal.Read
open scoped BigOperators

/-- The rescaled neighbour sum at (r, k): the sum over the incoming edges divided by the clamped in-degree of r. -/
theorem v22_at (x0 : FVec Ideal S50000x128 .f32) (x1 : Cert.RefAgg.EI) (r : Fin 50000) (k : Fin 128) :
    val_main_v22 (F := Ideal) x0 x1 (ix2 r k)
      = Ideal.div (Cert.RefAgg.agg1 x1 x0 (ix2 r k)) (Cert.RefAgg.deg x1 (ix1 r)) := by
  have h : val_main_v22 (F := Ideal) x0 x1
      = Host.divf (Cert.RefAgg.agg1 x1 x0) (broadcastInDim S50000x128 ![0, 1] bcast_S50000x1_S50000x128_0_1
          (broadcastInDim S50000x1 ![0] bcast_S50000_S50000x1_0 (Cert.RefAgg.deg x1))) := rfl
  rw [h]
  generalize Cert.RefAgg.agg1 x1 x0 = a
  generalize Cert.RefAgg.deg x1 = D
  exact divRow_apply a D _ _ r k

/-- The first layer, entry by entry. -/
theorem v28_eq (x0 : FVec Ideal S50000x128 .f32) (x1 : Cert.RefAgg.EI) (x2 : FVec Ideal S128x256 .f32) (x3 : FVec Ideal S256 .f32)
    (x4 : FVec Ideal S128x256 .f32) :
    val_main_v28 (F := Ideal) x0 x1 x2 x3 x4
      = Cert.Spec.lin (Cert.RefAgg.agg1 x1 x0) x0 (Cert.RefAgg.deg x1) x2 x4 x3 := by
  funext i
  obtain ⟨r, c, rfl⟩ : ∃ (r : Fin 50000) (c : Fin 256), i = ix2 r c := ⟨i 0, i 1, eq_ix2 i⟩
  have eL : ∀ k : Fin 128, lidx_main_v23 (ix2 r c) k = ix2 r k := fun k => funext fun a => by
    match a with | ⟨0, _⟩ => rfl | ⟨1, _⟩ => rfl
  have eR : ∀ k : Fin 128, ridx_main_v23 (ix2 r c) k = ix2 k c := fun k => funext fun a => by
    match a with | ⟨0, _⟩ => rfl | ⟨1, _⟩ => rfl
  have eL' : ∀ k : Fin 128, lidx_main_v27 (ix2 r c) k = ix2 r k := eL
  have eR' : ∀ k : Fin 128, ridx_main_v27 (ix2 r c) k = ix2 k c := eR
  have eB : idx_main_v24 (idx_main_v25 (ix2 r c)) = ix1 c := funext fun a => by
    match a with | ⟨0, _⟩ => rfl
  rw [Cert.Spec.lin_apply, val_main_v28_apply, val_main_v26_apply, val_main_v23_apply, val_main_v27_apply, val_main_v25_apply,
    val_main_v24_apply, eB]
  simp only [eL, eR, eL', eR', v22_at]
  generalize Cert.RefAgg.agg1 x1 x0 = a
  generalize Cert.RefAgg.deg x1 = D
  simp only [Ideal.addf_def]

end Cert.RefValue

end
-- ==== Proof.RefValueNorm.lean ====
/-
  The normalisation stage of the reference program is the specification's two-pass batch normalisation.

  With h the first layer's output [50000, 256] and cnt the word for 50000: the column mean is μ c = (0 + Σ_r h (r, c)) / cnt,
  the column variance is (0 + Σ_r (h (r, c) − μ c)²) / cnt, and entry (r, c) of the stage is
  max (((h (r, c) − μ c) · rsqrt (var c + ε)) · γ c + β c, 0).  The program spreads μ, the rsqrt factor, γ and β over the
  rows by two broadcasts each ([256] → [1, 256] → [50000, 256]); read at (r, c) each is the vector at c.
-/
import proofs.«130728_j3418793967880_2_alg».proof.Proof.Gen.ReferenceIdeal.Read
import proofs.«130728_j3418793967880_2_alg».proof.Proof.RefAgg
import proofs.«130728_j3418793967880_2_alg».proof.Proof.Spec

noncomputable section

namespace Cert.RefValue

open Idealize.ShloMosaic Idealize.ShloMosaic.ValueIdx Cert.ReferenceIdeal Cert.ReferenceIdeal.Gen Cert.ReferenceIdeal.Read
open scoped BigOperators

/-- The word for the row count 50000. -/
abbrev cntW : EReal := Ideal.ofBits .f32 0x47435000#32

/-- The mean stage at column c is the specification's column mean of the first layer. -/
theorem v31_at (x0 : FVec Ideal S50000x128 .f32) (x1 : Cert.RefAgg.EI) (x2 : FVec Ideal S128x256 .f32) (x3 : FVec Ideal S256 .f32)
    (x4 : FVec Ideal S128x256 .f32) (c : Fin 256) :
    val_main_v31 (F := Ideal) x0 x1 x2 x3 x4 (ix1 c) = Cert.Spec.colMean cntW (val_main_v28 (F := Ideal) x0 x1 x2 x3 x4) c := by
  have e : ∀ k : Fin 50000, idx_main_v29 (ix1 c) k = ix2 k c := fun k => funext fun a => by
    match a with | ⟨0, _⟩ => rfl | ⟨1, _⟩ => rfl
  rw [val_main_v31_apply, val_main_v29_apply, val_main_v30_apply, val_main_cst_4_apply, val_main_cst_5_apply]
  generalize val_main_v28 (F := Ideal) x0 x1 x2 x3 x4 = h
  simp only [e, Ideal.hostDivf_def, Ideal.ofBits_def]
  rfl

/-- The squared deviation from the column mean at (r, c). -/
theorem v35_at (x0 : FVec Ideal S50000x128 .f32) (x1 : Cert.RefAgg.EI) (x2 : FVec Ideal S128x256 .f32) (x3 : FVec Ideal S256 .f32)
    (x4 : FVec Ideal S128x256 .f32) (r : Fin 50000) (c : Fin 256) :
    val_main_v35 (F := Ideal) x0 x1 x2 x3 x4 (ix2 r c)
      = (val_main_v28 (F := Ideal) x0 x1 x2 x3 x4 (ix2 r c) - Cert.Spec.colMean cntW (val_main_v28 (F := Ideal) x0 x1 x2 x3 x4) c)
        * (val_main_v28 (F := Ideal) x0 x1 x2 x3 x4 (ix2 r c) - Cert.Spec.colMean cntW (val_main_v28 (F := Ideal) x0 x1 x2 x3 x4) c) := by
  have eM : idx_main_v32 (idx_main_v33 (ix2 r c)) = ix1 c := funext fun a => by
    match a with | ⟨0, _⟩ => rfl
  rw [val_main_v35_apply, val_main_v34_apply, val_main_v33_apply, val_main_v32_apply, eM, v31_at]
  generalize val_main_v28 (F := Ideal) x0 x1 x2 x3 x4 = h
  simp only [Ideal.mulf_def, Ideal.subf_def]

/-- The variance stage at column c: the mean of the squared deviations from the column mean. -/
theorem v38_at (x0 : FVec Ideal S50000x128 .f32) (x1 : Cert.RefAgg.EI) (x2 : FVec Ideal S128x256 .f32) (x3 : FVec Ideal S256 .f32)
    (x4 : FVec Ideal S128x256 .f32) (c : Fin 256) :
    val_main_v38 (F := Ideal) x0 x1 x2 x3 x4 (ix1 c)
      = Ideal.div (Cert.Spec.zeroW + ∑ r : Fin 50000,
          (val_main_v28 (F := Ideal) x0 x1 x2 x3 x4 (ix2 r c) - Cert.Spec.colMean cntW (val_main_v28 (F := Ideal) x0 x1 x2 x3 x4) c)
          * (val_main_v28 (F := Ideal) x0 x1 x2 x3 x4 (ix2 r c) - Cert.Spec.colMean cntW (val_main_v28 (F := Ideal) x0 x1 x2 x3 x4) c)) cntW := by
  have e : ∀ k : Fin 50000, idx_main_v36 (ix1 c) k = ix2 k c := fun k => funext fun a => by
    match a with | ⟨0, _⟩ => rfl | ⟨1, _⟩ => rfl
  rw [val_main_v38_apply, val_main_v36_apply, val_main_v37_apply, val_main_cst_6_apply, val_main_cst_7_apply]
  simp only [e, v35_at]
  generalize val_main_v28 (F := Ideal) x0 x1 x2 x3 x4 = h
  simp only [Ideal.hostDivf_def, Ideal.ofBits_def]

/-- The normalisation stage, entry by entry. -/
theorem v54_eq (x0 : FVec Ideal S50000x128 .f32) (x1 : Cert.RefAgg.EI) (x2 : FVec Ideal S128x256 .f32) (x3 : FVec Ideal S256 .f32)
    (x4 : FVec Ideal S128x256 .f32) (x5 x6 : FVec Ideal S256 .f32) :
    val_main_v54 (F := Ideal) x0 x1 x2 x3 x4 x5 x6 = Cert.Spec.bnRef cntW (val_main_v28 (F := Ideal) x0 x1 x2 x3 x4) x5 x6 := by
  funext i
  obtain ⟨r, c, rfl⟩ : ∃ (r : Fin 50000) (c : Fin 256), i = ix2 r c := ⟨i 0, i 1, eq_ix2 i⟩
  have eM : idx_main_v39 (idx_main_v40 (ix2 r c)) = ix1 c := funext fun a => by match a with | ⟨0, _⟩ => rfl
  have eS : idx_main_v45 (idx_main_v46 (ix2 r c)) = ix1 c := funext fun a => by match a with | ⟨0, _⟩ => rfl
  have eG : idx_main_v48 (idx_main_v49 (ix2 r c)) = ix1 c := funext fun a => by match a with | ⟨0, _⟩ => rfl
  have eB : idx_main_v51 (idx_main_v52 (ix2 r c)) = ix1 c := funext fun a => by match a with | ⟨0, _⟩ => rfl
  rw [Cert.Spec.bnRef_apply, val_main_v54_apply, val_main_v53_apply, val_main_v50_apply, val_main_v47_apply, val_main_v41_apply,
    val_main_v40_apply, val_main_v39_apply, eM, v31_at, val_main_v46_apply, val_main_v45_apply, eS, val_main_v44_apply,
    val_main_v43_apply, v38_at, val_main_v42_apply, val_main_cst_8_apply, val_main_v49_apply, val_main_v48_apply, eG,
    val_main_v52_apply, val_main_v51_apply, eB, val_main_call0_v0_apply, val_main_call0_cst_apply]
  generalize val_main_v28 (F := Ideal) x0 x1 x2 x3 x4 = h
  simp only [Ideal.maximumf_def, Ideal.addf_def, Ideal.mulf_def, Ideal.subf_def, Ideal.hostUnary_rsqrt_def, Ideal.ofBits_def]

end Cert.RefValue

end
-- ==== Proof.RefValueLin2.lean ====
/-
  The second layer of the reference program is the specification's layer applied to the normalised features.

  With h the normalisation stage [50000, 256], a its neighbour sum and D the clamped in-degree, entry (r, c) of the result
  is  (Σ_k (a (r, k) / D r) · W2l (k, c) + b2 c) + Σ_k h (r, k) · W2r (k, c),  the contractions over the 256 hidden features.
-/
import proofs.«130728_j3418793967880_2_alg».proof.Proof.Gen.ReferenceIdeal.Read
import proofs.«130728_j3418793967880_2_alg».proof.Proof.RefAgg
import proofs.«130728_j3418793967880_2_alg».proof.Proof.Spec
import proofs.«130728_j3418793967880_2_alg».proof.Proof.RefValueAgg
import proofs.«130728_j3418793967880_2_alg».proof.Proof.RefValueRows

noncomputable section

namespace Cert.RefValue

open Idealize.ShloMosaic Idealize.ShloMosaic.ValueIdx Cert.ReferenceIdeal Cert.ReferenceIdeal.Gen Cert.ReferenceIdeal.Read
open scoped BigOperators

/-- The rescaled neighbour sum of the normalised features at (r, k). -/
theorem v73_at (x0 : FVec Ideal S50000x128 .f32) (x1 : Cert.RefAgg.EI) (x2 : FVec Ideal S128x256 .f32) (x3 : FVec Ideal S256 .f32)
    (x4 : FVec Ideal S128x256 .f32) (x5 x6 : FVec Ideal S256 .f32) (r : Fin 50000) (k : Fin 256) :
    val_main_v73 (F := Ideal) x0 x1 x2 x3 x4 x5 x6 (ix2 r k)
      = Ideal.div (Cert.RefAgg.agg2 x1 (val_main_v54 (F := Ideal) x0 x1 x2 x3 x4 x5 x6) (ix2 r k)) (Cert.RefAgg.deg x1 (ix1 r)) := by
  have h : val_main_v73 (F := Ideal) x0 x1 x2 x3 x4 x5 x6
      = Host.divf (Cert.RefAgg.agg2 x1 (val_main_v54 (F := Ideal) x0 x1 x2 x3 x4 x5 x6))
          (broadcastInDim S50000x256 ![0, 1] bcast_S50000x1_S50000x256_0_1
            (broadcastInDim S50000x1 ![0] bcast_S50000_S50000x1_0 (Cert.RefAgg.deg x1))) := rfl
  rw [h]
  generalize Cert.RefAgg.agg2 x1 (val_main_v54 (F := Ideal) x0 x1 x2 x3 x4 x5 x6) = a
  generalize Cert.RefAgg.deg x1 = D
  exact divRow_apply a D _ _ r k

/-- The second layer, entry by entry. -/
theorem v79_eq (x0 : FVec Ideal S50000x128 .f32) (x1 : Cert.RefAgg.EI) (x2 : FVec Ideal S128x256 .f32) (x3 : FVec Ideal S256 .f32)
    (x4 : FVec Ideal S128x256 .f32) (x5 x6 : FVec Ideal S256 .f32) (x7 : FVec Ideal S256x128 .f32) (x8 : FVec Ideal S128 .f32)
    (x9 : FVec Ideal S256x128 .f32) :
    val_main_v79 (F := Ideal) x0 x1 x2 x3 x4 x5 x6 x7 x8 x9
      = Cert.Spec.lin (Cert.RefAgg.agg2 x1 (val_main_v54 (F := Ideal) x0 x1 x2 x3 x4 x5 x6)) (val_main_v54 (F := Ideal) x0 x1 x2 x3 x4 x5 x6) (Cert.RefAgg.deg x1) x7 x9 x8 := by
  funext i
  obtain ⟨r, c, rfl⟩ : ∃ (r : Fin 50000) (c : Fin 128), i = ix2 r c := ⟨i 0, i 1, eq_ix2 i⟩
  have eL : ∀ k : Fin 256, lidx_main_v74 (ix2 r c) k = ix2 r k := fun k => funext fun a => by
    match a with | ⟨0, _⟩ => rfl | ⟨1, _⟩ => rfl
  have eR : ∀ k : Fin 256, ridx_main_v74 (ix2 r c) k = ix2 k c := fun k => funext fun a => by
    match a with | ⟨0, _⟩ => rfl | ⟨1, _⟩ => rfl
  have eL' : ∀ k : Fin 256, lidx_main_v78 (ix2 r c) k = ix2 r k := eL
  have eR' : ∀ k : Fin 256, ridx_main_v78 (ix2 r c) k = ix2 k c := eR
  have eB : idx_main_v75 (idx_main_v76 (ix2 r c)) = ix1 c := funext fun a => by
    match a with | ⟨0, _⟩ => rfl
  rw [Cert.Spec.lin_apply, val_main_v79_apply, val_main_v77_apply, val_main_v74_apply, val_main_v78_apply, val_main_v76_apply,
    val_main_v75_apply, eB]
  simp only [eL, eR, eL', eR', v73_at]
  generalize Cert.RefAgg.agg2 x1 (val_main_v54 (F := Ideal) x0 x1 x2 x3 x4 x5 x6) = a
  generalize Cert.RefAgg.deg x1 = D
  generalize val_main_v54 (F := Ideal) x0 x1 x2 x3 x4 x5 x6 = h
  simp only [Ideal.addf_def]

end Cert.RefValue

end
-- ==== Proof.RefValue.lean ====
/-
  The reference program's result is the specification's encoder G.

  The program's last stage is the second layer applied to the normalisation of the first layer, each stage entry by entry
  the specification's, with the edge aggregation and the clamped in-degree the program's own spelling of them (RefAgg),
  all read from the edge list argument.  Composing the three stage equalities gives G of the program's arguments.
-/
import proofs.«130728_j3418793967880_2_alg».proof.Proof.Gen.ReferenceIdeal.Read
import proofs.«130728_j3418793967880_2_alg».proof.Proof.RefAgg
import proofs.«130728_j3418793967880_2_alg».proof.Proof.Spec
import proofs.«130728_j3418793967880_2_alg».proof.Proof.RefValueLin1
import proofs.«130728_j3418793967880_2_alg».proof.Proof.RefValueNorm
import proofs.«130728_j3418793967880_2_alg».proof.Proof.RefValueLin2

noncomputable section

namespace Cert.RefValue

open Idealize.ShloMosaic Idealize.ShloMosaic.TcCoe Idealize.SL.Sem Idealize.ShloMosaic.ValueIdx Cert.ReferenceIdeal Cert.ReferenceIdeal.Gen Cert.ReferenceIdeal.Read
open scoped BigOperators

/-- The reference's result, as one function of @main's arguments: the two-pass encoder. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v79 (F := Ideal) m c
      = Cert.Spec.G (Ideal.ofBits .f32 0x47435000#32)
          (Cert.RefAgg.agg1 (m ((c.tc : Thread nD τ).loc main_arg1)))
          (Cert.RefAgg.agg2 (m ((c.tc : Thread nD τ).loc main_arg1)))
          (Cert.RefAgg.deg (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) := by
  rw [val_main_v79_eq, v79_eq, v54_eq, v28_eq]
  rfl

end Cert.RefValue

end
-- ==== Proof.Encoder.lean ====
/-
  The two idealized programs compute one function.  The kernel's result array is the one-pass encoder of the
  arguments; on finite inputs every entry of the hidden layer is a real number — the edge aggregation of a real table
  is real, the clamped in-degree is a real number at least one — so the one-pass batch normalisation equals the
  two-pass one and the product with the reciprocal degree equals the quotient: the kernel's result is the two-pass
  encoder, which is what the reference computes.
-/
import proofs.«130728_j3418793967880_2_alg».proof.Proof.KernelLayer2
import proofs.«130728_j3418793967880_2_alg».proof.Proof.KernelRun
import proofs.«130728_j3418793967880_2_alg».proof.Proof.Bridge
import proofs.«130728_j3418793967880_2_alg».proof.Proof.FinitePre
import proofs.«130728_j3418793967880_2_alg».proof.Proof.RefValue

set_option maxRecDepth 16384

noncomputable section

namespace Cert.Proof.Encoder

open Idealize.ShloMosaic Idealize.ShloMosaic.TcCoe Idealize.ShloMosaic.ValueIdx Idealize.SL.Sem Cert.Reals

/-- On finite inputs the kernel's result array is the two-pass encoder of the arguments. -/
theorem kernel_is_G (m : (ℓ : Loc Cert.KernelIdeal.nD Cert.KernelIdeal.τ Cert.KernelIdeal.sig) → Buf (Elt Ideal) ℓ)
    (hpre : Cert.Pre_KernelIdeal m) (ρ : Dev Cert.KernelIdeal.nD → PrngReg) (c : Dev Cert.KernelIdeal.nD) :
    (Cert.KernelIdeal.Gen.W6 m ρ c (Proc.devRef .tc Cert.KernelIdeal.main_v63) : FVec Ideal Cert.KernelIdeal.S50000x128 .f32)
      = Cert.Spec.G (Ideal.ofBits .f32 0x47435000#32) (Cert.RefAgg.agg1 (m ((c.tc : Thread Cert.KernelIdeal.nD Cert.KernelIdeal.τ).loc Cert.KernelIdeal.main_arg1))) (Cert.RefAgg.agg2 (m ((c.tc : Thread Cert.KernelIdeal.nD Cert.KernelIdeal.τ).loc Cert.KernelIdeal.main_arg1))) (Cert.RefAgg.deg (m ((c.tc : Thread Cert.KernelIdeal.nD Cert.KernelIdeal.τ).loc Cert.KernelIdeal.main_arg1)))
        (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨hx, hw1l, hb1, hw1r, hγ, hβ, -, -, -⟩ := Cert.Finite.inputs_real m hpre c
  refine (Cert.KernelIdeal.Value.W6_out m ρ c).trans ?_
  exact Cert.Bridge.Gk_eq_G (N := 50000) (K := 128) (C := 256) (K2 := 128) (Ideal.ofBits .f32 0x47435000#32) Cert.Finite.count_word (by decide)
    (Cert.RefAgg.agg1 (m ((c.tc : Thread Cert.KernelIdeal.nD Cert.KernelIdeal.τ).loc Cert.KernelIdeal.main_arg1))) (Cert.RefAgg.agg2 (m ((c.tc : Thread Cert.KernelIdeal.nD Cert.KernelIdeal.τ).loc Cert.KernelIdeal.main_arg1))) (Cert.RefAgg.deg (m ((c.tc : Thread Cert.KernelIdeal.nD Cert.KernelIdeal.τ).loc Cert.KernelIdeal.main_arg1)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (Cert.Finite.deg_ne_zero (m ((c.tc : Thread Cert.KernelIdeal.nD Cert.KernelIdeal.τ).loc Cert.KernelIdeal.main_arg1))) (Cert.Finite.deg_real (m ((c.tc : Thread Cert.KernelIdeal.nD Cert.KernelIdeal.τ).loc Cert.KernelIdeal.main_arg1))) (Cert.Finite.agg1_real (m ((c.tc : Thread Cert.KernelIdeal.nD Cert.KernelIdeal.τ).loc Cert.KernelIdeal.main_arg1)) (m ((c.tc : Thread Cert.KernelIdeal.nD Cert.KernelIdeal.τ).loc Cert.KernelIdeal.main_arg0)) hx) hx hw1l hb1 hw1r hγ hβ

end Cert.Proof.Encoder

end
-- ==== Proof.lean ====
/-
  The certificate of a two-layer mean-aggregation graph encoder with batch normalisation: three pipelined kernels
  among host operations against a plain reference.  The three frames are the generated ones (the reference's is its
  generated run with the result dropped); the idealization rewrote nothing; and the two idealized programs, run from
  memories that agree on the arguments, both end with the two-pass encoder of the arguments in their result arrays.
  The kernel computes the one-pass form (column statistics accumulated over the row blocks, the normalisation folded
  into one multiply-add, the reciprocal degree as a factor), equal to the two-pass form on finite inputs.
-/
import proofs.«130728_j3418793967880_2_alg».proof.Defs
import proofs.«130728_j3418793967880_2_alg».proof.Proof.Gen.Kernel
import proofs.«130728_j3418793967880_2_alg».proof.Proof.Gen.Kernel.Skeleton
import proofs.«130728_j3418793967880_2_alg».proof.Proof.Gen.Kernel.Launch
import proofs.«130728_j3418793967880_2_alg».proof.Proof.Gen.Kernel.Points
import proofs.«130728_j3418793967880_2_alg».proof.Proof.Gen.Kernel.Frame
import proofs.«130728_j3418793967880_2_alg».proof.Proof.Gen.KernelIdeal
import proofs.«130728_j3418793967880_2_alg».proof.Proof.Gen.KernelIdeal.Skeleton
import proofs.«130728_j3418793967880_2_alg».proof.Proof.Gen.KernelIdeal.Launch
import proofs.«130728_j3418793967880_2_alg».proof.Proof.Gen.KernelIdeal.Points
import proofs.«130728_j3418793967880_2_alg».proof.Proof.Gen.KernelIdeal.Frame
import proofs.«130728_j3418793967880_2_alg».proof.Proof.Gen.ReferenceIdeal
import proofs.«130728_j3418793967880_2_alg».proof.Proof.Gen.Pre_finite_inputs
import proofs.«130728_j3418793967880_2_alg».proof.Proof.Gen.ReferenceIdeal.Run
import proofs.«130728_j3418793967880_2_alg».proof.Proof.Gen.ReferenceIdeal.Read
import proofs.«130728_j3418793967880_2_alg».proof.Proof.Encoder
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the two-pass encoder of the arguments in their result arrays. -/
theorem algebraic : Cert.algebraic_KernelIdeal_ReferenceIdeal := by
  intro m ρ m' ρ' hpre hagree
  refine ⟨fun c => Cert.Spec.G (Ideal.ofBits .f32 0x47435000#32) (Cert.RefAgg.agg1 (m ((c.tc : Thread Cert.KernelIdeal.nD Cert.KernelIdeal.τ).loc Cert.KernelIdeal.main_arg1))) (Cert.RefAgg.agg2 (m ((c.tc : Thread Cert.KernelIdeal.nD Cert.KernelIdeal.τ).loc Cert.KernelIdeal.main_arg1))) (Cert.RefAgg.deg (m ((c.tc : Thread Cert.KernelIdeal.nD Cert.KernelIdeal.τ).loc Cert.KernelIdeal.main_arg1)))
        (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Proof.Encoder.kernel_is_G m hpre ρ c), (h c).2⟩)
      (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.RefValue.ref_eq m' c, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
